-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v59)) (v3 : (c : Dev Cert.KernelIdeal.nD) → Buf (Elt Ideal) ((c.tc : Thread Cert.KernelIdeal.nD Cert.KernelIdeal.τ).loc Cert.KernelIdeal.main_v58_0)) (v4 : (c : Dev Cert.KernelIdeal.nD) → Buf (Elt Ideal) ((c.tc : Thread Cert.KernelIdeal.nD Cert.KernelIdeal.τ).loc Cert.KernelIdeal.main_v58_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_v58_0) = v3 c
          ∧ r.2.mem ((c.tc : Thread Cert.KernelIdeal.nD Cert.KernelIdeal.τ).loc Cert.KernelIdeal.main_v58_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x39 : Shape := ⟨2, ![50000, 39]⟩
abbrev S64x256 : Shape := ⟨2, ![64, 256]⟩
abbrev S256 : Shape := ⟨1, ![256]⟩
abbrev S13x256 : Shape := ⟨2, ![13, 256]⟩
abbrev S256x256 : Shape := ⟨2, ![256, 256]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x39 : S_.BroadcastsInDim S50000x39 (![] : Fin 0 → Fin S50000x39.rank)
  reducesTo_S50000x39_S_d0_1 : S50000x39.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S13x256 : S_.BroadcastsInDim S13x256 (![] : Fin 0 → Fin S13x256.rank)
  reducesTo_S13x256_S_d0_1 : S13x256.ReducesTo [0, 1] S_
  bcast_S_S256x256 : S_.BroadcastsInDim S256x256 (![] : Fin 0 → Fin S256x256.rank)
  reducesTo_S256x256_S_d0_1 : S256x256.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S256x1 .f32) (main_arg19 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg18
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S1024x512 .f32) (main_arg15 : FVec F S512 .f32) (main_arg16 : FVec F S512x256 .f32) (main_arg17 : FVec F S256 .f32) (main_arg18 : FVec F S256x1 .f32) (main_arg19 : FVec F S1 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x256 .f32 := Host.absf main_arg16
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256 .f32) (main_arg12 : FVec F S256x256 .f32) (main_arg13 : FVec F S256 .f32) (main_arg14 : FVec F S1024x512 .f32) (main_arg15 : FVec F S512 .f32) (main_arg16 : FVec F S512x256 .f32) (main_arg17 : FVec F S256 .f32) (main_arg18 : FVec F S256x1 .f32) (main_arg19 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S64x256 .f32) (main_arg9 : FVec F S256 .f32) (main_arg10 : FVec F S256x256 .f32) (main_arg11 : FVec F S256 .f32) (main_arg12 : FVec F S256x256 .f32) (main_arg13 : FVec F S256 .f32) (main_arg14 : FVec F S1024x512 .f32) (main_arg15 : FVec F S512 .f32) (main_arg16 : FVec F S512x256 .f32) (main_arg17 : FVec F S256 .f32) (main_arg18 : FVec F S256x1 .f32) (main_arg19 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S13x256 .f32) (main_arg5 : FVec F S256 .f32) (main_arg6 : FVec F S13x256 .f32) (main_arg7 : FVec F S256 .f32) (main_arg8 : FVec F S64x256 .f32) (main_arg9 : FVec F S256 .f32) (main_arg10 : FVec F S256x256 .f32) (main_arg11 : FVec F S256 .f32) (main_arg12 : FVec F S256x256 .f32) (main_arg13 : FVec F S256 .f32) (main_arg14 : FVec F S1024x512 .f32) (main_arg15 : FVec F S512 .f32) (main_arg16 : FVec F S512x256 .f32) (main_arg17 : FVec F S256 .f32) (main_arg18 : FVec F S256x1 .f32) (main_arg19 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S13x256 .f32 := Host.absf main_arg4
  let main_cst_6 : FVec F S_ .f32 := constant S_ .f32 0x7F800000#32
  let main_v20 : FVec F S13x256 .f32 := broadcastInDim S13x256 ![] bcast_S_S13x256 main_cst_6
  let main_v21 : IVec S13x256 1 := cmpf .olt main_v19 main_v20
  let main_c_7 : IVec S_ 1 := constantI S_ 1 1#1
  let main_v22 : IVec S_ 1 := (fun x v => Host.reduce IntOp.andi x v reducesTo_S13x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S13x256 .f32 := Host.absf main_arg6
  let main_cst_10 : FVec F S_ .f32 := constant S_ .f32 0x7F800000#32
  let main_v30 : FVec F S13x256 .f32 := broadcastInDim S13x256 ![] bcast_S_S13x256 main_cst_10
  let main_v31 : IVec S13x256 1 := cmpf .olt main_v29 main_v30
  let main_c_11 : IVec S_ 1 := constantI S_ 1 1#1
  let main_v32 : IVec S_ 1 := (fun x v => Host.reduce IntOp.andi x v reducesTo_S13x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S50000x64 .f32) (main_arg1 : FVec F S50000x39 .f32) (main_arg2 : FVec F S64x256 .f32) (main_arg3 : FVec F S256 .f32) (main_arg4 : FVec F S13x256 .f32) (main_arg5 : FVec F S256 .f32) (main_arg6 : FVec F S13x256 .f32) (main_arg7 : FVec F S256 .f32) (main_arg8 : FVec F S64x256 .f32) (main_arg9 : FVec F S256 .f32) (main_arg10 : FVec F S256x256 .f32) (main_arg11 : FVec F S256 .f32) (main_arg12 : FVec F S256x256 .f32) (main_arg13 : FVec F S256 .f32) (main_arg14 : FVec F S1024x512 .f32) (main_arg15 : FVec F S512 .f32) (main_arg16 : FVec F S512x256 .f32) (main_arg17 : FVec F S256 .f32) (main_arg18 : FVec F S256x1 .f32) (main_arg19 : FVec F S1 .f32) (main_arg20 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x39 .f32 := Host.absf main_arg1
  let main_cst_0 : FVec F S_ .f32 := constant S_ .f32 0x7F800000#32
  let main_v5 : FVec F S50000x39 .f32 := broadcastInDim S50000x39 ![] bcast_S_S50000x39 main_cst_0
  let main_v6 : IVec S50000x39 1 := cmpf .olt main_v4 main_v5
  let main_c_1 : IVec S_ 1 := constantI S_ 1 1#1
  let main_v7 : IVec S_ 1 := (fun x v => Host.reduce IntOp.andi x v reducesTo_S50000x39_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S50000x39 : Shape := ⟨2, ![50000, 39]⟩
abbrev S64x256 : Shape := ⟨2, ![64, 256]⟩
abbrev S256 : Shape := ⟨1, ![256]⟩
abbrev S13x256 : Shape := ⟨2, ![13, 256]⟩
abbrev S256x256 : Shape := ⟨2, ![256, 256]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x26 : Shape := ⟨2, ![50000, 26]⟩
abbrev S50000x256 : Shape := ⟨2, ![50000, 256]⟩
abbrev S1000x64 : Shape := ⟨2, ![1000, 64]⟩
abbrev S1000x26 : Shape := ⟨2, ![1000, 26]⟩
abbrev S1000x256 : Shape := ⟨2, ![1000, 256]⟩
abbrev S1000x13 : Shape := ⟨2, ![1000, 13]⟩
abbrev S1x256 : Shape := ⟨2, ![1, 256]⟩
abbrev S850000x256 : Shape := ⟨2, ![850000, 256]⟩
abbrev S50000x512 : Shape := ⟨2, ![50000, 512]⟩
abbrev S50000x1 : Shape := ⟨2, ![50000, 1]⟩
abbrev S1000x512 : Shape := ⟨2, ![1000, 512]⟩
abbrev S1000x1 : Shape := ⟨2, ![1000, 1]⟩
abbrev S1000x1024 : Shape := ⟨2, ![1000, 1024]⟩
abbrev S1x512 : Shape := ⟨2, ![1, 512]⟩
abbrev S1x1 : Shape := ⟨2, ![1, 1]⟩

abbrev nBuf : Space → Nat
  | .hbm => 98
  | .vmem => 46
  | .smem => 0
  | _ => 0

abbrev bufTy : (tb : Table) → Fin (tcTables nBuf tb) → BufTy
  | .hbm, ⟨0, _⟩ => ⟨S50000x64, .f32⟩
  | .hbm, ⟨1, _⟩ => ⟨S50000x39, .f32⟩
  | .hbm, ⟨2, _⟩ => ⟨S64x256, .f32⟩
  | .hbm, ⟨3, _⟩ => ⟨S256, .f32⟩
  | .hbm, ⟨4, _⟩ => ⟨S13x256, .f32⟩
  | .hbm, ⟨5, _⟩ => ⟨S256, .f32⟩
  | .hbm, ⟨6, _⟩ => ⟨S13x256, .f32⟩
  | .hbm, ⟨7, _⟩ => ⟨S256, .f32⟩
  | .hbm, ⟨8, _⟩ => ⟨S64x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1024x512, .f32⟩
  | .hbm, ⟨15, _⟩ => ⟨S512, .f32⟩
  | .hbm, ⟨16, _⟩ => ⟨S512x256, .f32⟩
  | .hbm, ⟨17, _⟩ => ⟨S256, .f32⟩
  | .hbm, ⟨18, _⟩ => ⟨S256x1, .f32⟩
  | .hbm, ⟨19, _⟩ => ⟨S1, .f32⟩
  | .hbm, ⟨20, _⟩ => ⟨S2x800000, .i32⟩
  | .hbm, ⟨21, _⟩ => ⟨S50000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S1x800000, .i32⟩
  | .hbm, ⟨26, _⟩ => ⟨S800000, .i32⟩
  | .hbm, ⟨27, _⟩ => ⟨S850000, .i32⟩
  | .hbm, ⟨28, _⟩ => ⟨S_, .f32⟩
  | .hbm, ⟨29, _⟩ => ⟨S850000, .f32⟩
  | .hbm, ⟨30, _⟩ => ⟨S_, .f32⟩
  | .hbm, ⟨31, _⟩ => ⟨S50000, .f32⟩
  | .hbm, ⟨32, _⟩ => ⟨S850000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S50000x26, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x256, .f32⟩
  | .hbm, ⟨71, _⟩ => ⟨S850000x1, .f32⟩
  | .hbm, ⟨72, _⟩ => ⟨S850000x256, .f32⟩
  | .hbm, ⟨73, _⟩ => ⟨S850000x256, .f32⟩
  | .hbm, ⟨74, _⟩ => ⟨S_, .f32⟩
  | .hbm, ⟨75, _⟩ => ⟨S50000x256, .f32⟩
  | .hbm, ⟨76, _⟩ => ⟨S850000x1, .i32⟩
  | .hbm, ⟨77, _⟩ => ⟨S50000x256, .f32⟩
  | .hbm, ⟨78, _⟩ => ⟨S50000x256, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x256, .f32⟩
  | .hbm, ⟨88, _⟩ => ⟨S850000x1, .f32⟩
  | .hbm, ⟨89, _⟩ => ⟨S850000x256, .f32⟩
  | .hbm, ⟨90, _⟩ => ⟨S850000x256, .f32⟩
  | .hbm, ⟨91, _⟩ => ⟨S_, .f32⟩
  | .hbm, ⟨92, _⟩ => ⟨S50000x256, .f32⟩
  | .hbm, ⟨93, _⟩ => ⟨S850000x1, .i32⟩
  | .hbm, ⟨94, _⟩ => ⟨S50000x256, .f32⟩
  | .hbm, ⟨95, _⟩ => ⟨S50000x512, .f32⟩
  | .hbm, ⟨96, _⟩ => ⟨S50000x1, .f32⟩
  | .hbm, ⟨97, _⟩ => ⟨S50000, .f32⟩
  | .local _ .vmem, ⟨0, _⟩ => ⟨S1000x64, .f32⟩
  | .local _ .vmem, ⟨1, _⟩ => ⟨S1000x64, .f32⟩
  | .local _ .vmem, ⟨2, _⟩ => ⟨S1000x26, .f32⟩
  | .local _ .vmem, ⟨3, _⟩ => ⟨S1000x26, .f32⟩
  | .local _ .vmem, ⟨4, _⟩ => ⟨S64x256, .f32⟩
  | .local _ .vmem, ⟨5, _⟩ => ⟨S256, .f32⟩
  | .local _ .vmem, ⟨6, _⟩ => ⟨S13x256, .f32⟩
  | .local _ .vmem, ⟨7, _⟩ => ⟨S256, .f32⟩
  | .local _ .vmem, ⟨8, _⟩ => ⟨S13x256, .f32⟩
  | .local _ .vmem, ⟨9, _⟩ => ⟨S256, .f32⟩
  | .local _ .vmem, ⟨10, _⟩ => ⟨S64x256, .f32⟩
  | .local _ .vmem, ⟨11, _⟩ => ⟨S256, .f32⟩
  | .local _ .vmem, ⟨12, _⟩ => ⟨S256x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S1000x256, .f32⟩
  | .local _ .vmem, ⟨23, _⟩ => ⟨S256, .f32⟩
  | .local _ .vmem, ⟨24, _⟩ => ⟨S256x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S1000x256, .f32⟩
  | .local _ .vmem, ⟨35, _⟩ => ⟨S256, .f32⟩
  | .local _ .vmem, ⟨36, _⟩ => ⟨S1024x512, .f32⟩
  | .local _ .vmem, ⟨37, _⟩ => ⟨S512, .f32⟩
  | .local _ .vmem, ⟨38, _⟩ => ⟨S512x256, .f32⟩
  | .local _ .vmem, ⟨39, _⟩ => ⟨S256, .f32⟩
  | .local _ .vmem, ⟨40, _⟩ => ⟨S256x1, .f32⟩
  | .local _ .vmem, ⟨41, _⟩ => ⟨S1, .f32⟩
  | .local _ .vmem, ⟨42, _⟩ => ⟨S1000x512, .f32⟩
  | .local _ .vmem, ⟨43, _⟩ => ⟨S1000x512, .f32⟩
  | .local _ .vmem, ⟨44, _⟩ => ⟨S1000x1, .f32⟩
  | .local _ .vmem, ⟨45, _⟩ => ⟨S1000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30_0 : Ref sig .tc := ⟨.hbm, 58, rfl⟩
abbrev main_v30_1 : Ref sig .tc := ⟨.hbm, 59, rfl⟩
abbrev main_v30_2 : Ref sig .tc := ⟨.hbm, 60, rfl⟩
abbrev main_v30_3 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_c_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_8 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58_0 : Ref sig .tc := ⟨.hbm, 95, rfl⟩
abbrev main_v58_1 : Ref sig .tc := ⟨.hbm, 96, rfl⟩
abbrev main_v59 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg3_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg11_1 : Ref sig .tc := ⟨.vmem, 43, rfl⟩
abbrev cc2_stg12_0 : Ref sig .tc := ⟨.vmem, 44, rfl⟩
abbrev cc2_stg12_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem3_0 : DmaSem sig := 25
abbrev cc1_sem3_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem11_1 : DmaSem sig := 43
abbrev cc2_sem12_0 : DmaSem sig := 44
abbrev cc2_sem12_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S13x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1000x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1000x1 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S50000x39_S50000x26_0_0 : S50000x39.Slices ![0, 0] S50000x26
  inb_S1000x64_S1000x64_0_0 : ∀ a, (![0, 0] : Fin 2 → Nat) a + S1000x64.size a ≤ S1000x64.size a
  h_S1000x64 : 0 < S1000x64.numel
  bitsLt_bf16_f32 : FTy.bits .bf16 < FTy.bits .f32
  inb_S1000x26_S1000x26_0_0 : ∀ a, (![0, 0] : Fin 2 → Nat) a + S1000x26.size a ≤ S1000x26.size a
  h_S1000x26 : 0 < S1000x26.numel
  shapeCasts_S1000x26_S1000x26 : S1000x26.ShapeCasts S1000x26
  slices_S1000x26_o0_0_S1000x13 : S1000x26.Slices ![0, 0] S1000x13
  slices_S1000x26_o0_13_S1000x13 : S1000x26.Slices ![0, 13] S1000x13
  inb_S64x256_S64x256_0_0 : ∀ a, (![0, 0] : Fin 2 → Nat) a + S64x256.size a ≤ S64x256.size a
  h_S64x256 : 0 < S64x256.numel
  inb_S13x256_S13x256_0_0 : ∀ a, (![0, 0] : Fin 2 → Nat) a + S13x256.size a ≤ S13x256.size a
  h_S13x256 : 0 < S13x256.numel
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S1000x256_S1000x256 : S1000x256.ShapeCasts S1000x256
  concatenates_S1000x256_S1000x256_S1000x256_S1000x256_S1000x1024_d1 : Shape.Concatenates [S1000x256, S1000x256, S1000x256, S1000x256] S1000x1024 1
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x64_S64x256_S1000x256_1_0_0_1_n_n_wf : DotDims.WF S1000x64 S64x256 S1000x256 [1] [0] [0] [1] [] []
  dot_S1000x13_S13x256_S1000x256_1_0_0_1_n_n_wf : DotDims.WF S1000x13 S13x256 S1000x256 [1] [0] [0] [1] [] []
  dot_S1000x256_S256x256_S1000x256_1_0_0_1_n_n_wf : DotDims.WF S1000x256 S256x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x1024_S1024x512_S1000x512_1_0_0_1_n_n_wf : DotDims.WF S1000x1024 S1024x512 S1000x512 [1] [0] [0] [1] [] []
  dot_S1000x512_S512x256_S1000x256_1_0_0_1_n_n_wf : DotDims.WF S1000x512 S512x256 S1000x256 [1] [0] [0] [1] [] []
  dot_S1000x256_S256x1_S1000x1_1_0_0_1_n_n_wf : DotDims.WF S1000x256 S256x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x26.size a ≤ S50000x26.size a
  hwx0_1 : ∀ i : grid0.Coords, EltTy.bits .f32 = 32 ∨ (Rect.block (s := S50000x26) S1000x26.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x256.size a ≤ S13x256.size a
  hwx0_4 : ∀ i : grid0.Coords, EltTy.bits .f32 = 32 ∨ (Rect.block (s := S13x256) S13x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x256.size a ≤ S13x256.size a
  hwx0_6 : ∀ i : grid0.Coords, EltTy.bits .f32 = 32 ∨ (Rect.block (s := S13x256) S13x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .f32 = 32 ∨ (Rect.block (s := S64x256) S64x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x256.size a ≤ S50000x256.size a
  hwx0_11 : ∀ i : grid0.Coords, EltTy.bits .f32 = 32 ∨ (Rect.block (s := S50000x256) S1000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x256.size a ≤ S50000x256.size a
  hwx0_12 : ∀ i : grid0.Coords, EltTy.bits .f32 = 32 ∨ (Rect.block (s := S50000x256) S1000x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x256.size a ≤ S50000x256.size a
  hwx0_13 : ∀ i : grid0.Coords, EltTy.bits .f32 = 32 ∨ (Rect.block (s := S50000x256) S1000x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x256.size a ≤ S50000x256.size a
  hwx0_14 : ∀ i : grid0.Coords, EltTy.bits .f32 = 32 ∨ (Rect.block (s := S50000x256) S1000x256.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S1024x512.size a
  hwx2_5 : ∀ i : grid2.Coords, EltTy.bits .f32 = 32 ∨ (Rect.block (s := S1024x512) S1024x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512.size a ≤ S512.size a
  hwx2_6 : ∀ i : grid2.Coords, EltTy.bits .f32 = 32 ∨ (Rect.block (s := S512) S512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x256.size a ≤ S512x256.size a
  hwx2_7 : ∀ i : grid2.Coords, EltTy.bits .f32 = 32 ∨ (Rect.block (s := S512x256) S512x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x1.size a ≤ S256x1.size a
  hwx2_9 : ∀ i : grid2.Coords, EltTy.bits .f32 = 32 ∨ (Rect.block (s := S256x1) S256x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1.size a ≤ S1.size a
  hwx2_10 : ∀ i : grid2.Coords, EltTy.bits .f32 = 32 ∨ (Rect.block (s := S1) S1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x512.size a ≤ S50000x512.size a
  hwx2_11 : ∀ i : grid2.Coords, EltTy.bits .f32 = 32 ∨ (Rect.block (s := S50000x512) S1000x512.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x1.size a ≤ S50000x1.size a
  hwx2_12 : ∀ i : grid2.Coords, EltTy.bits .f32 = 32 ∨ (Rect.block (s := S50000x1) S1000x1.size (cc2_transform_12 i) (hinb2_12 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x13_S13x256_S1000x256_1_0_0_1_n_n : DotDims S1000x13 S13x256 S1000x256 where
  lhsContracting := [1]
  rhsContracting := [0]
  lhsNonContracting := [0]
  rhsNonContracting := [1]
  lhsBatch := []
  rhsBatch := []
  wf := dot_S1000x13_S13x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x1_S1000x1_1_0_0_1_n_n : DotDims S1000x256 S256x1 S1000x1 where
  lhsContracting := [1]
  rhsContracting := [0]
  lhsNonContracting := [0]
  rhsNonContracting := [1]
  lhsBatch := []
  rhsBatch := []
  wf := dot_S1000x256_S256x1_S1000x1_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1000x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S13x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30_0) S1000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v30_1) S1000x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v30_2) S1000x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v30_3) S1000x256.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v43) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30_0) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30_1) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30_2) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S1024x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S512x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg18) S256x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg19) S1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v58_0) S1000x512.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v58_1) S1000x1.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x64 : Shape := ⟨2, ![50000, 64]⟩
abbrev S50000x39 : Shape := ⟨2, ![50000, 39]⟩
abbrev S64x256 : Shape := ⟨2, ![64, 256]⟩
abbrev S256 : Shape := ⟨1, ![256]⟩
abbrev S13x256 : Shape := ⟨2, ![13, 256]⟩
abbrev S256x256 : Shape := ⟨2, ![256, 256]⟩
abbrev S1024x512 : Shape := ⟨2, ![1024, 512]⟩
abbrev S512 : Shape := ⟨1, ![512]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S1x256 : Shape := ⟨2, ![1, 256]⟩
abbrev S_ : Shape := ⟨0, ![]⟩
abbrev S50000x13 : Shape := ⟨2, ![50000, 13]⟩
abbrev S850000x1 : Shape := ⟨2, ![850000, 1]⟩
abbrev S850000x256 : Shape := ⟨2, ![850000, 256]⟩
abbrev S50000x1024 : Shape := ⟨2, ![50000, 1024]⟩
abbrev S50000x512 : Shape := ⟨2, ![50000, 512]⟩
abbrev S1x512 : Shape := ⟨2, ![1, 512]⟩
abbrev S50000x1 : Shape := ⟨2, ![50000, 1]⟩
abbrev S1x1 : Shape := ⟨2, ![1, 1]⟩

abbrev nBuf : Space → Nat
  | .hbm => 230
  | .vmem => 0
  | .smem => 0
  | _ => 0

abbrev hbmTy0_0 (i : Nat) : BufTy := match i % 128 with
  | 0 => ⟨S50000x64, .f32⟩
  | 1 => ⟨S50000x39, .f32⟩
  | 2 => ⟨S64x256, .f32⟩
  | 3 => ⟨S256, .f32⟩
  | 4 => ⟨S13x256, .f32⟩
  | 5 => ⟨S256, .f32⟩
  | 6 => ⟨S13x256, .f32⟩
  | 7 => ⟨S256, .f32⟩
  | 8 => ⟨S64x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S1024x512, .f32⟩
  | 15 => ⟨S512, .f32⟩
  | 16 => ⟨S512x256, .f32⟩
  | 17 => ⟨S256, .f32⟩
  | 18 => ⟨S256x1, .f32⟩
  | 19 => ⟨S1, .f32⟩
  | 20 => ⟨S2x800000, .i32⟩
  | 21 => ⟨S50000, .i32⟩
  | 22 => ⟨S1x800000, .i32⟩
  | 23 => ⟨S800000, .i32⟩
  | 24 => ⟨S850000, .i32⟩
  | 25 => ⟨S1x800000, .i32⟩
  | 26 => ⟨S800000, .i32⟩
  | 27 => ⟨S850000, .i32⟩
  | 28 => ⟨S50000x256, .f32⟩
  | 29 => ⟨S1x256, .f32⟩
  | 30 => ⟨S50000x256, .f32⟩
  | 31 => ⟨S50000x256, .f32⟩
  | 32 => ⟨S_, .f32⟩
  | 33 => ⟨S_, .f32⟩
  | 34 => ⟨S50000x256, .f32⟩
  | 35 => ⟨S50000x256, .i1⟩
  | 36 => ⟨S_, .f32⟩
  | 37 => ⟨S50000x256, .f32⟩
  | 38 => ⟨S50000x256, .f32⟩
  | 39 => ⟨S50000x256, .f32⟩
  | 40 => ⟨S50000x13, .f32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S_, .f32⟩
  | 47 => ⟨S50000x256, .f32⟩
  | 48 => ⟨S50000x256, .i1⟩
  | 49 => ⟨S_, .f32⟩
  | 50 => ⟨S50000x256, .f32⟩
  | 51 => ⟨S50000x256, .f32⟩
  | 52 => ⟨S50000x256, .f32⟩
  | 53 => ⟨S50000x13, .f32⟩
  | 54 => ⟨S50000x256, .f32⟩
  | 55 => ⟨S1x256, .f32⟩
  | 56 => ⟨S50000x256, .f32⟩
  | 57 => ⟨S50000x256, .f32⟩
  | 58 => ⟨S_, .f32⟩
  | 59 => ⟨S_, .f32⟩
  | 60 => ⟨S50000x256, .f32⟩
  | 61 => ⟨S50000x256, .i1⟩
  | 62 => ⟨S_, .f32⟩
  | 63 => ⟨S50000x256, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S_, .f32⟩
  | 72 => ⟨S50000x256, .f32⟩
  | 73 => ⟨S50000x256, .i1⟩
  | 74 => ⟨S_, .f32⟩
  | 75 => ⟨S50000x256, .f32⟩
  | 76 => ⟨S50000x256, .f32⟩
  | 77 => ⟨S50000x256, .f32⟩
  | 78 => ⟨S50000x256, .f32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x256, .f32⟩
  | 117 => ⟨S850000x1, .f32⟩
  | 118 => ⟨S850000x256, .f32⟩
  | 119 => ⟨S850000x256, .f32⟩
  | 120 => ⟨S_, .f32⟩
  | 121 => ⟨S50000x256, .f32⟩
  | 122 => ⟨S850000x1, .i32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x64, .f32⟩

abbrev hbmTy0_1 (i : Nat) : BufTy := match i % 128 with
  | 0 => ⟨S_, .f32⟩
  | 1 => ⟨S50000x256, .f32⟩
  | 2 => ⟨S50000x256, .i1⟩
  | 3 => ⟨S_, .f32⟩
  | 4 => ⟨S50000x256, .f32⟩
  | 5 => ⟨S50000x256, .f32⟩
  | 6 => ⟨S50000x256, .f32⟩
  | 7 => ⟨S50000x256, .f32⟩
  | 8 => ⟨S_, .f32⟩
  | 9 => ⟨S850000, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x256, .f32⟩
  | 46 => ⟨S850000x1, .f32⟩
  | 47 => ⟨S850000x256, .f32⟩
  | 48 => ⟨S850000x256, .f32⟩
  | 49 => ⟨S_, .f32⟩
  | 50 => ⟨S50000x256, .f32⟩
  | 51 => ⟨S850000x1, .i32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S_, .f32⟩
  | 58 => ⟨S50000x256, .f32⟩
  | 59 => ⟨S50000x256, .i1⟩
  | 60 => ⟨S_, .f32⟩
  | 61 => ⟨S50000x256, .f32⟩
  | 62 => ⟨S50000x256, .f32⟩
  | 63 => ⟨S50000x256, .f32⟩
  | 64 => ⟨S50000x1024, .f32⟩
  | 65 => ⟨S50000x512, .f32⟩
  | 66 => ⟨S1x512, .f32⟩
  | 67 => ⟨S50000x512, .f32⟩
  | 68 => ⟨S50000x512, .f32⟩
  | 69 => ⟨S_, .f32⟩
  | 70 => ⟨S_, .f32⟩
  | 71 => ⟨S50000x512, .f32⟩
  | 72 => ⟨S50000x512, .i1⟩
  | 73 => ⟨S_, .f32⟩
  | 74 => ⟨S50000x512, .f32⟩
  | 75 => ⟨S50000x512, .f32⟩
  | 76 => ⟨S50000x512, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S_, .f32⟩
  | 83 => ⟨S50000x256, .f32⟩
  | 84 => ⟨S50000x256, .i1⟩
  | 85 => ⟨S_, .f32⟩
  | 86 => ⟨S50000x256, .f32⟩
  | 87 => ⟨S50000x256, .f32⟩
  | 88 => ⟨S50000x256, .f32⟩
  | 89 => ⟨S50000x1, .f32⟩
  | 90 => ⟨S1x1, .f32⟩
  | 91 => ⟨S50000x1, .f32⟩
  | 92 => ⟨S50000x1, .f32⟩
  | 93 => ⟨S50000x1, .f32⟩
  | 94 => ⟨S50000x1, .f32⟩
  | 95 => ⟨S_, .f32⟩
  | 96 => ⟨S50000x1, .f32⟩
  | 97 => ⟨S50000x1, .f32⟩
  | 98 => ⟨S_, .f32⟩
  | 99 => ⟨S50000x1, .f32⟩
  | 100 => ⟨S50000x1, .f32⟩
  | 101 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_1 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v28 : Ref sig .tc := ⟨.hbm, 77, rfl⟩
abbrev main_v29 : Ref sig .tc := ⟨.hbm, 78, rfl⟩
abbrev main_cst_3 : Ref sig .tc := ⟨.hbm, 79, rfl⟩
abbrev main_v30 : Ref sig .tc := ⟨.hbm, 80, rfl⟩
abbrev main_cst_4 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_5 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c : Ref sig .tc := ⟨.hbm, 89, rfl⟩
abbrev main_v37 : Ref sig .tc := ⟨.hbm, 90, rfl⟩
abbrev main_v38 : Ref sig .tc := ⟨.hbm, 91, rfl⟩
abbrev main_c_6 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_7 : Ref sig .tc := ⟨.hbm, 98, rfl⟩
abbrev main_v44 : Ref sig .tc := ⟨.hbm, 99, rfl⟩
abbrev main_v45 : Ref sig .tc := ⟨.hbm, 100, rfl⟩
abbrev main_c_8 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_c_9 : Ref sig .tc := ⟨.hbm, 108, rfl⟩
abbrev main_v52 : Ref sig .tc := ⟨.hbm, 109, rfl⟩
abbrev main_v53 : Ref sig .tc := ⟨.hbm, 110, rfl⟩
abbrev main_c_10 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_11 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_12 : Ref sig .tc := ⟨.hbm, 127, rfl⟩
abbrev main_call4_cst : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_v68 : Ref sig .tc := ⟨.hbm, 134, rfl⟩
abbrev main_v69 : Ref sig .tc := ⟨.hbm, 135, rfl⟩
abbrev main_cst_13 : Ref sig .tc := ⟨.hbm, 136, rfl⟩
abbrev main_v70 : Ref sig .tc := ⟨.hbm, 137, rfl⟩
abbrev main_cst_14 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_15 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_c_16 : Ref sig .tc := ⟨.hbm, 146, rfl⟩
abbrev main_v77 : Ref sig .tc := ⟨.hbm, 147, rfl⟩
abbrev main_v78 : Ref sig .tc := ⟨.hbm, 148, rfl⟩
abbrev main_c_17 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_c_18 : Ref sig .tc := ⟨.hbm, 155, rfl⟩
abbrev main_v84 : Ref sig .tc := ⟨.hbm, 156, rfl⟩
abbrev main_v85 : Ref sig .tc := ⟨.hbm, 157, rfl⟩
abbrev main_c_19 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_c_20 : Ref sig .tc := ⟨.hbm, 165, rfl⟩
abbrev main_v92 : Ref sig .tc := ⟨.hbm, 166, rfl⟩
abbrev main_v93 : Ref sig .tc := ⟨.hbm, 167, rfl⟩
abbrev main_c_21 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_cst_22 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_cst_23 : Ref sig .tc := ⟨.hbm, 184, rfl⟩
abbrev main_call5_cst : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_24 : Ref sig .tc := ⟨.hbm, 197, rfl⟩
abbrev main_call6_cst : Ref sig .tc := ⟨.hbm, 198, rfl⟩
abbrev main_call6_v0 : Ref sig .tc := ⟨.hbm, 199, rfl⟩
abbrev main_call6_v1 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_cst_25 : Ref sig .tc := ⟨.hbm, 209, rfl⟩
abbrev main_call7_cst : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_cst_26 : Ref sig .tc := ⟨.hbm, 223, rfl⟩
abbrev main_v126 : Ref sig .tc := ⟨.hbm, 224, rfl⟩
abbrev main_v127 : Ref sig .tc := ⟨.hbm, 225, rfl⟩
abbrev main_cst_27 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x39_S50000x13_0_0 : S50000x39.Slices ![0, 0] S50000x13
  slices_S50000x39_S50000x13_0_13 : S50000x39.Slices ![0, 13] S50000x13
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  concatenates_S50000x256_S50000x256_S50000x256_S50000x256_S50000x1024_d1 : Shape.Concatenates [S50000x256, S50000x256, S50000x256, S50000x256] S50000x1024 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  dot_S50000x64_S64x256_S50000x256_1_0_0_1_n_n_wf : DotDims.WF S50000x64 S64x256 S50000x256 [1] [0] [0] [1] [] []
  dot_S50000x13_S13x256_S50000x256_1_0_0_1_n_n_wf : DotDims.WF S50000x13 S13x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x1024_S1024x512_S50000x512_1_0_0_1_n_n_wf : DotDims.WF S50000x1024 S1024x512 S50000x512 [1] [0] [0] [1] [] []
  dot_S50000x512_S512x256_S50000x256_1_0_0_1_n_n_wf : DotDims.WF S50000x512 S512x256 S50000x256 [1] [0] [0] [1] [] []
  dot_S50000x256_S256x1_S50000x1_1_0_0_1_n_n_wf : DotDims.WF S50000x256 S256x1 S50000x1 [1] [0] [0] [1] [] []

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x13_S13x256_S50000x256_1_0_0_1_n_n : DotDims S50000x13 S13x256 S50000x256 where
  lhsContracting := [1]
  rhsContracting := [0]
  lhsNonContracting := [0]
  rhsNonContracting := [1]
  lhsBatch := []
  rhsBatch := []
  wf := dot_S50000x13_S13x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The kernel program's run with its results kept.  The program is three kernel regions among stretches of host
  operations; from any launch memory every weakly fair execution terminates, nothing faulting, and in the final
  state every buffer that outlives the program holds what the last boundary's contents say: a fold through the
  program from the launch memory, a host stretch applying its operations, a region leaving in each of its arrays
  what its write-backs leave.  Here the two result buffers are read at that last boundary beside the argument
  arrays (which end as launched).
-/
import proofs.«104056_j89859305767623_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates with the score buffer and the hidden-array buffer at the
    last boundary's contents and the argument arrays as launched. -/
theorem run_results : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_v58_0) = W7 m ρ c (Proc.devRef .tc main_v58_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       h c _ (mem_uc main_v58_0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c),
       (h c _ (mem_uc main_arg19 (by decide))).trans (W7_main_arg19 m ρ c),
       (h c _ (mem_uc main_arg20 (by decide))).trans (W7_main_arg20 m ρ c)⟩)

end Cert.KernelIdeal.Hand

end
-- ==== Proof.Terms.lean ====
/-
  The network both programs compute, written once as whole-array functions of the argument arrays, in the
  host's own operations.

  Nodes carry a 64-wide discrete feature row and a 39-wide continuous one.  Three dense layers with a leaky
  rectifier (slope 0x3C23D70A, the float nearest 1/100) give `xd`, `xc1`, `xc2` (the continuous row's columns 0–12
  and 13–25).  A fourth feeds two graph-convolution layers: with the edge table's sources and destinations
  (a loop appended at every node), d the in-degree floored at the word 0x2B8CBCCC and norm(e) = d(src e)^(-1/2) ·
  d(dst e)^(-1/2), one propagation `agg` gathers the rows at the sources, scales row e by norm(e) and sums the
  rows arriving at each destination; a layer is  x ↦ leaky(agg(x) + b) · W  in the arrangement used here
  (`xw1`, `xw2` are the products that enter the next propagation).  The four 256-wide pieces set side by side
  go through a dense layer to the 512-wide hidden array `hid`, and two more dense layers and the logistic
  function give one score per node (`score`, flattened by `resS`).
-/
import proofs.«104056_j89859305767623_1_alg».proof.ReferenceIdeal

noncomputable section

namespace Cert.Gnn

open Cert.ReferenceIdeal Idealize.ShloMosaic

variable {F : FTy → Type} [FloatOps F] [Facts₀]

open Facts₀

/-- The contents of a buffer holding an array of shape `s` with elements of type `e`. -/
abbrev Arr (F : FTy → Type) (s : Shape) (e : EltTy) : Type := (⟨s, e⟩ : BufTy).Contents (Elt F)

/-! ## The graph's part -/

/-- The sources of the edges, then every node once (its loop). -/
def src (ei : Arr F S2x800000 .i32) : Arr F S850000 .i32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The destinations of the edges, then every node once. -/
def dst (ei : Arr F S2x800000 .i32) : Arr F S850000 .i32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- Node numbers as a column of row numbers, a negative one counted from the end. -/
def col (v : Arr F S850000 .i32) : Arr F S850000x1 .i32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- d^(-1/2), d the number of edges arriving at a node, floored. -/
def dinv (ei : Arr F S2x800000 .i32) : Arr F S50000 .f32 :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 (dst ei))
      (broadcastInDim S850000 ![] bcast_S_S850000 (constant S_ .f32 0x3F800000#32)))
    (broadcastInDim S50000 ![] bcast_S_S50000 (constant S_ .f32 0x2B8CBCCC#32)))

/-- The weight of every edge: d(src)^(-1/2) · d(dst)^(-1/2). -/
def norm (ei : Arr F S2x800000 .i32) : Arr F S850000 .f32 :=
  mulf (Host.gather gather_S50000_S850000x1_S850000_n_0_n_n_0_1_1 (dinv ei) (col (src ei)))
    (Host.gather gather_S50000_S850000x1_S850000_n_0_n_n_0_1_1 (dinv ei) (col (dst ei)))

/-- One propagation along the edges: the rows at the sources, each scaled by its edge's weight, summed at the
    destinations. -/
def agg (ei : Arr F S2x800000 .i32) (x : Arr F S50000x256 .f32) : Arr F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 (dst ei))
    (mulf (Host.gather gather_S50000x256_S850000x1_S850000x256_1_0_n_n_0_1_1256 x (col (src ei)))
      (broadcastInDim S850000x256 ![0, 1] bcast_S850000x1_S850000x256_0_1
        (broadcastInDim S850000x1 ![0] bcast_S850000_S850000x1_0 (norm ei))))

/-! ## The dense part -/

/-- The leaky rectifier over an array of any shape: x where x ≥ 0, slope · x elsewhere. -/
def leaky (s : Shape) (h : S_.BroadcastsInDim s ![]) (x : Arr F s .f32) : Arr F s .f32 :=
  select (cmpf .oge x (broadcastInDim s ![] h (constant S_ .f32 0x00000000#32))) x
    (mulf (broadcastInDim s ![] h (id (constant S_ .f32 0x3C23D70A#32))) x)

/-- A 256-vector laid along every one of the 50000 rows. -/
def rows256 (b : Arr F S256 .f32) : Arr F S50000x256 .f32 :=
  broadcastInDim S50000x256 ![0, 1] bcast_S1x256_S50000x256_0_1 (broadcastInDim S1x256 ![1] bcast_S256_S1x256_1 b)

/-- leaky (X · W + b) for the 64-wide features. -/
def xd (X : Arr F S50000x64 .f32) (W : Arr F S64x256 .f32) (b : Arr F S256 .f32) : Arr F S50000x256 .f32 :=
  leaky S50000x256 bcast_S_S50000x256
    (addf (Host.dotGeneral dot_S50000x64_S64x256_S50000x256_1_0_0_1_n_n none X W) (rows256 b))

/-- leaky (C[:, 0:13] · W + b). -/
def xc1 (C : Arr F S50000x39 .f32) (W : Arr F S13x256 .f32) (b : Arr F S256 .f32) : Arr F S50000x256 .f32 :=
  leaky S50000x256 bcast_S_S50000x256
    (addf (Host.dotGeneral dot_S50000x13_S13x256_S50000x256_1_0_0_1_n_n none
      (extractStridedSlice S50000x13 ![0, 0] C slices_S50000x39_S50000x13_0_0) W) (rows256 b))

/-- leaky (C[:, 13:26] · W + b). -/
def xc2 (C : Arr F S50000x39 .f32) (W : Arr F S13x256 .f32) (b : Arr F S256 .f32) : Arr F S50000x256 .f32 :=
  leaky S50000x256 bcast_S_S50000x256
    (addf (Host.dotGeneral dot_S50000x13_S13x256_S50000x256_1_0_0_1_n_n none
      (extractStridedSlice S50000x13 ![0, 13] C slices_S50000x39_S50000x13_0_13) W) (rows256 b))

/-- leaky (X · W₀ + b₀) · W₁: what enters the first propagation. -/
def xw1 (X : Arr F S50000x64 .f32) (W0 : Arr F S64x256 .f32) (b0 : Arr F S256 .f32) (W1 : Arr F S256x256 .f32) :
    Arr F S50000x256 .f32 :=
  Host.dotGeneral dot_S50000x256_S256x256_S50000x256_1_0_0_1_n_n none (xd X W0 b0) W1

/-- leaky (raw + b) · W: what enters the second propagation. -/
def xw2 (raw : Arr F S50000x256 .f32) (b : Arr F S256 .f32) (W : Arr F S256x256 .f32) : Arr F S50000x256 .f32 :=
  Host.dotGeneral dot_S50000x256_S256x256_S50000x256_1_0_0_1_n_n none
    (leaky S50000x256 bcast_S_S50000x256 (addf raw (rows256 b))) W

/-- The hidden array: the four pieces side by side through a dense layer. -/
def hid (d c1 c2 raw : Arr F S50000x256 .f32) (bg : Arr F S256 .f32) (Wf : Arr F S1024x512 .f32) (bf : Arr F S512 .f32) :
    Arr F S50000x512 .f32 :=
  leaky S50000x512 bcast_S_S50000x512
    (addf (Host.dotGeneral dot_S50000x1024_S1024x512_S50000x512_1_0_0_1_n_n none
        (concatenate S50000x1024 1 [⟨S50000x256, d⟩, ⟨S50000x256, c1⟩, ⟨S50000x256, c2⟩,
          ⟨S50000x256, leaky S50000x256 bcast_S_S50000x256 (addf raw (rows256 bg))⟩]
          concatenates_S50000x256_S50000x256_S50000x256_S50000x256_S50000x1024_d1) Wf)
      (broadcastInDim S50000x512 ![0, 1] bcast_S1x512_S50000x512_0_1 (broadcastInDim S1x512 ![1] bcast_S512_S1x512_1 bf)))

/-- One score per node, as a column: logistic (leaky (h · W₁ + b₁) · W₂ + b₂). -/
def score (h : Arr F S50000x512 .f32) (W1 : Arr F S512x256 .f32) (b1 : Arr F S256 .f32) (W2 : Arr F S256x1 .f32)
    (b2 : Arr F S1 .f32) : Arr F S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf
        (addf (Host.dotGeneral dot_S50000x256_S256x1_S50000x1_1_0_0_1_n_n none
            (leaky S50000x256 bcast_S_S50000x256
              (addf (Host.dotGeneral dot_S50000x512_S512x256_S50000x256_1_0_0_1_n_n none h W1) (rows256 b1))) W2)
          (broadcastInDim S50000x1 ![0, 1] bcast_S1x1_S50000x1_0_1 (broadcastInDim S1x1 ![1] bcast_S1_S1x1_1 b2))))))

/-! ## The whole network -/

/-- The hidden array of the argument arrays. -/
def resH (a0 : Arr F S50000x64 .f32) (a1 : Arr F S50000x39 .f32) (a2 : Arr F S64x256 .f32) (a3 : Arr F S256 .f32)
    (a4 : Arr F S13x256 .f32) (a5 : Arr F S256 .f32) (a6 : Arr F S13x256 .f32) (a7 : Arr F S256 .f32)
    (a8 : Arr F S64x256 .f32) (a9 : Arr F S256 .f32) (a10 : Arr F S256x256 .f32) (a11 : Arr F S256 .f32)
    (a12 : Arr F S256x256 .f32) (a13 : Arr F S256 .f32) (a14 : Arr F S1024x512 .f32) (a15 : Arr F S512 .f32)
    (a20 : Arr F S2x800000 .i32) : Arr F S50000x512 .f32 :=
  hid (xd a0 a2 a3) (xc1 a1 a4 a5) (xc2 a1 a6 a7) (agg a20 (xw2 (agg a20 (xw1 a0 a8 a9 a10)) a11 a12)) a13 a14 a15

/-- The scores of the argument arrays, one per node. -/
def resS (a0 : Arr F S50000x64 .f32) (a1 : Arr F S50000x39 .f32) (a2 : Arr F S64x256 .f32) (a3 : Arr F S256 .f32)
    (a4 : Arr F S13x256 .f32) (a5 : Arr F S256 .f32) (a6 : Arr F S13x256 .f32) (a7 : Arr F S256 .f32)
    (a8 : Arr F S64x256 .f32) (a9 : Arr F S256 .f32) (a10 : Arr F S256x256 .f32) (a11 : Arr F S256 .f32)
    (a12 : Arr F S256x256 .f32) (a13 : Arr F S256 .f32) (a14 : Arr F S1024x512 .f32) (a15 : Arr F S512 .f32)
    (a16 : Arr F S512x256 .f32) (a17 : Arr F S256 .f32) (a18 : Arr F S256x1 .f32) (a19 : Arr F S1 .f32)
    (a20 : Arr F S2x800000 .i32) : Arr F S50000 .f32 :=
  shapeCast S50000 (score (resH a0 a1 a2 a3 a4 a5 a6 a7 a8 a9 a10 a11 a12 a13 a14 a15 a20) a16 a17 a18 a19)
    shapeCasts_S50000x1_S50000

end Cert.Gnn

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.LibRowPerceptron.lean ====
/-
  A two-layer perceptron, read one row at a time on the extended reals.

  The output row p of   relu (x · W₁ + b₁) · W₂ + b₂   depends on row p of x only:

      out (p, u) = Σ_k  max (Σ_j x (p, j) · W₁ (j, k) + b₁ k) 0 · W₂ (k, u)  +  b₂ u .

  Two spellings of that array are read at an entry and found to be this expression: the one a kernel forms (two
  products into the zero accumulator with the operands' formats narrowed on the way, the biases kept as 1 × n rows
  and repeated down the rows, the zero of the maximum a scalar repeated), and the one a host program forms (two
  general dot products, each bias taken from a vector to a 1 × n row and then down the rows, the zero a scalar array
  repeated).  On the extended reals a change of format is the identity and both products are the plain finite sum,
  so the two spellings agree entry by entry, on arrays of any number of rows.

  Beside it: arrays of 64 columns set side by side along the columns, read at a column as the piece the column
  falls in; and the host's  1 / (1 + exp (−y))  read at an entry as the logistic function of the entry.

  Nothing here knows a program.
-/
import Idealize.ShloMosaic.Lib.ValueIdx
import Idealize.ShloMosaic.Lib.Pipeline.Value
import Idealize.ShloMosaic.Lib.IdealHost
import Idealize.ShloMosaic.PureOps.Ideal.Laws
import proofs.«104056_j89859305767623_1_alg».proof.Proof.LibRowsProduct

noncomputable section

open scoped BigOperators

namespace Cert.RowPerceptron

open Idealize.ShloMosaic Idealize.ShloMosaic.ValueIdx

/-! ## Arrays of 64 columns set side by side -/

section Pieces

variable {α : Type}

/-- Column j of two 64-column rows set side by side. -/
def pick2 (x0 x1 : Fin 64 → α) (j : Fin 128) : α :=
  if h : j.val < 64 then x0 ⟨j.val, h⟩ else x1 ⟨j.val - 64, by have := j.isLt; omega⟩

/-- Column j of three 64-column rows set side by side. -/
def pick3 (x0 x1 x2 : Fin 64 → α) (j : Fin 192) : α :=
  if h : j.val < 64 then x0 ⟨j.val, h⟩
  else if h' : j.val < 128 then x1 ⟨j.val - 64, by omega⟩
  else x2 ⟨j.val - 128, by have := j.isLt; omega⟩

/-- Two a × 64 arrays joined along the columns: entry (r, j) is column j of the two rows r set side by side. -/
theorem concat2_apply {a : ℕ} (x0 x1 : (⟨2, ![a, 64]⟩ : Shape).Idx → α)
    (h : Shape.Concatenates (([⟨⟨2, ![a, 64]⟩, x0⟩, ⟨⟨2, ![a, 64]⟩, x1⟩] :
      List ((s : Shape) × (s.Idx → α))).map (·.1)) ⟨2, ![a, 128]⟩ 1)
    (r : Fin a) (j : Fin 128) :
    concatenate ⟨2, ![a, 128]⟩ 1 [⟨⟨2, ![a, 64]⟩, x0⟩, ⟨⟨2, ![a, 64]⟩, x1⟩] h (ix2 r j)
      = pick2 (fun q => x0 (ix2 r q)) (fun q => x1 (ix2 r q)) j := by
  unfold pick2
  by_cases hj : j.val < 64
  · rw [dif_pos hj]
    refine concatenate_apply_piece 1 _ h (ix2 r j) 0 (by show 0 < 2; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    refine concatenate_apply_piece 1 _ h (ix2 r j) 1 (by show 1 < 2; omega) ⟨2, ![a, 64]⟩ x1 rfl rfl 64 rfl
      (ix2 r ⟨j.val - 64, by have := j.isLt; omega⟩) ?_ ?_
    · intro ax hax
      match ax with
      | ⟨0, _⟩ => rfl
      | ⟨1, _⟩ => exact absurd rfl hax
    · show 64 + (j.val - 64) = j.val
      omega

/-- Three a × 64 arrays joined along the columns: entry (r, j) is column j of the three rows r set side by side. -/
theorem concat3_apply {a : ℕ} (x0 x1 x2 : (⟨2, ![a, 64]⟩ : Shape).Idx → α)
    (h : Shape.Concatenates (([⟨⟨2, ![a, 64]⟩, x0⟩, ⟨⟨2, ![a, 64]⟩, x1⟩, ⟨⟨2, ![a, 64]⟩, x2⟩] :
      List ((s : Shape) × (s.Idx → α))).map (·.1)) ⟨2, ![a, 192]⟩ 1)
    (r : Fin a) (j : Fin 192) :
    concatenate ⟨2, ![a, 192]⟩ 1 [⟨⟨2, ![a, 64]⟩, x0⟩, ⟨⟨2, ![a, 64]⟩, x1⟩, ⟨⟨2, ![a, 64]⟩, x2⟩] h (ix2 r j)
      = pick3 (fun q => x0 (ix2 r q)) (fun q => x1 (ix2 r q)) (fun q => x2 (ix2 r q)) j := by
  unfold pick3
  by_cases hj : j.val < 64
  · rw [dif_pos hj]
    refine concatenate_apply_piece 1 _ h (ix2 r j) 0 (by show 0 < 3; omega) ⟨2, ![a, 64]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    by_cases hj' : j.val < 128
    · rw [dif_pos hj']
      refine concatenate_apply_piece 1 _ h (ix2 r j) 1 (by show 1 < 3; omega) ⟨2, ![a, 64]⟩ x1 rfl rfl 64 rfl
        (ix2 r ⟨j.val - 64, by omega⟩) ?_ ?_
      · intro ax hax
        match ax with
        | ⟨0, _⟩ => rfl
        | ⟨1, _⟩ => exact absurd rfl hax
      · show 64 + (j.val - 64) = j.val
        omega
    · rw [dif_neg hj']
      refine concatenate_apply_piece 1 _ h (ix2 r j) 2 (by show 2 < 3; omega) ⟨2, ![a, 64]⟩ x2 rfl rfl 128 rfl
        (ix2 r ⟨j.val - 128, by have := j.isLt; omega⟩) ?_ ?_
      · intro ax hax
        match ax with
        | ⟨0, _⟩ => rfl
        | ⟨1, _⟩ => exact absurd rfl hax
      · show 128 + (j.val - 128) = j.val
        omega

end Pieces

/-! ## The perceptron at an entry -/

variable {a K H O : ℕ}

/-- relu (x · W₁ + b₁) · W₂ + b₂ at column u, from one row x of the input. -/
def mlp (x : Fin K → EReal) (W1 : (⟨2, ![K, H]⟩ : Shape).Idx → EReal) (b1 : Fin H → EReal)
    (W2 : (⟨2, ![H, O]⟩ : Shape).Idx → EReal) (b2 : Fin O → EReal) (u : Fin O) : EReal :=
  (∑ k : Fin H, max ((∑ j : Fin K, x j * W1 (ix2 j k)) + b1 k) (Ideal.ofBits .f32 0x00000000#32) * W2 (ix2 k u)) + b2 u

/-- A 1 × n row, cast to its own shape and repeated down a rows, reads at (p, u) the row's entry u. -/
theorem rowBias_apply {α : Type} {n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (u : Fin n) :
    broadcastTo ⟨2, ![a, n]⟩ (shapeCast ⟨2, ![1, n]⟩ v hc) hb (ix2 p u) = v (ix2 (0 : Fin 1) u) := by
  rw [shapeCast_self]
  refine broadcastTo_apply v hb (ix2 p u) (ix2 (0 : Fin 1) u) fun ax => ?_
  match ax with
  | ⟨0, _⟩ => rfl
  | ⟨1, _⟩ =>
    show u.val = if n = 1 then 0 else u.val
    split
    · have := u.isLt; omega
    · rfl

/-- A vector of n numbers taken to a 1 × n row and then repeated down a rows reads at (p, u) the vector's entry u. -/
theorem vecBias_apply {α : Type} {n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (u : Fin n) :
    broadcastInDim ⟨2, ![a, n]⟩ ![0, 1] h2 (broadcastInDim ⟨2, ![1, n]⟩ ![1] h1 v) (ix2 p u) = v (ix1 u) := by
  rw [broadcastInDim_apply ![0, 1] h2 _ (ix2 p u) (ix2 (0 : Fin 1) u) (fun ax => by
    match ax with
    | ⟨0, _⟩ => rfl
    | ⟨1, _⟩ =>
      show u.val = if n = 1 then 0 else u.val
      split
      · have := u.isLt; omega
      · rfl)]
  refine broadcastInDim_apply ![1] h1 v (ix2 (0 : Fin 1) u) (ix1 u) fun ax => ?_
  match ax with
  | ⟨0, _⟩ =>
    show u.val = if n = 1 then 0 else u.val
    split
    · have := u.isLt; omega
    · rfl

/-- The kernel's spelling, at entry (p, u), is the perceptron of row p. -/
theorem kernel_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨2, ![1, H]⟩ .f32) (b2 : FVec Ideal ⟨2, ![1, O]⟩ .f32)
    (hc1 : (⟨2, ![1, H]⟩ : Shape).ShapeCasts ⟨2, ![1, H]⟩) (hb1 : (⟨2, ![1, H]⟩ : Shape).Broadcasts ⟨2, ![a, H]⟩)
    (hc2 : (⟨2, ![1, O]⟩ : Shape).ShapeCasts ⟨2, ![1, O]⟩) (hb2 : (⟨2, ![1, O]⟩ : Shape).Broadcasts ⟨2, ![a, O]⟩)
    (hlt : (FTy.bf16).bits < (FTy.f32).bits) (p : Fin a) (u : Fin O) :
    addf (matmul D2 none
          (truncf .bf16 (maximumf (addf (matmul D1 none x W1 (constant ⟨2, ![a, H]⟩ .f32 0x00000000#32))
              (broadcastTo ⟨2, ![a, H]⟩ (shapeCast ⟨2, ![1, H]⟩ b1 hc1) hb1))
            (broadcast ⟨2, ![a, H]⟩ (Scalar.ofBits (F := Ideal) .f32 0x00000000#32))) hlt)
          W2 (constant ⟨2, ![a, O]⟩ .f32 0x00000000#32))
        (broadcastTo ⟨2, ![a, O]⟩ (shapeCast ⟨2, ![1, O]⟩ b2 hc2) hb2) (ix2 p u)
      = mlp (fun j => x (ix2 p j)) W1 (fun k => b1 (ix2 (0 : Fin 1) k)) W2 (fun v => b2 (ix2 (0 : Fin 1) v)) u := by
  show FloatOps.matmul D2 none _ W2 (constant ⟨2, ![a, O]⟩ .f32 0x00000000#32) (ix2 p u)
      + broadcastTo ⟨2, ![a, O]⟩ (shapeCast ⟨2, ![1, O]⟩ b2 hc2) hb2 (ix2 p u) = _
  rw [Cert.RowsProduct.matmul_zero_rows_apply D2 none h2r h2s h2l0 h2l1 h2r0 h2r1, rowBias_apply]
  unfold mlp
  refine congrArg (· + b2 (ix2 (0 : Fin 1) u)) (Finset.sum_congr rfl fun k _ => ?_)
  show max (FloatOps.matmul D1 none x W1 (constant ⟨2, ![a, H]⟩ .f32 0x00000000#32) (ix2 p k)
      + broadcastTo ⟨2, ![a, H]⟩ (shapeCast ⟨2, ![1, H]⟩ b1 hc1) hb1 (ix2 p k)) (Ideal.ofBits .f32 0x00000000#32) * W2 (ix2 k u) = _
  rw [Cert.RowsProduct.matmul_zero_rows_apply D1 none h1r h1s h1l0 h1l1 h1r0 h1r1, rowBias_apply]

/-- The host's spelling, at entry (p, u), is the perceptron of row p. -/
theorem host_mlp_apply {φx φ1 φ2 : FTy}
    (D1 : DotDims ⟨2, ![a, K]⟩ ⟨2, ![K, H]⟩ ⟨2, ![a, H]⟩) (D2 : DotDims ⟨2, ![a, H]⟩ ⟨2, ![H, O]⟩ ⟨2, ![a, O]⟩)
    (h1r : D1.contr.rank = 1) (h1s : D1.contr.size ⟨0, by omega⟩ = K)
    (h1l0 : ∀ j q, (D1.lhsIdx j q 0).val = (j 0).val) (h1l1 : ∀ j q, (D1.lhsIdx j q 1).val = (q ⟨0, by omega⟩).val)
    (h1r0 : ∀ j q, (D1.rhsIdx j q 0).val = (q ⟨0, by omega⟩).val) (h1r1 : ∀ j q, (D1.rhsIdx j q 1).val = (j 1).val)
    (h2r : D2.contr.rank = 1) (h2s : D2.contr.size ⟨0, by omega⟩ = H)
    (h2l0 : ∀ j q, (D2.lhsIdx j q 0).val = (j 0).val) (h2l1 : ∀ j q, (D2.lhsIdx j q 1).val = (q ⟨0, by omega⟩).val)
    (h2r0 : ∀ j q, (D2.rhsIdx j q 0).val = (q ⟨0, by omega⟩).val) (h2r1 : ∀ j q, (D2.rhsIdx j q 1).val = (j 1).val)
    (x : FVec Ideal ⟨2, ![a, K]⟩ φx) (W1 : FVec Ideal ⟨2, ![K, H]⟩ φ1) (W2 : FVec Ideal ⟨2, ![H, O]⟩ φ2)
    (b1 : FVec Ideal ⟨1, ![H]⟩ .f32) (b2 : FVec Ideal ⟨1, ![O]⟩ .f32)
    (hv1 : (⟨1, ![H]⟩ : Shape).BroadcastsInDim ⟨2, ![1, H]⟩ ![1])
    (hw1 : (⟨2, ![1, H]⟩ : Shape).BroadcastsInDim ⟨2, ![a, H]⟩ ![0, 1])
    (hv2 : (⟨1, ![O]⟩ : Shape).BroadcastsInDim ⟨2, ![1, O]⟩ ![1])
    (hw2 : (⟨2, ![1, O]⟩ : Shape).BroadcastsInDim ⟨2, ![a, O]⟩ ![0, 1])
    (hz : (⟨0, ![]⟩ : Shape).BroadcastsInDim ⟨2, ![a, H]⟩ ![]) (p : Fin a) (u : Fin O) :
    addf (Host.dotGeneral D2 none
          (maximumf (addf (Host.dotGeneral D1 none x W1)
              (broadcastInDim ⟨2, ![a, H]⟩ ![0, 1] hw1 (broadcastInDim ⟨2, ![1, H]⟩ ![1] hv1 b1)))
            (broadcastInDim ⟨2, ![a, H]⟩ ![] hz (constant (F := Ideal) ⟨0, ![]⟩ .f32 0x00000000#32)))
          W2)
        (broadcastInDim ⟨2, ![a, O]⟩ ![0, 1] hw2 (broadcastInDim ⟨2, ![1, O]⟩ ![1] hv2 b2)) (ix2 p u)
      = mlp (fun j => x (ix2 p j)) W1 (fun k => b1 (ix1 k)) W2 (fun v => b2 (ix1 v)) u := by
  show FloatOps.dotGeneral D2 none .single _ W2 (ix2 p u)
      + broadcastInDim ⟨2, ![a, O]⟩ ![0, 1] hw2 (broadcastInDim ⟨2, ![1, O]⟩ ![1] hv2 b2) (ix2 p u) = _
  rw [Cert.RowsProduct.dotGeneral_rows_apply D2 none .single h2r h2s h2l0 h2l1 h2r0 h2r1, vecBias_apply]
  unfold mlp
  refine congrArg (· + b2 (ix1 u)) (Finset.sum_congr rfl fun k _ => ?_)
  show max (FloatOps.dotGeneral D1 none .single x W1 (ix2 p k)
      + broadcastInDim ⟨2, ![a, H]⟩ ![0, 1] hw1 (broadcastInDim ⟨2, ![1, H]⟩ ![1] hv1 b1) (ix2 p k))
      (broadcastInDim ⟨2, ![a, H]⟩ ![] hz (constant (F := Ideal) ⟨0, ![]⟩ .f32 0x00000000#32) (ix2 p k)) * W2 (ix2 k u) = _
  rw [Cert.RowsProduct.dotGeneral_rows_apply D1 none .single h1r h1s h1l0 h1l1 h1r0 h1r1, vecBias_apply,
    broadcastInDim_scalar_apply]
  rfl

/-! ## The logistic function, spelt out on the host -/

/-- 1 / (1 + exp (−y)), the ones scalar arrays repeated, is at each entry the logistic function of the entry. -/
theorem host_logistic_apply {s : Shape} (h1 h2 : (⟨0, ![]⟩ : Shape).BroadcastsInDim s ![])
    (y : FVec Ideal s .f32) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf y))) i
      = Ideal.logistic (y i) := by
  show Ideal.div (broadcastInDim s ![] h1 (constant (F := Ideal) ⟨0, ![]⟩ .f32 0x3F800000#32) i)
      (broadcastInDim s ![] h2 (constant (F := Ideal) ⟨0, ![]⟩ .f32 0x3F800000#32) i + Ideal.exp (-(y i))) = _
  simp only [broadcastInDim_scalar_apply]
  show Ideal.div (Ideal.ofBits .f32 0x3F800000#32) (Ideal.ofBits .f32 0x3F800000#32 + Ideal.exp (-(y i))) = _
  rw [Ideal.ofBits_one_f32]
  rfl

end Cert.RowPerceptron

end
-- ==== Proof.LibLeakyDense.lean ====
/-
  Two small things read at an entry on the extended reals, each in the two spellings the programs use.

  The leaky rectifier of a number y is y where y ≥ 0 and slope · y elsewhere, the slope the float word 0x3C23D70A.  A
  kernel spells it over an array with the two scalars repeated by `broadcast`; the host repeats one-element
  arrays.  Both read, at any index, the rectifier of the entry.

  A dense layer's entry (p, u) is  Σ_k x (p, k) · W (k, u) + b u  and depends on row p of x only.  A kernel forms
  the product into the zero accumulator and lays the bias vector along the rows through a 1 × n row; the host
  forms a general dot product and lays the bias through two broadcasts.  Both read that expression.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«104056_j89859305767623_1_alg».proof.Proof.LibRowPerceptron

noncomputable section

open scoped BigOperators

namespace Cert.Layer

open Idealize.ShloMosaic Idealize.ShloMosaic.ValueIdx

/-! ## The leaky rectifier -/

/-- y where y ≥ 0, slope · y elsewhere. -/
def lrelu (y : EReal) : EReal :=
  Scalar.select (FloatOps.cmpf (F := Ideal) .oge y (Ideal.ofBits .f32 0x00000000#32)) y
    (Ideal.ofBits .f32 0x3C23D70A#32 * y)

/-- A kernel's spelling, at any index, is the rectifier of the entry. -/
theorem leaky_kernel_apply {s : Shape} (x : FVec Ideal s .f32) (i : s.Idx) :
    select (cmpf .oge x (broadcast s (Scalar.ofBits (F := Ideal) .f32 0x00000000#32))) x
        (mulf (broadcast s (Scalar.ofBits (F := Ideal) .f32 0x3C23D70A#32)) x) i = lrelu (x i) := rfl

/-- The host's spelling, at any index, is the rectifier of the entry. -/
theorem leaky_host_apply {s : Shape} (h1 h2 : (⟨0, ![]⟩ : Shape).BroadcastsInDim s ![]) (x : FVec Ideal s .f32)
    (i : s.Idx) :
    select (cmpf .oge x (broadcastInDim s ![] h1 (constant (F := Ideal) ⟨0, ![]⟩ .f32 0x00000000#32))) x
        (mulf (broadcastInDim s ![] h2 (id (constant (F := Ideal) ⟨0, ![]⟩ .f32 0x3C23D70A#32))) x) i
      = lrelu (x i) := by
  show Scalar.select (FloatOps.cmpf .oge (x i)
        (broadcastInDim s ![] h1 (constant (F := Ideal) ⟨0, ![]⟩ .f32 0x00000000#32) i)) (x i)
      (broadcastInDim s ![] h2 (id (constant (F := Ideal) ⟨0, ![]⟩ .f32 0x3C23D70A#32)) i * x i) = _
  rw [broadcastInDim_scalar_apply, id, broadcastInDim_scalar_apply]
  rfl

/-! ## A dense layer at an entry -/

variable {a K M : ℕ}

/-- Σ_k x k · W (k, u) + b u: column u of a dense layer, from one row x of its input. -/
def dense (x : Fin K → EReal) (W : (⟨2, ![K, M]⟩ : Shape).Idx → EReal) (b : Fin M → EReal) (u : Fin M) : EReal :=
  (∑ k : Fin K, x k * W (ix2 k u)) + b u

/-- A kernel's spelling: the product into the zero accumulator plus the bias vector laid along the rows through a
    1 × n row. -/
theorem dense_kernel_apply {φ₁ φ₂ : FTy} (D : DotDims ⟨2, ![a, K]⟩ ⟨2, ![K, M]⟩ ⟨2, ![a, M]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (x : FVec Ideal ⟨2, ![a, K]⟩ φ₁) (W : FVec Ideal ⟨2, ![K, M]⟩ φ₂) (b : FVec Ideal ⟨1, ![M]⟩ .f32)
    (hc : (⟨1, ![M]⟩ : Shape).ShapeCasts ⟨2, ![1, M]⟩) (hb : (⟨2, ![1, M]⟩ : Shape).Broadcasts ⟨2, ![a, M]⟩)
    (p : Fin a) (u : Fin M) :
    addf (matmul D none x W (constant ⟨2, ![a, M]⟩ .f32 0x00000000#32))
        (broadcastTo ⟨2, ![a, M]⟩ (shapeCast ⟨2, ![1, M]⟩ b hc) hb) (ix2 p u)
      = dense (fun k => x (ix2 p k)) W (fun v => b (ix1 v)) u := by
  show FloatOps.matmul D none x W (constant ⟨2, ![a, M]⟩ .f32 0x00000000#32) (ix2 p u)
      + broadcastTo ⟨2, ![a, M]⟩ (shapeCast ⟨2, ![1, M]⟩ b hc) hb (ix2 p u) = _
  rw [Cert.RowsProduct.matmul_zero_rows_apply D none hr hs hl0 hl1 hr0 hr1, broadcastTo_1b_ab_apply,
    shapeCast_a_1a_apply]
  rfl

/-- The host's spelling: the general dot product plus the bias vector taken to a 1 × n row and then down the rows. -/
theorem dense_host_apply {φ₁ φ₂ : FTy} (D : DotDims ⟨2, ![a, K]⟩ ⟨2, ![K, M]⟩ ⟨2, ![a, M]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (x : FVec Ideal ⟨2, ![a, K]⟩ φ₁) (W : FVec Ideal ⟨2, ![K, M]⟩ φ₂) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![a, M]⟩ ![0, 1])
    (p : Fin a) (u : Fin M) :
    addf (Host.dotGeneral D none x W)
        (broadcastInDim ⟨2, ![a, M]⟩ ![0, 1] h2 (broadcastInDim ⟨2, ![1, M]⟩ ![1] h1 b)) (ix2 p u)
      = dense (fun k => x (ix2 p k)) W (fun v => b (ix1 v)) u := by
  show FloatOps.dotGeneral D none .single x W (ix2 p u)
      + broadcastInDim ⟨2, ![a, M]⟩ ![0, 1] h2 (broadcastInDim ⟨2, ![1, M]⟩ ![1] h1 b) (ix2 p u) = _
  rw [Cert.RowsProduct.dotGeneral_rows_apply D none .single hr hs hl0 hl1 hr0 hr1, Cert.RowPerceptron.vecBias_apply]
  rfl

/-- The host's product alone, at an entry. -/
theorem product_host_apply {φ₁ φ₂ : FTy} (D : DotDims ⟨2, ![a, K]⟩ ⟨2, ![K, M]⟩ ⟨2, ![a, M]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (x : FVec Ideal ⟨2, ![a, K]⟩ φ₁) (W : FVec Ideal ⟨2, ![K, M]⟩ φ₂) (p : Fin a) (u : Fin M) :
    Host.dotGeneral D none x W (ix2 p u) = ∑ k : Fin K, x (ix2 p k) * W (ix2 k u) :=
  Cert.RowsProduct.dotGeneral_rows_apply D none .single hr hs hl0 hl1 hr0 hr1 x W p u

end Cert.Layer

end
-- ==== Proof.RegionA.lean ====
/-
  The first region of the kernel program, read as whole arrays.

  The region runs over fifty grid points.  Point t loads rows 1000·t … 1000·t + 999 of the 64-wide features and of the
  first 26 columns of the continuous features, together with the whole of every weight array and bias vector, and
  stores four blocks of 1000 × 256 entries: the rectified dense layer of the 64-wide rows; the rectified dense layers
  of columns 0–12 and of columns 13–25 of the continuous rows; and the rectified dense layer of the 64-wide rows
  multiplied by a second weight array.  Every stored entry is a function of one row of the loaded blocks, and is, entry
  for entry, the entry of the host's term over the whole arrays at row 1000·t + p.  The fifty blocks of an output tile
  its 50000 rows, so after the region each output array is the host's term of the arrays the region found.
-/
import proofs.«104056_j89859305767623_1_alg».proof.Proof.Gen.ReferenceIdeal
import proofs.«104056_j89859305767623_1_alg».proof.Proof.Gen.KernelIdeal.Frame
import proofs.«104056_j89859305767623_1_alg».proof.Proof.Terms
import proofs.«104056_j89859305767623_1_alg».proof.Proof.LibLeakyDense
import Idealize.ShloMosaic.Lib.Pipeline.Value
import Idealize.ShloMosaic.PureOps.Ideal

set_option maxRecDepth 16384

noncomputable section

namespace Cert.KernelIdeal.RegionA

open Cert.KernelIdeal Cert.KernelIdeal.Gen Idealize.ShloMosaic Idealize.ShloMosaic.TcCoe Idealize.SL.Sem
open Idealize.ShloMosaic.ValueIdx
open Idealize.ShloMosaic.Pipeline (Dat)
open Cert.Layer
open scoped BigOperators

/-! ## The dimension records

Each product here contracts the left operand's columns against the right operand's rows: one contracted axis of the
stated extent, the output's row naming the left operand's row and the output's column the right operand's column. -/

section Dims

theorem kd64_rank : dot_S1000x64_S64x256_S1000x256_1_0_0_1_n_n.contr.rank = 1 := rfl
theorem kd64_size : dot_S1000x64_S64x256_S1000x256_1_0_0_1_n_n.contr.size ⟨0, by decide⟩ = 64 := rfl
theorem kd64_l0 : ∀ j q, (dot_S1000x64_S64x256_S1000x256_1_0_0_1_n_n.lhsIdx j q 0).val = (j 0).val := fun _ _ => rfl
theorem kd64_l1 : ∀ j q, (dot_S1000x64_S64x256_S1000x256_1_0_0_1_n_n.lhsIdx j q 1).val = (q ⟨0, by decide⟩).val := fun _ _ => rfl
theorem kd64_r0 : ∀ j q, (dot_S1000x64_S64x256_S1000x256_1_0_0_1_n_n.rhsIdx j q 0).val = (q ⟨0, by decide⟩).val := fun _ _ => rfl
theorem kd64_r1 : ∀ j q, (dot_S1000x64_S64x256_S1000x256_1_0_0_1_n_n.rhsIdx j q 1).val = (j 1).val := fun _ _ => rfl

theorem kd13_rank : dot_S1000x13_S13x256_S1000x256_1_0_0_1_n_n.contr.rank = 1 := rfl
theorem kd13_size : dot_S1000x13_S13x256_S1000x256_1_0_0_1_n_n.contr.size ⟨0, by decide⟩ = 13 := rfl
theorem kd13_l0 : ∀ j q, (dot_S1000x13_S13x256_S1000x256_1_0_0_1_n_n.lhsIdx j q 0).val = (j 0).val := fun _ _ => rfl
theorem kd13_l1 : ∀ j q, (dot_S1000x13_S13x256_S1000x256_1_0_0_1_n_n.lhsIdx j q 1).val = (q ⟨0, by decide⟩).val := fun _ _ => rfl
theorem kd13_r0 : ∀ j q, (dot_S1000x13_S13x256_S1000x256_1_0_0_1_n_n.rhsIdx j q 0).val = (q ⟨0, by decide⟩).val := fun _ _ => rfl
theorem kd13_r1 : ∀ j q, (dot_S1000x13_S13x256_S1000x256_1_0_0_1_n_n.rhsIdx j q 1).val = (j 1).val := fun _ _ => rfl

theorem kd256_rank : dot_S1000x256_S256x256_S1000x256_1_0_0_1_n_n.contr.rank = 1 := rfl
theorem kd256_size : dot_S1000x256_S256x256_S1000x256_1_0_0_1_n_n.contr.size ⟨0, by decide⟩ = 256 := rfl
theorem kd256_l0 : ∀ j q, (dot_S1000x256_S256x256_S1000x256_1_0_0_1_n_n.lhsIdx j q 0).val = (j 0).val := fun _ _ => rfl
theorem kd256_l1 : ∀ j q, (dot_S1000x256_S256x256_S1000x256_1_0_0_1_n_n.lhsIdx j q 1).val = (q ⟨0, by decide⟩).val := fun _ _ => rfl
theorem kd256_r0 : ∀ j q, (dot_S1000x256_S256x256_S1000x256_1_0_0_1_n_n.rhsIdx j q 0).val = (q ⟨0, by decide⟩).val := fun _ _ => rfl
theorem kd256_r1 : ∀ j q, (dot_S1000x256_S256x256_S1000x256_1_0_0_1_n_n.rhsIdx j q 1).val = (j 1).val := fun _ _ => rfl

theorem hd64_rank : Cert.ReferenceIdeal.dot_S50000x64_S64x256_S50000x256_1_0_0_1_n_n.contr.rank = 1 := rfl
theorem hd64_size : Cert.ReferenceIdeal.dot_S50000x64_S64x256_S50000x256_1_0_0_1_n_n.contr.size ⟨0, by decide⟩ = 64 := rfl
theorem hd64_l0 : ∀ j q, (Cert.ReferenceIdeal.dot_S50000x64_S64x256_S50000x256_1_0_0_1_n_n.lhsIdx j q 0).val = (j 0).val := fun _ _ => rfl
theorem hd64_l1 : ∀ j q, (Cert.ReferenceIdeal.dot_S50000x64_S64x256_S50000x256_1_0_0_1_n_n.lhsIdx j q 1).val = (q ⟨0, by decide⟩).val := fun _ _ => rfl
theorem hd64_r0 : ∀ j q, (Cert.ReferenceIdeal.dot_S50000x64_S64x256_S50000x256_1_0_0_1_n_n.rhsIdx j q 0).val = (q ⟨0, by decide⟩).val := fun _ _ => rfl
theorem hd64_r1 : ∀ j q, (Cert.ReferenceIdeal.dot_S50000x64_S64x256_S50000x256_1_0_0_1_n_n.rhsIdx j q 1).val = (j 1).val := fun _ _ => rfl

theorem hd13_rank : Cert.ReferenceIdeal.dot_S50000x13_S13x256_S50000x256_1_0_0_1_n_n.contr.rank = 1 := rfl
theorem hd13_size : Cert.ReferenceIdeal.dot_S50000x13_S13x256_S50000x256_1_0_0_1_n_n.contr.size ⟨0, by decide⟩ = 13 := rfl
theorem hd13_l0 : ∀ j q, (Cert.ReferenceIdeal.dot_S50000x13_S13x256_S50000x256_1_0_0_1_n_n.lhsIdx j q 0).val = (j 0).val := fun _ _ => rfl
theorem hd13_l1 : ∀ j q, (Cert.ReferenceIdeal.dot_S50000x13_S13x256_S50000x256_1_0_0_1_n_n.lhsIdx j q 1).val = (q ⟨0, by decide⟩).val := fun _ _ => rfl
theorem hd13_r0 : ∀ j q, (Cert.ReferenceIdeal.dot_S50000x13_S13x256_S50000x256_1_0_0_1_n_n.rhsIdx j q 0).val = (q ⟨0, by decide⟩).val := fun _ _ => rfl
theorem hd13_r1 : ∀ j q, (Cert.ReferenceIdeal.dot_S50000x13_S13x256_S50000x256_1_0_0_1_n_n.rhsIdx j q 1).val = (j 1).val := fun _ _ => rfl

theorem hd256_rank : Cert.ReferenceIdeal.dot_S50000x256_S256x256_S50000x256_1_0_0_1_n_n.contr.rank = 1 := rfl
theorem hd256_size : Cert.ReferenceIdeal.dot_S50000x256_S256x256_S50000x256_1_0_0_1_n_n.contr.size ⟨0, by decide⟩ = 256 := rfl
theorem hd256_l0 : ∀ j q, (Cert.ReferenceIdeal.dot_S50000x256_S256x256_S50000x256_1_0_0_1_n_n.lhsIdx j q 0).val = (j 0).val := fun _ _ => rfl
theorem hd256_l1 : ∀ j q, (Cert.ReferenceIdeal.dot_S50000x256_S256x256_S50000x256_1_0_0_1_n_n.lhsIdx j q 1).val = (q ⟨0, by decide⟩).val := fun _ _ => rfl
theorem hd256_r0 : ∀ j q, (Cert.ReferenceIdeal.dot_S50000x256_S256x256_S50000x256_1_0_0_1_n_n.rhsIdx j q 0).val = (q ⟨0, by decide⟩).val := fun _ _ => rfl
theorem hd256_r1 : ∀ j q, (Cert.ReferenceIdeal.dot_S50000x256_S256x256_S50000x256_1_0_0_1_n_n.rhsIdx j q 1).val = (j 1).val := fun _ _ => rfl

end Dims

/-! ## The stored values at an entry

The value a grid point stores at row p and column u of its block, from the blocks it loaded; and the host term's
entry at row r and column u, from the whole arrays.  Rounding to the narrower format is the identity on the extended
reals, so each is the rectifier of a dense layer's entry, or a finite sum of such against a second weight array. -/

set_option maxHeartbeats 400000 in
/-- The first output's stored value: the rectifier of the dense layer of the 64-wide row. -/
theorem pay10_apply (x0 : FVec Ideal S1000x64 .f32) (x2 : FVec Ideal S64x256 .f32) (x3 : FVec Ideal S256 .f32)
    (p : Fin 1000) (u : Fin 256) :
    k0_pay10 (F := Ideal) x0 x2 x3 (ix2 p u) = lrelu (dense (fun k => x0 (ix2 p k)) x2 (fun v => x3 (ix1 v)) u) := by
  unfold k0_pay10
  refine (leaky_kernel_apply _ (ix2 p u)).trans ?_
  refine congrArg lrelu ?_
  exact dense_kernel_apply dot_S1000x64_S64x256_S1000x256_1_0_0_1_n_n kd64_rank kd64_size kd64_l0 kd64_l1 kd64_r0 kd64_r1
    (k0_pay4 x0) (truncf .bf16 x2 bitsLt_bf16_f32) x3 shapeCasts_S256_S1x256 broadcasts_S1x256_S1000x256 p u

set_option maxHeartbeats 400000 in
/-- The host's first term at an entry. -/
theorem xd_apply (X : Cert.Gnn.Arr Ideal Cert.ReferenceIdeal.S50000x64 .f32) (W : Cert.Gnn.Arr Ideal Cert.ReferenceIdeal.S64x256 .f32)
    (b : Cert.Gnn.Arr Ideal Cert.ReferenceIdeal.S256 .f32) (r : Fin 50000) (u : Fin 256) :
    Cert.Gnn.xd X W b (ix2 r u) = lrelu (dense (fun k => X (ix2 r k)) W (fun v => b (ix1 v)) u) := by
  unfold Cert.Gnn.xd Cert.Gnn.leaky Cert.Gnn.rows256
  refine (leaky_host_apply _ _ _ (ix2 r u)).trans ?_
  refine congrArg lrelu ?_
  exact dense_host_apply Cert.ReferenceIdeal.dot_S50000x64_S64x256_S50000x256_1_0_0_1_n_n hd64_rank hd64_size hd64_l0 hd64_l1 hd64_r0 hd64_r1
    X W b _ _ r u

set_option maxHeartbeats 400000 in
/-- The second output's stored value: the rectifier of the dense layer of columns 0–12 of the 26-wide row. -/
theorem pay1_apply (x1 : FVec Ideal S1000x26 .f32) (x4 : FVec Ideal S13x256 .f32) (x5 : FVec Ideal S256 .f32)
    (p : Fin 1000) (u : Fin 256) :
    k0_pay1 (F := Ideal) (k0_pay11 x1 x4 x5) (Scalar.ofBits .f32 0x3C23D70A#32) (Scalar.ofBits .f32 0x00000000#32) (ix2 p u)
      = lrelu (dense (fun k : Fin 13 => x1 (ix2 p (⟨0 + k.val, by omega⟩ : Fin 26))) x4 (fun v => x5 (ix1 v)) u) := by
  unfold k0_pay1
  refine (leaky_kernel_apply _ (ix2 p u)).trans ?_
  refine congrArg lrelu ?_
  unfold k0_pay11
  refine (dense_kernel_apply dot_S1000x13_S13x256_S1000x256_1_0_0_1_n_n kd13_rank kd13_size kd13_l0 kd13_l1 kd13_r0 kd13_r1
    _ _ x5 shapeCasts_S256_S1x256 broadcasts_S1x256_S1000x256 p u).trans ?_
  refine congrArg (fun x => dense x x4 (fun v => x5 (ix1 v)) u) (funext fun k => ?_)
  show extractStridedSlice S1000x13 ![0, 0] (k0_pay5 (F := Ideal) x1) slices_S1000x26_o0_0_S1000x13 (ix2 p k) = _
  unfold k0_pay5
  rw [shapeCast_self]
  exact slice2_axis1_apply 0 x1 _ p k _ rfl

set_option maxHeartbeats 400000 in
/-- The third output's stored value: the same of columns 13–25. -/
theorem pay2_apply (x1 : FVec Ideal S1000x26 .f32) (x6 : FVec Ideal S13x256 .f32) (x7 : FVec Ideal S256 .f32)
    (p : Fin 1000) (u : Fin 256) :
    k0_pay2 (F := Ideal) (k0_pay6 x1) (k0_pay7 x6) x7 (ix2 p u)
      = lrelu (dense (fun k : Fin 13 => x1 (ix2 p (⟨13 + k.val, by omega⟩ : Fin 26))) x6 (fun v => x7 (ix1 v)) u) := by
  unfold k0_pay2
  refine (leaky_kernel_apply _ (ix2 p u)).trans ?_
  refine congrArg lrelu ?_
  refine (dense_kernel_apply dot_S1000x13_S13x256_S1000x256_1_0_0_1_n_n kd13_rank kd13_size kd13_l0 kd13_l1 kd13_r0 kd13_r1
    (k0_pay6 x1) (k0_pay7 x6) x7 shapeCasts_S256_S1x256 broadcasts_S1x256_S1000x256 p u).trans ?_
  refine congrArg (fun x => dense x x6 (fun v => x7 (ix1 v)) u) (funext fun k => ?_)
  show extractStridedSlice S1000x13 ![0, 13] (k0_pay5 (F := Ideal) x1) slices_S1000x26_o0_13_S1000x13 (ix2 p k) = _
  unfold k0_pay5
  rw [shapeCast_self]
  exact slice2_axis1_apply 13 x1 _ p k _ rfl

set_option maxHeartbeats 400000 in
/-- The host's second term at an entry. -/
theorem xc1_apply (C : Cert.Gnn.Arr Ideal Cert.ReferenceIdeal.S50000x39 .f32) (W : Cert.Gnn.Arr Ideal Cert.ReferenceIdeal.S13x256 .f32)
    (b : Cert.Gnn.Arr Ideal Cert.ReferenceIdeal.S256 .f32) (r : Fin 50000) (u : Fin 256) :
    Cert.Gnn.xc1 C W b (ix2 r u)
      = lrelu (dense (fun k : Fin 13 => C (ix2 r (⟨0 + k.val, by omega⟩ : Fin 39))) W (fun v => b (ix1 v)) u) := by
  unfold Cert.Gnn.xc1 Cert.Gnn.leaky Cert.Gnn.rows256
  refine (leaky_host_apply _ _ _ (ix2 r u)).trans ?_
  refine congrArg lrelu ?_
  refine (dense_host_apply Cert.ReferenceIdeal.dot_S50000x13_S13x256_S50000x256_1_0_0_1_n_n hd13_rank hd13_size hd13_l0 hd13_l1 hd13_r0 hd13_r1
    _ W b _ _ r u).trans ?_
  refine congrArg (fun x => dense x W (fun v => b (ix1 v)) u) (funext fun k => ?_)
  exact slice2_axis1_apply 0 C _ r k _ rfl

set_option maxHeartbeats 400000 in
/-- The host's third term at an entry. -/
theorem xc2_apply (C : Cert.Gnn.Arr Ideal Cert.ReferenceIdeal.S50000x39 .f32) (W : Cert.Gnn.Arr Ideal Cert.ReferenceIdeal.S13x256 .f32)
    (b : Cert.Gnn.Arr Ideal Cert.ReferenceIdeal.S256 .f32) (r : Fin 50000) (u : Fin 256) :
    Cert.Gnn.xc2 C W b (ix2 r u)
      = lrelu (dense (fun k : Fin 13 => C (ix2 r (⟨13 + k.val, by omega⟩ : Fin 39))) W (fun v => b (ix1 v)) u) := by
  unfold Cert.Gnn.xc2 Cert.Gnn.leaky Cert.Gnn.rows256
  refine (leaky_host_apply _ _ _ (ix2 r u)).trans ?_
  refine congrArg lrelu ?_
  refine (dense_host_apply Cert.ReferenceIdeal.dot_S50000x13_S13x256_S50000x256_1_0_0_1_n_n hd13_rank hd13_size hd13_l0 hd13_l1 hd13_r0 hd13_r1
    _ W b _ _ r u).trans ?_
  refine congrArg (fun x => dense x W (fun v => b (ix1 v)) u) (funext fun k => ?_)
  exact slice2_axis1_apply 13 C _ r k _ rfl

set_option maxHeartbeats 400000 in
/-- The fourth output's stored value: the rectified dense layer's row against the second weight array. -/
theorem pay3_apply (x0 : FVec Ideal S1000x64 .f32) (x8 : FVec Ideal S64x256 .f32) (x10 : FVec Ideal S256x256 .f32)
    (x9 : FVec Ideal S256 .f32) (p : Fin 1000) (u : Fin 256) :
    k0_pay3 (F := Ideal) (k0_pay4 x0) (k0_pay8 x8) (k0_pay9 x10) x9 (ix2 p u)
      = ∑ k : Fin 256, lrelu (dense (fun k' => x0 (ix2 p k')) x8 (fun v => x9 (ix1 v)) k) * x10 (ix2 k u) := by
  unfold k0_pay3
  refine (Cert.RowsProduct.matmul_zero_rows_apply dot_S1000x256_S256x256_S1000x256_1_0_0_1_n_n none kd256_rank kd256_size kd256_l0 kd256_l1 kd256_r0 kd256_r1
    _ (k0_pay9 x10) p u).trans ?_
  refine Finset.sum_congr rfl fun k _ => ?_
  refine congrArg (· * x10 (ix2 k u)) ?_
  refine (leaky_kernel_apply _ (ix2 p k)).trans ?_
  refine congrArg lrelu ?_
  exact dense_kernel_apply dot_S1000x64_S64x256_S1000x256_1_0_0_1_n_n kd64_rank kd64_size kd64_l0 kd64_l1 kd64_r0 kd64_r1
    (k0_pay4 x0) (k0_pay8 x8) x9 shapeCasts_S256_S1x256 broadcasts_S1x256_S1000x256 p k

set_option maxHeartbeats 400000 in
/-- The host's fourth term at an entry. -/
theorem xw1_apply (X : Cert.Gnn.Arr Ideal Cert.ReferenceIdeal.S50000x64 .f32) (W0 : Cert.Gnn.Arr Ideal Cert.ReferenceIdeal.S64x256 .f32)
    (b0 : Cert.Gnn.Arr Ideal Cert.ReferenceIdeal.S256 .f32) (W1 : Cert.Gnn.Arr Ideal Cert.ReferenceIdeal.S256x256 .f32)
    (r : Fin 50000) (u : Fin 256) :
    Cert.Gnn.xw1 X W0 b0 W1 (ix2 r u)
      = ∑ k : Fin 256, lrelu (dense (fun k' => X (ix2 r k')) W0 (fun v => b0 (ix1 v)) k) * W1 (ix2 k u) := by
  unfold Cert.Gnn.xw1
  refine (product_host_apply Cert.ReferenceIdeal.dot_S50000x256_S256x256_S50000x256_1_0_0_1_n_n hd256_rank hd256_size hd256_l0 hd256_l1 hd256_r0 hd256_r1
    (Cert.Gnn.xd X W0 b0) W1 r u).trans ?_
  refine Finset.sum_congr rfl fun k _ => ?_
  rw [xd_apply]

/-! ## The windows' blocks

At grid point t a row-blocked window holds rows 1000·t … 1000·t + 999 of its array; a weight or bias window holds its
whole array at every point.  The index maps are read off once over the fifty points. -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block index of every window at every point: the point's number down the rows of a row-blocked window, zero
    everywhere else. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The number of a grid point is below fifty. -/
theorem point_lt (t : Fin cfg0.N) : t.val < 50 := lt_of_lt_of_eq t.isLt N_0

set_option maxHeartbeats 400000 in
theorem blk0_apply (c : Dev nD) (t : Fin cfg0.N) (p : Fin 1000) (k : Fin 64) (r : Fin 50000)
    (hr : r.val = t.val * 1000 + p.val) :
    (iblk0 V c 0 t : FVec Ideal S1000x64 .f32) (ix2 p k) = (V c main_arg0 : FVec Ideal S50000x64 .f32) (ix2 r k) := by
  obtain ⟨⟨e0, e1⟩, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 1000 + 1 * p.val = r.val; omega
  | ⟨1, _⟩ => show win0_0.index t (1 : Fin 2) * 64 + 1 * k.val = k.val; omega

set_option maxHeartbeats 400000 in
theorem blk1_apply (c : Dev nD) (t : Fin cfg0.N) (p : Fin 1000) (k : Fin 26) (r : Fin 50000)
    (hr : r.val = t.val * 1000 + p.val) :
    (iblk0 V c 1 t : FVec Ideal S1000x26 .f32) (ix2 p k) = (V c main_v29 : FVec Ideal S50000x26 .f32) (ix2 r k) := by
  obtain ⟨-, ⟨e0, e1⟩, -⟩ := idx_facts t
  show V c main_v29 (((cfg0.win 1).blk t).view.emb (ix2 p k)) = V c main_v29 (ix2 r k)
  refine congrArg (V c main_v29) (funext fun a => Fin.ext ?_)
  match a with
  | ⟨0, _⟩ => show win0_1.index t (0 : Fin 2) * 1000 + 1 * p.val = r.val; omega
  | ⟨1, _⟩ => show win0_1.index t (1 : Fin 2) * 26 + 1 * k.val = k.val; omega

set_option maxHeartbeats 400000 in
theorem blk2_eq (c : Dev nD) (t : Fin cfg0.N) :
    (iblk0 V c 2 t : FVec Ideal S64x256 .f32) = (V c main_arg2 : FVec Ideal S64x256 .f32) := by
  obtain ⟨-, -, ⟨e0, e1⟩, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

set_option maxHeartbeats 400000 in
theorem blk3_eq (c : Dev nD) (t : Fin cfg0.N) :
    (iblk0 V c 3 t : FVec Ideal S256 .f32) = (V c main_arg3 : FVec Ideal S256 .f32) := by
  obtain ⟨-, -, -, e0, -⟩ := idx_facts t
  funext y
  show V c main_arg3 (((cfg0.win 3).blk t).view.emb y) = V c main_arg3 y
  refine congrArg (V c main_arg3) (funext fun a => Fin.ext ?_)
  match a with
  | ⟨0, _⟩ => show win0_3.index t (0 : Fin 1) * 256 + 1 * (y 0).val = (y 0).val; omega

set_option maxHeartbeats 400000 in
theorem blk4_eq (c : Dev nD) (t : Fin cfg0.N) :
    (iblk0 V c 4 t : FVec Ideal S13x256 .f32) = (V c main_arg4 : FVec Ideal S13x256 .f32) := by
  obtain ⟨-, -, -, -, ⟨e0, e1⟩, -⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 13 + 1 * (y 0).val = (y 0).val; omega
  | ⟨1, _⟩ => show win0_4.index t (1 : Fin 2) * 256 + 1 * (y 1).val = (y 1).val; omega

set_option maxHeartbeats 400000 in
theorem blk5_eq (c : Dev nD) (t : Fin cfg0.N) :
    (iblk0 V c 5 t : FVec Ideal S256 .f32) = (V c main_arg5 : FVec Ideal S256 .f32) := by
  obtain ⟨-, -, -, -, -, e0, -⟩ := idx_facts t
  funext y
  show V c main_arg5 (((cfg0.win 5).blk t).view.emb y) = V c main_arg5 y
  refine congrArg (V c main_arg5) (funext fun a => Fin.ext ?_)
  match a with
  | ⟨0, _⟩ => show win0_5.index t (0 : Fin 1) * 256 + 1 * (y 0).val = (y 0).val; omega

set_option maxHeartbeats 400000 in
theorem blk6_eq (c : Dev nD) (t : Fin cfg0.N) :
    (iblk0 V c 6 t : FVec Ideal S13x256 .f32) = (V c main_arg6 : FVec Ideal S13x256 .f32) := by
  obtain ⟨-, -, -, -, -, -, ⟨e0, e1⟩, -⟩ := idx_facts t
  funext y
  show V c main_arg6 (((cfg0.win 6).blk t).view.emb y) = V c main_arg6 y
  refine congrArg (V c main_arg6) (funext fun a => Fin.ext ?_)
  match a with
  | ⟨0, _⟩ => show win0_6.index t (0 : Fin 2) * 13 + 1 * (y 0).val = (y 0).val; omega
  | ⟨1, _⟩ => show win0_6.index t (1 : Fin 2) * 256 + 1 * (y 1).val = (y 1).val; omega

set_option maxHeartbeats 400000 in
theorem blk7_eq (c : Dev nD) (t : Fin cfg0.N) :
    (iblk0 V c 7 t : FVec Ideal S256 .f32) = (V c main_arg7 : FVec Ideal S256 .f32) := by
  obtain ⟨-, -, -, -, -, -, -, e0, -⟩ := idx_facts t
  funext y
  show V c main_arg7 (((cfg0.win 7).blk t).view.emb y) = V c main_arg7 y
  refine congrArg (V c main_arg7) (funext fun a => Fin.ext ?_)
  match a with
  | ⟨0, _⟩ => show win0_7.index t (0 : Fin 1) * 256 + 1 * (y 0).val = (y 0).val; omega

set_option maxHeartbeats 400000 in
theorem blk8_eq (c : Dev nD) (t : Fin cfg0.N) :
    (iblk0 V c 8 t : FVec Ideal S64x256 .f32) = (V c main_arg8 : FVec Ideal S64x256 .f32) := by
  obtain ⟨-, -, -, -, -, -, -, -, ⟨e0, e1⟩, -⟩ := idx_facts t
  funext y
  show V c main_arg8 (((cfg0.win 8).blk t).view.emb y) = V c main_arg8 y
  refine congrArg (V c main_arg8) (funext fun a => Fin.ext ?_)
  match a with
  | ⟨0, _⟩ => show win0_8.index t (0 : Fin 2) * 64 + 1 * (y 0).val = (y 0).val; omega
  | ⟨1, _⟩ => show win0_8.index t (1 : Fin 2) * 256 + 1 * (y 1).val = (y 1).val; omega

set_option maxHeartbeats 400000 in
theorem blk9_eq (c : Dev nD) (t : Fin cfg0.N) :
    (iblk0 V c 9 t : FVec Ideal S256 .f32) = (V c main_arg9 : FVec Ideal S256 .f32) := by
  obtain ⟨-, -, -, -, -, -, -, -, -, e0, -⟩ := idx_facts t
  funext y
  show V c main_arg9 (((cfg0.win 9).blk t).view.emb y) = V c main_arg9 y
  refine congrArg (V c main_arg9) (funext fun a => Fin.ext ?_)
  match a with
  | ⟨0, _⟩ => show win0_9.index t (0 : Fin 1) * 256 + 1 * (y 0).val = (y 0).val; omega

set_option maxHeartbeats 400000 in
theorem blk10_eq (c : Dev nD) (t : Fin cfg0.N) :
    (iblk0 V c 10 t : FVec Ideal S256x256 .f32) = (V c main_arg10 : FVec Ideal S256x256 .f32) := by
  obtain ⟨-, -, -, -, -, -, -, -, -, -, ⟨e0, e1⟩, -⟩ := idx_facts t
  funext y
  show V c main_arg10 (((cfg0.win 10).blk t).view.emb y) = V c main_arg10 y
  refine congrArg (V c main_arg10) (funext fun a => Fin.ext ?_)
  match a with
  | ⟨0, _⟩ => show win0_10.index t (0 : Fin 2) * 256 + 1 * (y 0).val = (y 0).val; omega
  | ⟨1, _⟩ => show win0_10.index t (1 : Fin 2) * 256 + 1 * (y 1).val = (y 1).val; omega

/-! ## The first output: the rectified dense layer of the 64-wide features -/

set_option maxHeartbeats 800000 in
/-- What point t writes back is block t of the host term of the arrays as the region finds them. -/
theorem flushed11_eq (c : Dev nD) (t : Fin cfg0.N) :
    (dat0 (F := Ideal) V c).flushed 11 t
      = ((cfg0.win 11).blk t).view.read (Elt Ideal) (Cert.Gnn.xd (V c main_arg0) (V c main_arg2) (V c main_arg3)) := by
  show (cfg0.win 11).cut (grid0.coords t) ((dat0 (F := Ideal) V c).after 11 t) = _
  rw [after0_11]
  unfold out0_11
  rw [View.canon_unit_zero hz2]
  simp only [View.ld_unit_zero (S := S1000x64) hz2, View.ld_unit_zero (S := S64x256) hz2, View.ld_unit_zero (S := S256) hz1]
  obtain ⟨-, -, -, -, -, -, -, -, -, -, -, ⟨e0, e1⟩, -⟩ := idx_facts t
  funext j
  obtain ⟨p, u, rfl⟩ : ∃ (p : Fin 1000) (u : Fin 256), j = ix2 p u := ⟨j 0, j 1, eq_ix2 j⟩
  have hN : t.val < 50 := point_lt t
  have hemb : ((cfg0.win 11).blk t).view.emb (ix2 p u) = (ix2 (⟨t.val * 1000 + p.val, by omega⟩ : Fin 50000) u : S50000x256.Idx) := by
    funext a; apply Fin.ext
    match a with
    | ⟨0, _⟩ => show win0_11.index t (0 : Fin 2) * 1000 + 1 * p.val = t.val * 1000 + p.val; omega
    | ⟨1, _⟩ => show win0_11.index t (1 : Fin 2) * 256 + 1 * u.val = u.val; omega
  refine (pay10_apply (iblk0 V c 0 t) (iblk0 V c 2 t) (iblk0 V c 3 t) p u).trans ?_
  show _ = Cert.Gnn.xd (V c main_arg0) (V c main_arg2) (V c main_arg3) (((cfg0.win 11).blk t).view.emb (ix2 p u))
  rw [hemb]
  refine Eq.trans ?_ (xd_apply (V c main_arg0) (V c main_arg2) (V c main_arg3) ⟨t.val * 1000 + p.val, by omega⟩ u).symm
  rw [blk2_eq V c t, blk3_eq V c t]
  refine congrArg lrelu ?_
  refine congrArg (fun x => dense x (V c main_arg2 : FVec Ideal S64x256 .f32) (fun v => (V c main_arg3 : FVec Ideal S256 .f32) (ix1 v)) u) ?_
  funext k
  exact blk0_apply V c t p k ⟨t.val * 1000 + p.val, by omega⟩ rfl

/-- An index of the array is in point t's block iff each coordinate is in the block's range on its axis. -/
theorem mem_blk11 (t : Fin cfg0.N) (i : S50000x256.Idx) :
    i ∈ ((cfg0.win 11).blk t).view.set ↔ ∀ a : Fin 2, win0_11.index t a * S1000x256.size a ≤ (i a).val ∧ (i a).val < win0_11.index t a * S1000x256.size a + S1000x256.size a := by
  show i ∈ ((View.whole main_v30_0).slice (win0_11.rect t)).set ↔ _
  rw [View.set_slice_whole, Rect.mem_set_unit]
  exact Iff.rfl

/-- Row r of the array lies in the block of point r / 1000, which is written back. -/
theorem cover11 (i : S50000x256.Idx) : ∃ t : Fin cfg0.N, (cfg0.win 11).flush t = true ∧ i ∈ ((cfg0.win 11).blk t).view.set := by
  have hi0 : (i 0).val < 50000 := (i 0).isLt
  have hi1 : (i 1).val < 256 := (i 1).isLt
  have hN : cfg0.N = 50 := N_0
  let t : Fin cfg0.N := ⟨(i 0).val / 1000, by rw [hN]; omega⟩
  obtain ⟨-, -, -, -, -, -, -, -, -, -, -, ⟨e0, e1⟩, -⟩ := idx_facts t
  have ht : t.val = (i 0).val / 1000 := rfl
  refine ⟨t, flush0_11 t, ?_⟩
  rw [mem_blk11]
  intro a
  match a with
  | ⟨0, _⟩ => show win0_11.index t (0 : Fin 2) * 1000 ≤ (i 0).val ∧ (i 0).val < win0_11.index t (0 : Fin 2) * 1000 + 1000; omega
  | ⟨1, _⟩ => show win0_11.index t (1 : Fin 2) * 256 ≤ (i 1).val ∧ (i 1).val < win0_11.index t (1 : Fin 2) * 256 + 256; omega

/-- After the region the first output array is the host's rectified dense layer of the 64-wide features. -/
theorem arr_xd (c : Dev nD) :
    (Gen.dat0 (F := Ideal) V c).arrAt 11 cfg0.N = Cert.Gnn.xd (V c main_arg0) (V c main_arg2) (V c main_arg3) :=
  (dat0 (F := Ideal) V c).arrAt_eq_of_cover 11 (Cert.Gnn.xd (V c main_arg0) (V c main_arg2) (V c main_arg3))
    (fun t _ => flushed11_eq V c t) cover11

/-! ## The second output: the rectified dense layer of the continuous features' columns 0–12 -/

set_option maxHeartbeats 800000 in
/-- What point t writes back is block t of the host term of the arrays as the region finds them. -/
theorem flushed12_eq (c : Dev nD) (C : Cert.Gnn.Arr Ideal Cert.ReferenceIdeal.S50000x39 .f32)
    (hC : V c main_v29 = extractStridedSlice S50000x26 ![0, 0] C Cert.KernelIdeal.Facts₀.slices_S50000x39_S50000x26_0_0) (t : Fin cfg0.N) :
    (dat0 (F := Ideal) V c).flushed 12 t
      = ((cfg0.win 12).blk t).view.read (Elt Ideal) (Cert.Gnn.xc1 C (V c main_arg4) (V c main_arg5)) := by
  show (cfg0.win 12).cut (grid0.coords t) ((dat0 (F := Ideal) V c).after 12 t) = _
  rw [after0_12]
  unfold out0_12
  rw [View.canon_unit_zero hz2]
  simp only [View.ld_unit_zero (S := S1000x26) hz2, View.ld_unit_zero (S := S13x256) hz2, View.ld_unit_zero (S := S256) hz1]
  obtain ⟨-, -, -, -, -, -, -, -, -, -, -, -, ⟨e0, e1⟩, -⟩ := idx_facts t
  funext j
  obtain ⟨p, u, rfl⟩ : ∃ (p : Fin 1000) (u : Fin 256), j = ix2 p u := ⟨j 0, j 1, eq_ix2 j⟩
  have hN : t.val < 50 := point_lt t
  have hemb : ((cfg0.win 12).blk t).view.emb (ix2 p u) = (ix2 (⟨t.val * 1000 + p.val, by omega⟩ : Fin 50000) u : S50000x256.Idx) := by
    funext a; apply Fin.ext
    match a with
    | ⟨0, _⟩ => show win0_12.index t (0 : Fin 2) * 1000 + 1 * p.val = t.val * 1000 + p.val; omega
    | ⟨1, _⟩ => show win0_12.index t (1 : Fin 2) * 256 + 1 * u.val = u.val; omega
  refine (pay1_apply (iblk0 V c 1 t) (iblk0 V c 4 t) (iblk0 V c 5 t) p u).trans ?_
  show _ = Cert.Gnn.xc1 C (V c main_arg4) (V c main_arg5) (((cfg0.win 12).blk t).view.emb (ix2 p u))
  rw [hemb]
  refine Eq.trans ?_ (xc1_apply C (V c main_arg4) (V c main_arg5) ⟨t.val * 1000 + p.val, by omega⟩ u).symm
  rw [blk4_eq V c t, blk5_eq V c t]
  refine congrArg lrelu ?_
  refine congrArg (fun x => dense x (V c main_arg4 : FVec Ideal S13x256 .f32) (fun v => (V c main_arg5 : FVec Ideal S256 .f32) (ix1 v)) u) ?_
  funext k
  refine (blk1_apply V c t p ⟨0 + k.val, by omega⟩ ⟨t.val * 1000 + p.val, by omega⟩ rfl).trans ?_
  rw [hC]
  exact slice2_axis1_apply 0 C _ _ _ _ (Nat.zero_add _).symm

/-- An index of the array is in point t's block iff each coordinate is in the block's range on its axis. -/
theorem mem_blk12 (t : Fin cfg0.N) (i : S50000x256.Idx) :
    i ∈ ((cfg0.win 12).blk t).view.set ↔ ∀ a : Fin 2, win0_12.index t a * S1000x256.size a ≤ (i a).val ∧ (i a).val < win0_12.index t a * S1000x256.size a + S1000x256.size a := by
  show i ∈ ((View.whole main_v30_1).slice (win0_12.rect t)).set ↔ _
  rw [View.set_slice_whole, Rect.mem_set_unit]
  exact Iff.rfl

/-- Row r of the array lies in the block of point r / 1000, which is written back. -/
theorem cover12 (i : S50000x256.Idx) : ∃ t : Fin cfg0.N, (cfg0.win 12).flush t = true ∧ i ∈ ((cfg0.win 12).blk t).view.set := by
  have hi0 : (i 0).val < 50000 := (i 0).isLt
  have hi1 : (i 1).val < 256 := (i 1).isLt
  have hN : cfg0.N = 50 := N_0
  let t : Fin cfg0.N := ⟨(i 0).val / 1000, by rw [hN]; omega⟩
  obtain ⟨-, -, -, -, -, -, -, -, -, -, -, -, ⟨e0, e1⟩, -⟩ := idx_facts t
  have ht : t.val = (i 0).val / 1000 := rfl
  refine ⟨t, flush0_12 t, ?_⟩
  rw [mem_blk12]
  intro a
  match a with
  | ⟨0, _⟩ => show win0_12.index t (0 : Fin 2) * 1000 ≤ (i 0).val ∧ (i 0).val < win0_12.index t (0 : Fin 2) * 1000 + 1000; omega
  | ⟨1, _⟩ => show win0_12.index t (1 : Fin 2) * 256 ≤ (i 1).val ∧ (i 1).val < win0_12.index t (1 : Fin 2) * 256 + 256; omega

theorem arr_xc1 (c : Dev nD) (C : Cert.Gnn.Arr Ideal Cert.ReferenceIdeal.S50000x39 .f32)
    (hC : V c main_v29 = extractStridedSlice S50000x26 ![0, 0] C Cert.KernelIdeal.Facts₀.slices_S50000x39_S50000x26_0_0) :
    (Gen.dat0 (F := Ideal) V c).arrAt 12 cfg0.N = Cert.Gnn.xc1 C (V c main_arg4) (V c main_arg5) :=
  (dat0 (F := Ideal) V c).arrAt_eq_of_cover 12 (Cert.Gnn.xc1 C (V c main_arg4) (V c main_arg5))
    (fun t _ => flushed12_eq V c C hC t) cover12

/-! ## The third output: the rectified dense layer of the continuous features' columns 13–25 -/

set_option maxHeartbeats 800000 in
/-- What point t writes back is block t of the host term of the arrays as the region finds them. -/
theorem flushed13_eq (c : Dev nD) (C : Cert.Gnn.Arr Ideal Cert.ReferenceIdeal.S50000x39 .f32)
    (hC : V c main_v29 = extractStridedSlice S50000x26 ![0, 0] C Cert.KernelIdeal.Facts₀.slices_S50000x39_S50000x26_0_0) (t : Fin cfg0.N) :
    (dat0 (F := Ideal) V c).flushed 13 t
      = ((cfg0.win 13).blk t).view.read (Elt Ideal) (Cert.Gnn.xc2 C (V c main_arg6) (V c main_arg7)) := by
  show (cfg0.win 13).cut (grid0.coords t) ((dat0 (F := Ideal) V c).after 13 t) = _
  rw [after0_13]
  unfold out0_13
  rw [View.canon_unit_zero hz2]
  simp only [View.ld_unit_zero (S := S1000x26) hz2, View.ld_unit_zero (S := S13x256) hz2, View.ld_unit_zero (S := S256) hz1]
  obtain ⟨-, -, -, -, -, -, -, -, -, -, -, -, -, ⟨e0, e1⟩, -⟩ := idx_facts t
  funext j
  obtain ⟨p, u, rfl⟩ : ∃ (p : Fin 1000) (u : Fin 256), j = ix2 p u := ⟨j 0, j 1, eq_ix2 j⟩
  have hN : t.val < 50 := point_lt t
  have hemb : ((cfg0.win 13).blk t).view.emb (ix2 p u) = (ix2 (⟨t.val * 1000 + p.val, by omega⟩ : Fin 50000) u : S50000x256.Idx) := by
    funext a; apply Fin.ext
    match a with
    | ⟨0, _⟩ => show win0_13.index t (0 : Fin 2) * 1000 + 1 * p.val = t.val * 1000 + p.val; omega
    | ⟨1, _⟩ => show win0_13.index t (1 : Fin 2) * 256 + 1 * u.val = u.val; omega
  refine (pay2_apply (iblk0 V c 1 t) (iblk0 V c 6 t) (iblk0 V c 7 t) p u).trans ?_
  show _ = Cert.Gnn.xc2 C (V c main_arg6) (V c main_arg7) (((cfg0.win 13).blk t).view.emb (ix2 p u))
  rw [hemb]
  refine Eq.trans ?_ (xc2_apply C (V c main_arg6) (V c main_arg7) ⟨t.val * 1000 + p.val, by omega⟩ u).symm
  rw [blk6_eq V c t, blk7_eq V c t]
  refine congrArg lrelu ?_
  refine congrArg (fun x => dense x (V c main_arg6 : FVec Ideal S13x256 .f32) (fun v => (V c main_arg7 : FVec Ideal S256 .f32) (ix1 v)) u) ?_
  funext k
  refine (blk1_apply V c t p ⟨13 + k.val, by omega⟩ ⟨t.val * 1000 + p.val, by omega⟩ rfl).trans ?_
  rw [hC]
  exact slice2_axis1_apply 0 C _ _ _ _ (Nat.zero_add _).symm

/-- An index of the array is in point t's block iff each coordinate is in the block's range on its axis. -/
theorem mem_blk13 (t : Fin cfg0.N) (i : S50000x256.Idx) :
    i ∈ ((cfg0.win 13).blk t).view.set ↔ ∀ a : Fin 2, win0_13.index t a * S1000x256.size a ≤ (i a).val ∧ (i a).val < win0_13.index t a * S1000x256.size a + S1000x256.size a := by
  show i ∈ ((View.whole main_v30_2).slice (win0_13.rect t)).set ↔ _
  rw [View.set_slice_whole, Rect.mem_set_unit]
  exact Iff.rfl

/-- Row r of the array lies in the block of point r / 1000, which is written back. -/
theorem cover13 (i : S50000x256.Idx) : ∃ t : Fin cfg0.N, (cfg0.win 13).flush t = true ∧ i ∈ ((cfg0.win 13).blk t).view.set := by
  have hi0 : (i 0).val < 50000 := (i 0).isLt
  have hi1 : (i 1).val < 256 := (i 1).isLt
  have hN : cfg0.N = 50 := N_0
  let t : Fin cfg0.N := ⟨(i 0).val / 1000, by rw [hN]; omega⟩
  obtain ⟨-, -, -, -, -, -, -, -, -, -, -, -, -, ⟨e0, e1⟩, -⟩ := idx_facts t
  have ht : t.val = (i 0).val / 1000 := rfl
  refine ⟨t, flush0_13 t, ?_⟩
  rw [mem_blk13]
  intro a
  match a with
  | ⟨0, _⟩ => show win0_13.index t (0 : Fin 2) * 1000 ≤ (i 0).val ∧ (i 0).val < win0_13.index t (0 : Fin 2) * 1000 + 1000; omega
  | ⟨1, _⟩ => show win0_13.index t (1 : Fin 2) * 256 ≤ (i 1).val ∧ (i 1).val < win0_13.index t (1 : Fin 2) * 256 + 256; omega

theorem arr_xc2 (c : Dev nD) (C : Cert.Gnn.Arr Ideal Cert.ReferenceIdeal.S50000x39 .f32)
    (hC : V c main_v29 = extractStridedSlice S50000x26 ![0, 0] C Cert.KernelIdeal.Facts₀.slices_S50000x39_S50000x26_0_0) :
    (Gen.dat0 (F := Ideal) V c).arrAt 13 cfg0.N = Cert.Gnn.xc2 C (V c main_arg6) (V c main_arg7) :=
  (dat0 (F := Ideal) V c).arrAt_eq_of_cover 13 (Cert.Gnn.xc2 C (V c main_arg6) (V c main_arg7))
    (fun t _ => flushed13_eq V c C hC t) cover13

/-! ## The fourth output: the rectified dense layer of the 64-wide features against the second weight array -/

set_option maxHeartbeats 800000 in
/-- What point t writes back is block t of the host term of the arrays as the region finds them. -/
theorem flushed14_eq (c : Dev nD) (t : Fin cfg0.N) :
    (dat0 (F := Ideal) V c).flushed 14 t
      = ((cfg0.win 14).blk t).view.read (Elt Ideal) (Cert.Gnn.xw1 (V c main_arg0) (V c main_arg8) (V c main_arg9) (V c main_arg10)) := by
  show (cfg0.win 14).cut (grid0.coords t) ((dat0 (F := Ideal) V c).after 14 t) = _
  rw [after0_14]
  unfold out0_14
  rw [View.canon_unit_zero hz2]
  simp only [View.ld_unit_zero (S := S1000x64) hz2, View.ld_unit_zero (S := S64x256) hz2, View.ld_unit_zero (S := S256x256) hz2, View.ld_unit_zero (S := S256) hz1]
  obtain ⟨-, -, -, -, -, -, -, -, -, -, -, -, -, -, ⟨e0, e1⟩⟩ := idx_facts t
  funext j
  obtain ⟨p, u, rfl⟩ : ∃ (p : Fin 1000) (u : Fin 256), j = ix2 p u := ⟨j 0, j 1, eq_ix2 j⟩
  have hN : t.val < 50 := point_lt t
  have hemb : ((cfg0.win 14).blk t).view.emb (ix2 p u) = (ix2 (⟨t.val * 1000 + p.val, by omega⟩ : Fin 50000) u : S50000x256.Idx) := by
    funext a; apply Fin.ext
    match a with
    | ⟨0, _⟩ => show win0_14.index t (0 : Fin 2) * 1000 + 1 * p.val = t.val * 1000 + p.val; omega
    | ⟨1, _⟩ => show win0_14.index t (1 : Fin 2) * 256 + 1 * u.val = u.val; omega
  refine (pay3_apply (iblk0 V c 0 t) (iblk0 V c 8 t) (iblk0 V c 10 t) (iblk0 V c 9 t) p u).trans ?_
  show _ = Cert.Gnn.xw1 (V c main_arg0) (V c main_arg8) (V c main_arg9) (V c main_arg10) (((cfg0.win 14).blk t).view.emb (ix2 p u))
  rw [hemb]
  refine Eq.trans ?_ (xw1_apply (V c main_arg0) (V c main_arg8) (V c main_arg9) (V c main_arg10) ⟨t.val * 1000 + p.val, by omega⟩ u).symm
  rw [blk8_eq V c t, blk9_eq V c t, blk10_eq V c t]
  refine congrArg (fun x => ∑ k : Fin 256, lrelu (dense x (V c main_arg8 : FVec Ideal S64x256 .f32)
    (fun v => (V c main_arg9 : FVec Ideal S256 .f32) (ix1 v)) k) * (V c main_arg10 : FVec Ideal S256x256 .f32) (ix2 k u)) ?_
  funext k'
  exact blk0_apply V c t p k' ⟨t.val * 1000 + p.val, by omega⟩ rfl

/-- An index of the array is in point t's block iff each coordinate is in the block's range on its axis. -/
theorem mem_blk14 (t : Fin cfg0.N) (i : S50000x256.Idx) :
    i ∈ ((cfg0.win 14).blk t).view.set ↔ ∀ a : Fin 2, win0_14.index t a * S1000x256.size a ≤ (i a).val ∧ (i a).val < win0_14.index t a * S1000x256.size a + S1000x256.size a := by
  show i ∈ ((View.whole main_v30_3).slice (win0_14.rect t)).set ↔ _
  rw [View.set_slice_whole, Rect.mem_set_unit]
  exact Iff.rfl

/-- Row r of the array lies in the block of point r / 1000, which is written back. -/
theorem cover14 (i : S50000x256.Idx) : ∃ t : Fin cfg0.N, (cfg0.win 14).flush t = true ∧ i ∈ ((cfg0.win 14).blk t).view.set := by
  have hi0 : (i 0).val < 50000 := (i 0).isLt
  have hi1 : (i 1).val < 256 := (i 1).isLt
  have hN : cfg0.N = 50 := N_0
  let t : Fin cfg0.N := ⟨(i 0).val / 1000, by rw [hN]; omega⟩
  obtain ⟨-, -, -, -, -, -, -, -, -, -, -, -, -, -, ⟨e0, e1⟩⟩ := idx_facts t
  have ht : t.val = (i 0).val / 1000 := rfl
  refine ⟨t, flush0_14 t, ?_⟩
  rw [mem_blk14]
  intro a
  match a with
  | ⟨0, _⟩ => show win0_14.index t (0 : Fin 2) * 1000 ≤ (i 0).val ∧ (i 0).val < win0_14.index t (0 : Fin 2) * 1000 + 1000; omega
  | ⟨1, _⟩ => show win0_14.index t (1 : Fin 2) * 256 ≤ (i 1).val ∧ (i 1).val < win0_14.index t (1 : Fin 2) * 256 + 256; omega

theorem arr_xw1 (c : Dev nD) :
    (Gen.dat0 (F := Ideal) V c).arrAt 14 cfg0.N = Cert.Gnn.xw1 (V c main_arg0) (V c main_arg8) (V c main_arg9) (V c main_arg10) :=
  (dat0 (F := Ideal) V c).arrAt_eq_of_cover 14 (Cert.Gnn.xw1 (V c main_arg0) (V c main_arg8) (V c main_arg9) (V c main_arg10))
    (fun t _ => flushed14_eq V c t) cover14

end Cert.KernelIdeal.RegionA

end
-- ==== Proof.RegionB.lean ====
/-
  The second kernel, as a whole-array function.

  At every one of its fifty points it reads a block of 1000 rows of the first propagation's result, the bias vector
  and the 256 × 256 weight array, and stores  leaky (rows + bias) · W  as the matching 1000 rows of its output.  An
  entry (r, u) of what it stores depends on row r of the input only, and is the same finite sum the host's spelling
  of the layer reads at (r, u).  The fifty blocks tile the 50000 rows, so the output array ends holding the host's
  term of the three input arrays.
-/
import Idealize.ShloMosaic.PureOps.Ideal
import Idealize.ShloMosaic.Lib.Pipeline.Value
import proofs.«104056_j89859305767623_1_alg».proof.Proof.Gen.ReferenceIdeal
import proofs.«104056_j89859305767623_1_alg».proof.Proof.Gen.KernelIdeal.Frame
import proofs.«104056_j89859305767623_1_alg».proof.Proof.Terms
import proofs.«104056_j89859305767623_1_alg».proof.Proof.LibLeakyDense

noncomputable section

open scoped BigOperators

namespace Cert.KernelIdeal.RegionB

open Idealize.ShloMosaic Idealize.ShloMosaic.TcCoe Idealize.ShloMosaic.ValueIdx
open Idealize.ShloMosaic.Pipeline (Dat)
open Cert.KernelIdeal Cert.KernelIdeal.Gen Cert.Layer

/-! ## The two dimension records -/

section Dims

theorem kD_rank : (dot_S1000x256_S256x256_S1000x256_1_0_0_1_n_n).contr.rank = 1 := rfl
theorem kD_size : (dot_S1000x256_S256x256_S1000x256_1_0_0_1_n_n).contr.size ⟨0, by rw [kD_rank]; omega⟩ = 256 := rfl
theorem kD_l0 : ∀ j q, ((dot_S1000x256_S256x256_S1000x256_1_0_0_1_n_n).lhsIdx j q 0).val = (j 0).val := fun _ _ => rfl
theorem kD_l1 : ∀ j q, ((dot_S1000x256_S256x256_S1000x256_1_0_0_1_n_n).lhsIdx j q 1).val = (q ⟨0, by rw [kD_rank]; omega⟩).val := fun _ _ => rfl
theorem kD_r0 : ∀ j q, ((dot_S1000x256_S256x256_S1000x256_1_0_0_1_n_n).rhsIdx j q 0).val = (q ⟨0, by rw [kD_rank]; omega⟩).val := fun _ _ => rfl
theorem kD_r1 : ∀ j q, ((dot_S1000x256_S256x256_S1000x256_1_0_0_1_n_n).rhsIdx j q 1).val = (j 1).val := fun _ _ => rfl

end Dims

/-! ## What the body stores, at an entry -/

/-- The layer at an entry, from one row of its input: Σ_k leaky (x k + b k) · W (k, u). -/
def layer (x : Fin 256 → EReal) (b : Fin 256 → EReal) (W : S256x256.Idx → EReal) (u : Fin 256) : EReal :=
  ∑ k : Fin 256, lrelu (x k + b k) * W (ix2 k u)

set_option maxHeartbeats 400000 in
/-- The stored block at (p, u) is the layer of row p of the block read. -/
theorem pay_apply (x0 : FVec Ideal S1000x256 .f32) (x1 : FVec Ideal S256 .f32) (x2 : FVec Ideal S256x256 .f32)
    (p : Fin 1000) (u : Fin 256) :
    k1_pay1 (F := Ideal) x0 x1 x2 (ix2 p u) = layer (fun k => x0 (ix2 p k)) (fun k => x1 (ix1 k)) x2 u := by
  unfold k1_pay1
  refine (Cert.RowsProduct.matmul_zero_rows_apply dot_S1000x256_S256x256_S1000x256_1_0_0_1_n_n none kD_rank kD_size
    kD_l0 kD_l1 kD_r0 kD_r1 _ _ p u).trans ?_
  unfold layer
  refine Finset.sum_congr rfl fun k _ => ?_
  refine congrArg (· * x2 (ix2 k u)) ?_
  refine (leaky_kernel_apply _ (ix2 p k)).trans (congrArg lrelu ?_)
  show shapeCast S1000x256 x0 Facts₀.shapeCasts_S1000x256_S1000x256 (ix2 p k)
      + broadcastTo S1000x256 (shapeCast S1x256 x1 Facts₀.shapeCasts_S256_S1x256) Facts₀.broadcasts_S1x256_S1000x256 (ix2 p k) = _
  rw [shapeCast_self, broadcastTo_1b_ab_apply, shapeCast_a_1a_apply]

/-! ## The host's term, at an entry -/

section Host

open Cert.ReferenceIdeal (S50000x256 S_)

theorem hD_rank : (Cert.ReferenceIdeal.dot_S50000x256_S256x256_S50000x256_1_0_0_1_n_n).contr.rank = 1 := rfl
theorem hD_size : (Cert.ReferenceIdeal.dot_S50000x256_S256x256_S50000x256_1_0_0_1_n_n).contr.size ⟨0, by rw [hD_rank]; omega⟩ = 256 := rfl
theorem hD_l0 : ∀ j q, ((Cert.ReferenceIdeal.dot_S50000x256_S256x256_S50000x256_1_0_0_1_n_n).lhsIdx j q 0).val = (j 0).val := fun _ _ => rfl
theorem hD_l1 : ∀ j q, ((Cert.ReferenceIdeal.dot_S50000x256_S256x256_S50000x256_1_0_0_1_n_n).lhsIdx j q 1).val = (q ⟨0, by rw [hD_rank]; omega⟩).val := fun _ _ => rfl
theorem hD_r0 : ∀ j q, ((Cert.ReferenceIdeal.dot_S50000x256_S256x256_S50000x256_1_0_0_1_n_n).rhsIdx j q 0).val = (q ⟨0, by rw [hD_rank]; omega⟩).val := fun _ _ => rfl
theorem hD_r1 : ∀ j q, ((Cert.ReferenceIdeal.dot_S50000x256_S256x256_S50000x256_1_0_0_1_n_n).rhsIdx j q 1).val = (j 1).val := fun _ _ => rfl

set_option maxHeartbeats 400000 in
/-- The host's term at (r, u) is the layer of row r of its first argument. -/
theorem xw2_apply (raw : Cert.Gnn.Arr Ideal S50000x256 .f32) (b : Cert.Gnn.Arr Ideal S256 .f32)
    (W : Cert.Gnn.Arr Ideal S256x256 .f32) (r : Fin 50000) (u : Fin 256) :
    Cert.Gnn.xw2 raw b W (ix2 r u) = layer (fun k => raw (ix2 r k)) (fun k => b (ix1 k)) W u := by
  unfold Cert.Gnn.xw2
  refine (product_host_apply Cert.ReferenceIdeal.dot_S50000x256_S256x256_S50000x256_1_0_0_1_n_n hD_rank hD_size
    hD_l0 hD_l1 hD_r0 hD_r1 _ W r u).trans ?_
  unfold layer
  refine Finset.sum_congr rfl fun k _ => ?_
  refine congrArg (· * W (ix2 k u)) ?_
  unfold Cert.Gnn.leaky
  refine (leaky_host_apply _ _ _ (ix2 r k)).trans (congrArg lrelu ?_)
  show raw (ix2 r k) + Cert.Gnn.rows256 b (ix2 r k) = _
  unfold Cert.Gnn.rows256
  rw [Cert.RowPerceptron.vecBias_apply]

end Host

/-! ## From the blocks to the array -/

section Blocks

open Cert.ReferenceIdeal (S50000x256)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row-blocked windows are at block (t, 0) at point t, the others at block 0. -/
theorem idx_facts : ∀ t : Fin cfg1.N, win1_0.index t (0 : Fin 2) = t.val ∧ win1_0.index t (1 : Fin 2) = 0
    ∧ win1_1.index t (0 : Fin 1) = 0 ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- Row p of the input block at point t is row 1000 t + p of the input array. -/
theorem blk0_apply (c : Dev nD) (t : Fin cfg1.N) (p : Fin 1000) (k : Fin 256) (r : Fin 50000)
    (hr : r.val = t.val * 1000 + p.val) :
    iblk1 V c 0 t (ix2 p k) = V c main_v43 (ix2 r k) := by
  obtain ⟨e0, e1, -⟩ := idx_facts t
  show V c main_v43 (((cfg1.win 0).blk t).view.emb (ix2 p k)) = V c main_v43 (ix2 r k)
  refine congrArg (V c main_v43) (funext fun a => Fin.ext ?_)
  match a with
  | ⟨0, _⟩ => show win1_0.index t (0 : Fin 2) * 1000 + 1 * p.val = r.val; omega
  | ⟨1, _⟩ => show win1_0.index t (1 : Fin 2) * 256 + 1 * k.val = k.val; omega

set_option maxHeartbeats 400000 in
/-- The bias block is the bias array. -/
theorem blk1_apply (c : Dev nD) (t : Fin cfg1.N) (k : Fin 256) :
    iblk1 V c 1 t (ix1 k) = V c main_arg11 (ix1 k) := by
  obtain ⟨-, -, e, -⟩ := idx_facts t
  show V c main_arg11 (((cfg1.win 1).blk t).view.emb (ix1 k)) = V c main_arg11 (ix1 k)
  refine congrArg (V c main_arg11) (funext fun a => Fin.ext ?_)
  match a with
  | ⟨0, _⟩ => show win1_1.index t (0 : Fin 1) * 256 + 1 * k.val = k.val; omega

set_option maxHeartbeats 400000 in
/-- The weight block is the weight array. -/
theorem blk2_apply (c : Dev nD) (t : Fin cfg1.N) (k u : Fin 256) :
    iblk1 V c 2 t (ix2 k u) = V c main_arg12 (ix2 k u) := by
  obtain ⟨-, -, -, e0, e1, -⟩ := idx_facts t
  show V c main_arg12 (((cfg1.win 2).blk t).view.emb (ix2 k u)) = V c main_arg12 (ix2 k u)
  refine congrArg (V c main_arg12) (funext fun a => Fin.ext ?_)
  match a with
  | ⟨0, _⟩ => show win1_2.index t (0 : Fin 2) * 256 + 1 * k.val = k.val; omega
  | ⟨1, _⟩ => show win1_2.index t (1 : Fin 2) * 256 + 1 * u.val = u.val; omega

set_option maxHeartbeats 1000000 in
/-- What point t writes back is block t of the host's term of the input arrays. -/
theorem flushed_eq (c : Dev nD) (t : Fin cfg1.N) :
    (dat1 V c).flushed 3 t = ((cfg1.win 3).blk t).view.read (Elt Ideal)
      (Cert.Gnn.xw2 (V c main_v43) (V c main_arg11) (V c main_arg12)) := by
  show (cfg1.win 3).cut (grid1.coords t) ((dat1 V c).after 3 t) = _
  rw [after1_3]
  unfold out1_3
  rw [View.canon_unit_zero hz2]
  simp only [View.ld_unit_zero (S := S1000x256) hz2, View.ld_unit_zero (S := S256) hz1,
    View.ld_unit_zero (S := S256x256) hz2]
  funext j
  obtain ⟨p, u, rfl⟩ : ∃ (p : Fin 1000) (u : Fin 256), j = ix2 p u := ⟨j 0, j 1, eq_ix2 j⟩
  have hN : grid1.N = 50 := N_1
  have ht : t.val < 50 := lt_of_lt_of_eq t.isLt hN
  obtain ⟨-, -, -, -, -, e30, e31⟩ := idx_facts t
  have hr : t.val * 1000 + p.val < 50000 := by omega
  have hemb : ((cfg1.win 3).blk t).view.emb (ix2 p u) = ix2 (⟨t.val * 1000 + p.val, hr⟩ : Fin 50000) u :=
    funext fun a => Fin.ext (by
      match a with
      | ⟨0, _⟩ => show win1_3.index t (0 : Fin 2) * 1000 + 1 * p.val = t.val * 1000 + p.val; omega
      | ⟨1, _⟩ => show win1_3.index t (1 : Fin 2) * 256 + 1 * u.val = u.val; omega)
  refine (pay_apply (iblk1 V c 0 t) (iblk1 V c 1 t) (iblk1 V c 2 t) p u).trans ?_
  refine Eq.trans ?_ (congrArg (Cert.Gnn.xw2 (V c main_v43) (V c main_arg11) (V c main_arg12)) hemb).symm
  refine Eq.trans ?_ (xw2_apply _ _ _ _ u).symm
  unfold layer
  refine Finset.sum_congr rfl fun k _ => ?_
  beta_reduce
  rw [blk0_apply V c t p k ⟨t.val * 1000 + p.val, hr⟩ rfl, blk1_apply V c t k, blk2_apply V c t k u]

/-- An index of the output array is in point t's block iff each coordinate is in the block's range on its axis. -/
theorem mem_blk (t : Fin cfg1.N) (i : S50000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v44).slice (win1_3.rect t)).set ↔ _
  rw [View.set_slice_whole, Rect.mem_set_unit]
  exact Iff.rfl

/-- Row r lies in the block of point r / 1000. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 50 := N_1
  have hlt : (i 0).val / 1000 < grid1.N := by omega
  obtain ⟨-, -, -, -, -, e30, e31⟩ := idx_facts ⟨(i 0).val / 1000, hlt⟩
  refine ⟨⟨(i 0).val / 1000, hlt⟩, flush1_3 _, ?_⟩
  rw [mem_blk]
  intro a
  match a with
  | ⟨0, _⟩ =>
    show win1_3.index ⟨(i 0).val / 1000, hlt⟩ (0 : Fin 2) * 1000 ≤ (i 0).val
      ∧ (i 0).val < win1_3.index ⟨(i 0).val / 1000, hlt⟩ (0 : Fin 2) * 1000 + 1000
    have e : win1_3.index ⟨(i 0).val / 1000, hlt⟩ (0 : Fin 2) = (i 0).val / 1000 := e30
    omega
  | ⟨1, _⟩ =>
    show win1_3.index ⟨(i 0).val / 1000, hlt⟩ (1 : Fin 2) * 256 ≤ (i 1).val
      ∧ (i 1).val < win1_3.index ⟨(i 0).val / 1000, hlt⟩ (1 : Fin 2) * 256 + 256
    omega

/-- The output array after the region is the host's term of the input arrays as the region found them. -/
theorem arr_xw2 (c : Dev nD) :
    (Gen.dat1 (F := Ideal) V c).arrAt 3 cfg1.N = Cert.Gnn.xw2 (V c main_v43) (V c main_arg11) (V c main_arg12) :=
  (dat1 V c).arrAt_eq_of_cover 3 _ (fun t _ => flushed_eq V c t) cover

end Blocks

end Cert.KernelIdeal.RegionB

end
-- ==== Proof.RegionC.lean ====
/-
  The third kernel, as two whole-array functions.

  At every one of its fifty points it reads a block of 1000 rows of each of four 256-wide arrays (the three dense
  layers' results and the second propagation's result) and the weights and biases whole, sets the three blocks and
  leaky (rows + bias) of the fourth side by side, and stores  leaky (that · Wf + bf)  as 1000 rows of the hidden
  array and  logistic (leaky (hidden · W₁ + b₁) · W₂ + b₂)  as 1000 rows of the score column.  Row r of either
  depends on row r of the four inputs only, and is what the host's spelling reads in row r.  The fifty blocks tile
  the 50000 rows, so the two output arrays end holding the host's terms of the input arrays.
-/
import Idealize.ShloMosaic.PureOps.Ideal
import Idealize.ShloMosaic.Lib.Pipeline.Value
import proofs.«104056_j89859305767623_1_alg».proof.Proof.Gen.ReferenceIdeal
import proofs.«104056_j89859305767623_1_alg».proof.Proof.Gen.KernelIdeal.Frame
import proofs.«104056_j89859305767623_1_alg».proof.Proof.Terms
import proofs.«104056_j89859305767623_1_alg».proof.Proof.LibLeakyDense

noncomputable section

open scoped BigOperators

namespace Cert.KernelIdeal.RegionC

open Idealize.ShloMosaic Idealize.ShloMosaic.TcCoe Idealize.ShloMosaic.ValueIdx
open Idealize.ShloMosaic.Pipeline (Dat)
open Cert.KernelIdeal Cert.KernelIdeal.Gen Cert.Layer

/-! ## Four arrays of 256 columns set side by side -/

section Pieces

variable {α : Type}

/-- Column j of four 256-column rows set side by side. -/
def pick4 (x0 x1 x2 x3 : Fin 256 → α) (j : Fin 1024) : α :=
  if h : j.val < 256 then x0 ⟨j.val, h⟩
  else if h' : j.val < 512 then x1 ⟨j.val - 256, by omega⟩
  else if h'' : j.val < 768 then x2 ⟨j.val - 512, by omega⟩
  else x3 ⟨j.val - 768, by have := j.isLt; omega⟩

/-- Four a × 256 arrays joined along the columns: entry (r, j) is column j of the four rows r set side by side. -/
theorem concat4_apply {a : ℕ} (x0 x1 x2 x3 : (⟨2, ![a, 256]⟩ : Shape).Idx → α)
    (h : Shape.Concatenates (([⟨⟨2, ![a, 256]⟩, x0⟩, ⟨⟨2, ![a, 256]⟩, x1⟩, ⟨⟨2, ![a, 256]⟩, x2⟩, ⟨⟨2, ![a, 256]⟩, x3⟩] :
      List ((s : Shape) × (s.Idx → α))).map (·.1)) ⟨2, ![a, 1024]⟩ 1)
    (r : Fin a) (j : Fin 1024) :
    concatenate ⟨2, ![a, 1024]⟩ 1
        [⟨⟨2, ![a, 256]⟩, x0⟩, ⟨⟨2, ![a, 256]⟩, x1⟩, ⟨⟨2, ![a, 256]⟩, x2⟩, ⟨⟨2, ![a, 256]⟩, x3⟩] h (ix2 r j)
      = pick4 (fun q => x0 (ix2 r q)) (fun q => x1 (ix2 r q)) (fun q => x2 (ix2 r q)) (fun q => x3 (ix2 r q)) j := by
  unfold pick4
  by_cases hj : j.val < 256
  · rw [dif_pos hj]
    refine concatenate_apply_piece 1 _ h (ix2 r j) 0 (by show 0 < 4; omega) ⟨2, ![a, 256]⟩ x0 rfl rfl 0 rfl
      (ix2 r ⟨j.val, hj⟩) ?_ ?_
    · intro ax hax
      match ax with
      | ⟨0, _⟩ => rfl
      | ⟨1, _⟩ => exact absurd rfl hax
    · show 0 + j.val = j.val
      omega
  · rw [dif_neg hj]
    by_cases hj' : j.val < 512
    · rw [dif_pos hj']
      refine concatenate_apply_piece 1 _ h (ix2 r j) 1 (by show 1 < 4; omega) ⟨2, ![a, 256]⟩ x1 rfl rfl 256 rfl
        (ix2 r ⟨j.val - 256, by omega⟩) ?_ ?_
      · intro ax hax
        match ax with
        | ⟨0, _⟩ => rfl
        | ⟨1, _⟩ => exact absurd rfl hax
      · show 256 + (j.val - 256) = j.val
        omega
    · rw [dif_neg hj']
      by_cases hj'' : j.val < 768
      · rw [dif_pos hj'']
        refine concatenate_apply_piece 1 _ h (ix2 r j) 2 (by show 2 < 4; omega) ⟨2, ![a, 256]⟩ x2 rfl rfl 512 rfl
          (ix2 r ⟨j.val - 512, by omega⟩) ?_ ?_
        · intro ax hax
          match ax with
          | ⟨0, _⟩ => rfl
          | ⟨1, _⟩ => exact absurd rfl hax
        · show 512 + (j.val - 512) = j.val
          omega
      · rw [dif_neg hj'']
        refine concatenate_apply_piece 1 _ h (ix2 r j) 3 (by show 3 < 4; omega) ⟨2, ![a, 256]⟩ x3 rfl rfl 768 rfl
          (ix2 r ⟨j.val - 768, by have := j.isLt; omega⟩) ?_ ?_
        · intro ax hax
          match ax with
          | ⟨0, _⟩ => rfl
          | ⟨1, _⟩ => exact absurd rfl hax
        · show 768 + (j.val - 768) = j.val
          omega

end Pieces

/-! ## The two outputs at an entry -/

/-- The hidden array at column u, from one row of each of the four inputs:
    leaky (Σ_k [d, c₁, c₂, leaky (raw + bg)] k · Wf (k, u) + bf u). -/
def hidden (d c1 c2 raw bg : Fin 256 → EReal) (Wf : S1024x512.Idx → EReal) (bf : Fin 512 → EReal) (u : Fin 512) : EReal :=
  lrelu (dense (pick4 d c1 c2 fun q => lrelu (raw q + bg q)) Wf bf u)

/-- The score, from one row h of the hidden array: logistic (leaky (h · W₁ + b₁) · W₂ + b₂). -/
def scoreAt (h : Fin 512 → EReal) (W1 : S512x256.Idx → EReal) (b1 : Fin 256 → EReal) (W2 : S256x1.Idx → EReal)
    (b2 : Fin 1 → EReal) (w : Fin 1) : EReal :=
  Ideal.logistic (dense (fun k => lrelu (dense h W1 b1 k)) W2 b2 w)

/-! ## What the body stores, at an entry -/

set_option maxHeartbeats 1000000 in
/-- The stored hidden block at (p, u) is the hidden array's entry from rows p of the blocks read. -/
theorem hid_kernel_apply (raw : FVec Ideal S1000x256 .f32) (bg : FVec Ideal S256 .f32) (d c1 c2 : FVec Ideal S1000x256 .f32)
    (Wf : FVec Ideal S1024x512 .f32) (bf : FVec Ideal S512 .f32) (p : Fin 1000) (u : Fin 512) :
    k2_pay2 (F := Ideal) raw bg d c1 c2 Wf bf (ix2 p u)
      = hidden (fun q => d (ix2 p q)) (fun q => c1 (ix2 p q)) (fun q => c2 (ix2 p q)) (fun q => raw (ix2 p q))
          (fun q => bg (ix1 q)) Wf (fun v => bf (ix1 v)) u := by
  unfold k2_pay2 hidden
  refine (leaky_kernel_apply _ (ix2 p u)).trans (congrArg lrelu ?_)
  refine (dense_kernel_apply dot_S1000x1024_S1024x512_S1000x512_1_0_0_1_n_n rfl rfl (fun _ _ => rfl) (fun _ _ => rfl)
    (fun _ _ => rfl) (fun _ _ => rfl) _ _ bf Facts₀.shapeCasts_S512_S1x512 Facts₀.broadcasts_S1x512_S1000x512 p u).trans ?_
  unfold dense
  refine congrArg (· + bf (ix1 u)) (Finset.sum_congr rfl fun k _ => ?_)
  refine congrArg (· * Wf (ix2 k u)) ?_
  refine (concat4_apply _ _ _ _ Facts₀.concatenates_S1000x256_S1000x256_S1000x256_S1000x256_S1000x1024_d1 p k).trans ?_
  simp only [shapeCast_self]
  refine congrArg (fun f => pick4 (fun q => d (ix2 p q)) (fun q => c1 (ix2 p q)) (fun q => c2 (ix2 p q)) f k)
    (funext fun q => ?_)
  refine (leaky_kernel_apply _ (ix2 p q)).trans (congrArg lrelu ?_)
  show raw (ix2 p q)
      + broadcastTo S1000x256 (shapeCast S1x256 bg Facts₀.shapeCasts_S256_S1x256) Facts₀.broadcasts_S1x256_S1000x256 (ix2 p q) = _
  rw [broadcastTo_1b_ab_apply, shapeCast_a_1a_apply]

set_option maxHeartbeats 1000000 in
/-- The stored score block at (p, w) is the score from row p of the hidden block. -/
theorem score_kernel_apply (raw : FVec Ideal S1000x256 .f32) (bg : FVec Ideal S256 .f32) (d c1 c2 : FVec Ideal S1000x256 .f32)
    (Wf : FVec Ideal S1024x512 .f32) (bf : FVec Ideal S512 .f32) (W1 : FVec Ideal S512x256 .f32) (b1 : FVec Ideal S256 .f32)
    (W2 : FVec Ideal S256x1 .f32) (b2 : FVec Ideal S1 .f32) (p : Fin 1000) (w : Fin 1) :
    k2_pay1 (F := Ideal) (k2_pay3 raw bg d c1 c2 Wf bf W1) b1 W2 b2 (ix2 p w)
      = scoreAt (fun m => k2_pay2 (F := Ideal) raw bg d c1 c2 Wf bf (ix2 p m)) W1 (fun k => b1 (ix1 k)) W2
          (fun v => b2 (ix1 v)) w := by
  unfold k2_pay1 k2_pay3 scoreAt
  refine congrArg Ideal.logistic ?_
  refine (dense_kernel_apply dot_S1000x256_S256x1_S1000x1_1_0_0_1_n_n rfl rfl (fun _ _ => rfl) (fun _ _ => rfl)
    (fun _ _ => rfl) (fun _ _ => rfl) _ _ b2 Facts₀.shapeCasts_S1_S1x1 Facts₀.broadcasts_S1x1_S1000x1 p w).trans ?_
  refine congrArg (fun f => dense f W2 (fun v => b2 (ix1 v)) w) (funext fun k => ?_)
  refine (leaky_kernel_apply _ (ix2 p k)).trans (congrArg lrelu ?_)
  exact dense_kernel_apply dot_S1000x512_S512x256_S1000x256_1_0_0_1_n_n rfl rfl (fun _ _ => rfl) (fun _ _ => rfl)
    (fun _ _ => rfl) (fun _ _ => rfl) _ _ b1 Facts₀.shapeCasts_S256_S1x256 Facts₀.broadcasts_S1x256_S1000x256 p k

/-! ## The host's terms, at an entry -/

section Host

open Cert.ReferenceIdeal (S50000x256 S50000x512 S50000x1)

set_option maxHeartbeats 1000000 in
/-- The host's hidden array at (r, u) is the hidden array's entry from rows r of its four inputs. -/
theorem hid_host_apply (d c1 c2 raw : Cert.Gnn.Arr Ideal S50000x256 .f32) (bg : Cert.Gnn.Arr Ideal S256 .f32)
    (Wf : Cert.Gnn.Arr Ideal S1024x512 .f32) (bf : Cert.Gnn.Arr Ideal S512 .f32) (r : Fin 50000) (u : Fin 512) :
    Cert.Gnn.hid d c1 c2 raw bg Wf bf (ix2 r u)
      = hidden (fun q => d (ix2 r q)) (fun q => c1 (ix2 r q)) (fun q => c2 (ix2 r q)) (fun q => raw (ix2 r q))
          (fun q => bg (ix1 q)) Wf (fun v => bf (ix1 v)) u := by
  unfold Cert.Gnn.hid hidden
  unfold Cert.Gnn.leaky
  refine (leaky_host_apply _ _ _ (ix2 r u)).trans (congrArg lrelu ?_)
  refine (dense_host_apply Cert.ReferenceIdeal.dot_S50000x1024_S1024x512_S50000x512_1_0_0_1_n_n rfl rfl
    (fun _ _ => rfl) (fun _ _ => rfl) (fun _ _ => rfl) (fun _ _ => rfl) _ Wf bf _ _ r u).trans ?_
  unfold dense
  refine congrArg (· + bf (ix1 u)) (Finset.sum_congr rfl fun k _ => ?_)
  refine congrArg (· * Wf (ix2 k u)) ?_
  refine (concat4_apply _ _ _ _ _ r k).trans ?_
  refine congrArg (fun f => pick4 (fun q => d (ix2 r q)) (fun q => c1 (ix2 r q)) (fun q => c2 (ix2 r q)) f k)
    (funext fun q => ?_)
  refine (leaky_host_apply _ _ _ (ix2 r q)).trans (congrArg lrelu ?_)
  show raw (ix2 r q) + Cert.Gnn.rows256 bg (ix2 r q) = _
  unfold Cert.Gnn.rows256
  rw [Cert.RowPerceptron.vecBias_apply]

set_option maxHeartbeats 1000000 in
/-- The host's score at (r, w) is the score from row r of the hidden array. -/
theorem score_host_apply (h : Cert.Gnn.Arr Ideal S50000x512 .f32) (W1 : Cert.Gnn.Arr Ideal S512x256 .f32)
    (b1 : Cert.Gnn.Arr Ideal S256 .f32) (W2 : Cert.Gnn.Arr Ideal S256x1 .f32) (b2 : Cert.Gnn.Arr Ideal S1 .f32)
    (r : Fin 50000) (w : Fin 1) :
    Cert.Gnn.score h W1 b1 W2 b2 (ix2 r w)
      = scoreAt (fun m => h (ix2 r m)) W1 (fun k => b1 (ix1 k)) W2 (fun v => b2 (ix1 v)) w := by
  unfold Cert.Gnn.score scoreAt
  refine (Cert.RowPerceptron.host_logistic_apply _ _ _ (ix2 r w)).trans (congrArg Ideal.logistic ?_)
  refine (dense_host_apply Cert.ReferenceIdeal.dot_S50000x256_S256x1_S50000x1_1_0_0_1_n_n rfl rfl
    (fun _ _ => rfl) (fun _ _ => rfl) (fun _ _ => rfl) (fun _ _ => rfl) _ W2 b2 _ _ r w).trans ?_
  refine congrArg (fun f => dense f W2 (fun v => b2 (ix1 v)) w) (funext fun k => ?_)
  unfold Cert.Gnn.leaky
  refine (leaky_host_apply _ _ _ (ix2 r k)).trans (congrArg lrelu ?_)
  unfold Cert.Gnn.rows256
  exact dense_host_apply Cert.ReferenceIdeal.dot_S50000x512_S512x256_S50000x256_1_0_0_1_n_n rfl rfl
    (fun _ _ => rfl) (fun _ _ => rfl) (fun _ _ => rfl) (fun _ _ => rfl) h W1 b1 _ _ r k

end Host

/-! ## From the blocks to the arrays -/

section Blocks

open Cert.ReferenceIdeal (S50000x256 S50000x512 S50000x1)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! The index maps over the grid: a row-blocked window is at block (t, 0) at point t, every other window at block 0. -/

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = t.val ∧ win2_3.index t (1 : Fin 2) = 0 :=
  (by decide +kernel : ∀ t : Fin grid2.N, _)
theorem idx_11 : ∀ t : Fin cfg2.N, win2_11.index t (0 : Fin 2) = t.val ∧ win2_11.index t (1 : Fin 2) = 0 :=
  (by decide +kernel : ∀ t : Fin grid2.N, _)
theorem idx_12 : ∀ t : Fin cfg2.N, win2_12.index t (0 : Fin 2) = t.val ∧ win2_12.index t (1 : Fin 2) = 0 :=
  (by decide +kernel : ∀ t : Fin grid2.N, _)
theorem idx_4 : ∀ t : Fin cfg2.N, win2_4.index t (0 : Fin 1) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 1) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 1) = 0 :=
  (by decide +kernel : ∀ t : Fin grid2.N, _)
theorem idx_9 : ∀ t : Fin cfg2.N, win2_9.index t (0 : Fin 2) = 0 ∧ win2_9.index t (1 : Fin 2) = 0 :=
  (by decide +kernel : ∀ t : Fin grid2.N, _)
theorem idx_10 : ∀ t : Fin cfg2.N, win2_10.index t (0 : Fin 1) = 0 :=
  (by decide +kernel : ∀ t : Fin grid2.N, _)

/-! Each input block, read where it lies in its array. -/

set_option maxHeartbeats 400000 in
/-- Row p of the first dense layer's block at point t is row 1000 t + p of its array. -/
theorem blk_d (c : Dev nD) (t : Fin cfg2.N) (p : Fin 1000) (q : Fin 256) (r : Fin 50000)
    (hr : r.val = t.val * 1000 + p.val) :
    iblk2 V c 0 t (ix2 p q) = V c main_v30_0 (ix2 r q) := by
  obtain ⟨e0, e1⟩ := idx_0 t
  show V c main_v30_0 (((cfg2.win 0).blk t).view.emb (ix2 p q)) = V c main_v30_0 (ix2 r q)
  refine congrArg (V c main_v30_0) (funext fun a => Fin.ext ?_)
  match a with
  | ⟨0, _⟩ => show win2_0.index t (0 : Fin 2) * 1000 + 1 * p.val = r.val; omega
  | ⟨1, _⟩ => show win2_0.index t (1 : Fin 2) * 256 + 1 * q.val = q.val; omega

set_option maxHeartbeats 400000 in
/-- Row p of the second dense layer's block at point t is row 1000 t + p of its array. -/
theorem blk_c1 (c : Dev nD) (t : Fin cfg2.N) (p : Fin 1000) (q : Fin 256) (r : Fin 50000)
    (hr : r.val = t.val * 1000 + p.val) :
    iblk2 V c 1 t (ix2 p q) = V c main_v30_1 (ix2 r q) := by
  obtain ⟨e0, e1⟩ := idx_1 t
  show V c main_v30_1 (((cfg2.win 1).blk t).view.emb (ix2 p q)) = V c main_v30_1 (ix2 r q)
  refine congrArg (V c main_v30_1) (funext fun a => Fin.ext ?_)
  match a with
  | ⟨0, _⟩ => show win2_1.index t (0 : Fin 2) * 1000 + 1 * p.val = r.val; omega
  | ⟨1, _⟩ => show win2_1.index t (1 : Fin 2) * 256 + 1 * q.val = q.val; omega

set_option maxHeartbeats 400000 in
/-- Row p of the third dense layer's block at point t is row 1000 t + p of its array. -/
theorem blk_c2 (c : Dev nD) (t : Fin cfg2.N) (p : Fin 1000) (q : Fin 256) (r : Fin 50000)
    (hr : r.val = t.val * 1000 + p.val) :
    iblk2 V c 2 t (ix2 p q) = V c main_v30_2 (ix2 r q) := by
  obtain ⟨e0, e1⟩ := idx_2 t
  show V c main_v30_2 (((cfg2.win 2).blk t).view.emb (ix2 p q)) = V c main_v30_2 (ix2 r q)
  refine congrArg (V c main_v30_2) (funext fun a => Fin.ext ?_)
  match a with
  | ⟨0, _⟩ => show win2_2.index t (0 : Fin 2) * 1000 + 1 * p.val = r.val; omega
  | ⟨1, _⟩ => show win2_2.index t (1 : Fin 2) * 256 + 1 * q.val = q.val; omega

set_option maxHeartbeats 400000 in
/-- Row p of the propagation result's block at point t is row 1000 t + p of its array. -/
theorem blk_raw (c : Dev nD) (t : Fin cfg2.N) (p : Fin 1000) (q : Fin 256) (r : Fin 50000)
    (hr : r.val = t.val * 1000 + p.val) :
    iblk2 V c 3 t (ix2 p q) = V c main_v57 (ix2 r q) := by
  obtain ⟨e0, e1⟩ := idx_3 t
  show V c main_v57 (((cfg2.win 3).blk t).view.emb (ix2 p q)) = V c main_v57 (ix2 r q)
  refine congrArg (V c main_v57) (funext fun a => Fin.ext ?_)
  match a with
  | ⟨0, _⟩ => show win2_3.index t (0 : Fin 2) * 1000 + 1 * p.val = r.val; omega
  | ⟨1, _⟩ => show win2_3.index t (1 : Fin 2) * 256 + 1 * q.val = q.val; omega

set_option maxHeartbeats 400000 in
/-- The graph layer's bias block is the bias array. -/
theorem blk_bg (c : Dev nD) (t : Fin cfg2.N) : (iblk2 V c 4 t : S256.Idx → EReal) = V c main_arg13 := by
  have e0 := idx_4 t
  funext i
  show V c main_arg13 (((cfg2.win 4).blk t).view.emb i) = V c main_arg13 i
  refine congrArg (V c main_arg13) (funext fun a => Fin.ext ?_)
  match a with
  | ⟨0, _⟩ => show win2_4.index t (0 : Fin 1) * 256 + 1 * (i 0).val = (i 0).val; omega

set_option maxHeartbeats 400000 in
/-- The hidden layer's weight block is the weight array. -/
theorem blk_Wf (c : Dev nD) (t : Fin cfg2.N) : (iblk2 V c 5 t : S1024x512.Idx → EReal) = V c main_arg14 := by
  obtain ⟨e0, e1⟩ := idx_5 t
  funext i
  show V c main_arg14 (((cfg2.win 5).blk t).view.emb i) = V c main_arg14 i
  refine congrArg (V c main_arg14) (funext fun a => Fin.ext ?_)
  match a with
  | ⟨0, _⟩ => show win2_5.index t (0 : Fin 2) * 1024 + 1 * (i 0).val = (i 0).val; omega
  | ⟨1, _⟩ => show win2_5.index t (1 : Fin 2) * 512 + 1 * (i 1).val = (i 1).val; omega

set_option maxHeartbeats 400000 in
/-- The hidden layer's bias block is the bias array. -/
theorem blk_bf (c : Dev nD) (t : Fin cfg2.N) : (iblk2 V c 6 t : S512.Idx → EReal) = V c main_arg15 := by
  have e0 := idx_6 t
  funext i
  show V c main_arg15 (((cfg2.win 6).blk t).view.emb i) = V c main_arg15 i
  refine congrArg (V c main_arg15) (funext fun a => Fin.ext ?_)
  match a with
  | ⟨0, _⟩ => show win2_6.index t (0 : Fin 1) * 512 + 1 * (i 0).val = (i 0).val; omega

set_option maxHeartbeats 400000 in
/-- The first score layer's weight block is the weight array. -/
theorem blk_W1 (c : Dev nD) (t : Fin cfg2.N) : (iblk2 V c 7 t : S512x256.Idx → EReal) = V c main_arg16 := by
  obtain ⟨e0, e1⟩ := idx_7 t
  funext i
  show V c main_arg16 (((cfg2.win 7).blk t).view.emb i) = V c main_arg16 i
  refine congrArg (V c main_arg16) (funext fun a => Fin.ext ?_)
  match a with
  | ⟨0, _⟩ => show win2_7.index t (0 : Fin 2) * 512 + 1 * (i 0).val = (i 0).val; omega
  | ⟨1, _⟩ => show win2_7.index t (1 : Fin 2) * 256 + 1 * (i 1).val = (i 1).val; omega

set_option maxHeartbeats 400000 in
/-- The first score layer's bias block is the bias array. -/
theorem blk_b1 (c : Dev nD) (t : Fin cfg2.N) : (iblk2 V c 8 t : S256.Idx → EReal) = V c main_arg17 := by
  have e0 := idx_8 t
  funext i
  show V c main_arg17 (((cfg2.win 8).blk t).view.emb i) = V c main_arg17 i
  refine congrArg (V c main_arg17) (funext fun a => Fin.ext ?_)
  match a with
  | ⟨0, _⟩ => show win2_8.index t (0 : Fin 1) * 256 + 1 * (i 0).val = (i 0).val; omega

set_option maxHeartbeats 400000 in
/-- The second score layer's weight block is the weight array. -/
theorem blk_W2 (c : Dev nD) (t : Fin cfg2.N) : (iblk2 V c 9 t : S256x1.Idx → EReal) = V c main_arg18 := by
  obtain ⟨e0, e1⟩ := idx_9 t
  funext i
  show V c main_arg18 (((cfg2.win 9).blk t).view.emb i) = V c main_arg18 i
  refine congrArg (V c main_arg18) (funext fun a => Fin.ext ?_)
  match a with
  | ⟨0, _⟩ => show win2_9.index t (0 : Fin 2) * 256 + 1 * (i 0).val = (i 0).val; omega
  | ⟨1, _⟩ => show win2_9.index t (1 : Fin 2) * 1 + 1 * (i 1).val = (i 1).val; omega

set_option maxHeartbeats 400000 in
/-- The second score layer's bias block is the bias array. -/
theorem blk_b2 (c : Dev nD) (t : Fin cfg2.N) : (iblk2 V c 10 t : S1.Idx → EReal) = V c main_arg19 := by
  have e0 := idx_10 t
  funext i
  show V c main_arg19 (((cfg2.win 10).blk t).view.emb i) = V c main_arg19 i
  refine congrArg (V c main_arg19) (funext fun a => Fin.ext ?_)
  match a with
  | ⟨0, _⟩ => show win2_10.index t (0 : Fin 1) * 1 + 1 * (i 0).val = (i 0).val; omega

set_option maxHeartbeats 1000000 in
/-- Row p of the hidden block the body forms at point t is row 1000 t + p of the host's hidden array. -/
theorem hid_blk (c : Dev nD) (t : Fin cfg2.N) (p : Fin 1000) (m : Fin 512) (r : Fin 50000)
    (hr : r.val = t.val * 1000 + p.val) :
    k2_pay2 (F := Ideal) (iblk2 V c 3 t) (iblk2 V c 4 t) (iblk2 V c 0 t) (iblk2 V c 1 t) (iblk2 V c 2 t) (iblk2 V c 5 t)
        (iblk2 V c 6 t) (ix2 p m)
      = Cert.Gnn.hid (V c main_v30_0) (V c main_v30_1) (V c main_v30_2) (V c main_v57) (V c main_arg13) (V c main_arg14)
        (V c main_arg15) (ix2 r m) := by
  refine (hid_kernel_apply _ _ _ _ _ _ _ p m).trans ?_
  refine Eq.trans ?_ (hid_host_apply _ _ _ _ _ _ _ r m).symm
  have h0 : (fun q : Fin 256 => iblk2 V c 0 t (ix2 p q)) = fun q => V c main_v30_0 (ix2 r q) :=
    funext fun q => blk_d V c t p q r hr
  have h1 : (fun q : Fin 256 => iblk2 V c 1 t (ix2 p q)) = fun q => V c main_v30_1 (ix2 r q) :=
    funext fun q => blk_c1 V c t p q r hr
  have h2 : (fun q : Fin 256 => iblk2 V c 2 t (ix2 p q)) = fun q => V c main_v30_2 (ix2 r q) :=
    funext fun q => blk_c2 V c t p q r hr
  have h3 : (fun q : Fin 256 => iblk2 V c 3 t (ix2 p q)) = fun q => V c main_v57 (ix2 r q) :=
    funext fun q => blk_raw V c t p q r hr
  rw [h0, h1, h2, h3, blk_bg V c t, blk_Wf V c t, blk_bf V c t]

set_option maxHeartbeats 1000000 in
/-- What point t writes back to the hidden array is block t of the host's hidden array of the input arrays. -/
theorem flushed_hid (c : Dev nD) (t : Fin cfg2.N) :
    (dat2 V c).flushed 11 t = ((cfg2.win 11).blk t).view.read (Elt Ideal)
      (Cert.Gnn.hid (V c main_v30_0) (V c main_v30_1) (V c main_v30_2) (V c main_v57) (V c main_arg13) (V c main_arg14)
        (V c main_arg15)) := by
  show (cfg2.win 11).cut (grid2.coords t) ((dat2 V c).after 11 t) = _
  rw [after2_11]
  unfold out2_11
  rw [View.canon_unit_zero hz2]
  simp only [View.ld_unit_zero (S := S1000x256) hz2, View.ld_unit_zero (S := S256) hz1,
    View.ld_unit_zero (S := S1024x512) hz2, View.ld_unit_zero (S := S512) hz1]
  funext j
  obtain ⟨p, u, rfl⟩ : ∃ (p : Fin 1000) (u : Fin 512), j = ix2 p u := ⟨j 0, j 1, eq_ix2 j⟩
  have hN : grid2.N = 50 := N_2
  have ht : t.val < 50 := lt_of_lt_of_eq t.isLt hN
  obtain ⟨e0, e1⟩ := idx_11 t
  have hr : t.val * 1000 + p.val < 50000 := by omega
  have hemb : ((cfg2.win 11).blk t).view.emb (ix2 p u) = ix2 (⟨t.val * 1000 + p.val, hr⟩ : Fin 50000) u :=
    funext fun a => Fin.ext (by
      match a with
      | ⟨0, _⟩ => show win2_11.index t (0 : Fin 2) * 1000 + 1 * p.val = t.val * 1000 + p.val; omega
      | ⟨1, _⟩ => show win2_11.index t (1 : Fin 2) * 512 + 1 * u.val = u.val; omega)
  refine Eq.trans ?_ (congrArg (Cert.Gnn.hid (V c main_v30_0) (V c main_v30_1) (V c main_v30_2) (V c main_v57) (V c main_arg13) (V c main_arg14)
        (V c main_arg15)) hemb).symm
  exact hid_blk V c t p u ⟨t.val * 1000 + p.val, hr⟩ rfl

set_option maxHeartbeats 1000000 in
/-- What point t writes back to the score column is block t of the host's score of the input arrays. -/
theorem flushed_score (c : Dev nD) (t : Fin cfg2.N) :
    (dat2 V c).flushed 12 t = ((cfg2.win 12).blk t).view.read (Elt Ideal)
      (Cert.Gnn.score (Cert.Gnn.hid (V c main_v30_0) (V c main_v30_1) (V c main_v30_2) (V c main_v57) (V c main_arg13) (V c main_arg14)
        (V c main_arg15))
        (V c main_arg16) (V c main_arg17) (V c main_arg18) (V c main_arg19)) := by
  show (cfg2.win 12).cut (grid2.coords t) ((dat2 V c).after 12 t) = _
  rw [after2_12]
  unfold out2_12
  rw [View.canon_unit_zero hz2]
  simp only [View.ld_unit_zero (S := S1000x256) hz2, View.ld_unit_zero (S := S256) hz1,
    View.ld_unit_zero (S := S1024x512) hz2, View.ld_unit_zero (S := S512) hz1, View.ld_unit_zero (S := S512x256) hz2,
    View.ld_unit_zero (S := S256x1) hz2, View.ld_unit_zero (S := S1) hz1]
  funext j
  obtain ⟨p, w, rfl⟩ : ∃ (p : Fin 1000) (w : Fin 1), j = ix2 p w := ⟨j 0, j 1, eq_ix2 j⟩
  have hN : grid2.N = 50 := N_2
  have ht : t.val < 50 := lt_of_lt_of_eq t.isLt hN
  obtain ⟨e0, e1⟩ := idx_12 t
  have hr : t.val * 1000 + p.val < 50000 := by omega
  have hemb : ((cfg2.win 12).blk t).view.emb (ix2 p w) = ix2 (⟨t.val * 1000 + p.val, hr⟩ : Fin 50000) w :=
    funext fun a => Fin.ext (by
      match a with
      | ⟨0, _⟩ => show win2_12.index t (0 : Fin 2) * 1000 + 1 * p.val = t.val * 1000 + p.val; omega
      | ⟨1, _⟩ => show win2_12.index t (1 : Fin 2) * 1 + 1 * w.val = w.val; omega)
  refine Eq.trans ?_ (congrArg (Cert.Gnn.score (Cert.Gnn.hid (V c main_v30_0) (V c main_v30_1) (V c main_v30_2) (V c main_v57) (V c main_arg13) (V c main_arg14)
        (V c main_arg15))
        (V c main_arg16) (V c main_arg17) (V c main_arg18) (V c main_arg19)) hemb).symm
  refine (score_kernel_apply _ _ _ _ _ _ _ _ _ _ _ p w).trans ?_
  refine Eq.trans ?_ (score_host_apply _ _ _ _ _ ⟨t.val * 1000 + p.val, hr⟩ w).symm
  have hh : (fun m : Fin 512 => k2_pay2 (F := Ideal) (iblk2 V c 3 t) (iblk2 V c 4 t) (iblk2 V c 0 t) (iblk2 V c 1 t)
      (iblk2 V c 2 t) (iblk2 V c 5 t) (iblk2 V c 6 t) (ix2 p m))
      = fun m => Cert.Gnn.hid (V c main_v30_0) (V c main_v30_1) (V c main_v30_2) (V c main_v57) (V c main_arg13) (V c main_arg14)
        (V c main_arg15) (ix2 (⟨t.val * 1000 + p.val, hr⟩ : Fin 50000) m) :=
    funext fun m => hid_blk V c t p m ⟨t.val * 1000 + p.val, hr⟩ rfl
  rw [hh, blk_W1 V c t, blk_b1 V c t, blk_W2 V c t, blk_b2 V c t]

/-- An index of the hidden array is in point t's block iff each coordinate is in the block's range on its axis. -/
theorem mem_blk_hid (t : Fin cfg2.N) (i : S50000x512.Idx) :
    i ∈ ((cfg2.win 11).blk t).view.set ↔ ∀ a : Fin 2, win2_11.index t a * S1000x512.size a ≤ (i a).val
      ∧ (i a).val < win2_11.index t a * S1000x512.size a + S1000x512.size a := by
  show i ∈ ((View.whole main_v58_0).slice (win2_11.rect t)).set ↔ _
  rw [View.set_slice_whole, Rect.mem_set_unit]
  exact Iff.rfl

/-- An index of the score column is in point t's block iff each coordinate is in the block's range on its axis. -/
theorem mem_blk_score (t : Fin cfg2.N) (i : S50000x1.Idx) :
    i ∈ ((cfg2.win 12).blk t).view.set ↔ ∀ a : Fin 2, win2_12.index t a * S1000x1.size a ≤ (i a).val
      ∧ (i a).val < win2_12.index t a * S1000x1.size a + S1000x1.size a := by
  show i ∈ ((View.whole main_v58_1).slice (win2_12.rect t)).set ↔ _
  rw [View.set_slice_whole, Rect.mem_set_unit]
  exact Iff.rfl

/-- Row r of the hidden array lies in the block of point r / 1000. -/
theorem cover_hid (i : S50000x512.Idx) :
    ∃ t : Fin cfg2.N, (cfg2.win 11).flush t = true ∧ i ∈ ((cfg2.win 11).blk t).view.set := by
  have hi0 : (i 0).val < 50000 := (i 0).isLt
  have hi1 : (i 1).val < 512 := (i 1).isLt
  have hN : grid2.N = 50 := N_2
  have hlt : (i 0).val / 1000 < grid2.N := by omega
  obtain ⟨e0, e1⟩ := idx_11 ⟨(i 0).val / 1000, hlt⟩
  refine ⟨⟨(i 0).val / 1000, hlt⟩, flush2_11 _, ?_⟩
  rw [mem_blk_hid]
  intro a
  match a with
  | ⟨0, _⟩ =>
    show win2_11.index ⟨(i 0).val / 1000, hlt⟩ (0 : Fin 2) * 1000 ≤ (i 0).val
      ∧ (i 0).val < win2_11.index ⟨(i 0).val / 1000, hlt⟩ (0 : Fin 2) * 1000 + 1000
    have e : win2_11.index ⟨(i 0).val / 1000, hlt⟩ (0 : Fin 2) = (i 0).val / 1000 := e0
    omega
  | ⟨1, _⟩ =>
    show win2_11.index ⟨(i 0).val / 1000, hlt⟩ (1 : Fin 2) * 512 ≤ (i 1).val
      ∧ (i 1).val < win2_11.index ⟨(i 0).val / 1000, hlt⟩ (1 : Fin 2) * 512 + 512
    omega

/-- Row r of the score column lies in the block of point r / 1000. -/
theorem cover_score (i : S50000x1.Idx) :
    ∃ t : Fin cfg2.N, (cfg2.win 12).flush t = true ∧ i ∈ ((cfg2.win 12).blk t).view.set := by
  have hi0 : (i 0).val < 50000 := (i 0).isLt
  have hi1 : (i 1).val < 1 := (i 1).isLt
  have hN : grid2.N = 50 := N_2
  have hlt : (i 0).val / 1000 < grid2.N := by omega
  obtain ⟨e0, e1⟩ := idx_12 ⟨(i 0).val / 1000, hlt⟩
  refine ⟨⟨(i 0).val / 1000, hlt⟩, flush2_12 _, ?_⟩
  rw [mem_blk_score]
  intro a
  match a with
  | ⟨0, _⟩ =>
    show win2_12.index ⟨(i 0).val / 1000, hlt⟩ (0 : Fin 2) * 1000 ≤ (i 0).val
      ∧ (i 0).val < win2_12.index ⟨(i 0).val / 1000, hlt⟩ (0 : Fin 2) * 1000 + 1000
    have e : win2_12.index ⟨(i 0).val / 1000, hlt⟩ (0 : Fin 2) = (i 0).val / 1000 := e0
    omega
  | ⟨1, _⟩ =>
    show win2_12.index ⟨(i 0).val / 1000, hlt⟩ (1 : Fin 2) * 1 ≤ (i 1).val
      ∧ (i 1).val < win2_12.index ⟨(i 0).val / 1000, hlt⟩ (1 : Fin 2) * 1 + 1
    omega

/-- The hidden array after the region is the host's hidden array of the input arrays as the region found them. -/
theorem arr_hid (c : Dev nD) :
    (Gen.dat2 (F := Ideal) V c).arrAt 11 cfg2.N = Cert.Gnn.hid (V c main_v30_0) (V c main_v30_1) (V c main_v30_2) (V c main_v57) (V c main_arg13) (V c main_arg14) (V c main_arg15) :=
  (dat2 V c).arrAt_eq_of_cover 11 _ (fun t _ => flushed_hid V c t) cover_hid

/-- The score column after the region is the host's score of that hidden array and the remaining input arrays. -/
theorem arr_score (c : Dev nD) :
    (Gen.dat2 (F := Ideal) V c).arrAt 12 cfg2.N = Cert.Gnn.score (Cert.Gnn.hid (V c main_v30_0) (V c main_v30_1) (V c main_v30_2) (V c main_v57) (V c main_arg13) (V c main_arg14) (V c main_arg15)) (V c main_arg16) (V c main_arg17) (V c main_arg18) (V c main_arg19) :=
  (dat2 V c).arrAt_eq_of_cover 12 _ (fun t _ => flushed_score V c t) cover_score

end Blocks

end Cert.KernelIdeal.RegionC

end
-- ==== Proof.KValue.lean ====
/-
  What the kernel program's two result buffers hold at the end, as functions of the argument arrays.

  The program's run passes through eight boundaries: the launch, then alternately the end of a stretch of host
  operations and the end of a kernel region.  The contents at a boundary are a fold from the launch memory: a host
  stretch applies its operations, a region leaves in each of its output arrays what its write-backs leave and every
  other buffer as it was.  Read at the buffers that matter, boundary by boundary:
    before region 0   the edges' sources, destinations and weights; the continuous features' first 26 columns;
    after region 0    the three dense pieces xd, xc1, xc2 and the product xw1 that enters the first propagation;
    before region 1   the first propagation of xw1;
    after region 1    the product xw2 that enters the second propagation;
    before region 2   the second propagation of xw2;
    after region 2    the hidden array and the score column;
    at the end        the score column flattened.
  A buffer no operation of a stretch writes and no array of a region is carried across unchanged.  Each region's
  output arrays are given by that region's value lemmas (Proof/RegionA.lean, RegionB.lean, RegionC.lean).
-/
import proofs.«104056_j89859305767623_1_alg».proof.Proof.Gen.KernelIdeal.Frame
import proofs.«104056_j89859305767623_1_alg».proof.Proof.Gen.ReferenceIdeal
import proofs.«104056_j89859305767623_1_alg».proof.Proof.Terms
import proofs.«104056_j89859305767623_1_alg».proof.Proof.RegionA
import proofs.«104056_j89859305767623_1_alg».proof.Proof.RegionB
import proofs.«104056_j89859305767623_1_alg».proof.Proof.RegionC
import Idealize.ShloMosaic.Lib.StableHlo.Run
import Idealize.ShloMosaic.PureOps.Ideal

noncomputable section

/-! ## One propagation with its ends and weights given -/

namespace Cert.Gnn

open Cert.ReferenceIdeal Cert.ReferenceIdeal.Facts₀ Idealize.ShloMosaic

variable {F : FTy → Type} [FloatOps F] [Facts₀]

/-- The propagation of `agg` with the edges' sources, destinations and weights as arguments of their own. -/
def aggWith (s d : Arr F S850000 .i32) (w : Arr F S850000 .f32) (x : Arr F S50000x256 .f32) : Arr F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 x (col s))
      (broadcastInDim S850000x256 ![0, 1] bcast_S850000x1_S850000x256_0_1
        (broadcastInDim S850000x1 ![0] bcast_S850000_S850000x1_0 w)))

theorem agg_eq (ei : Arr F S2x800000 .i32) (x : Arr F S50000x256 .f32) :
    agg ei x = aggWith (src ei) (dst ei) (norm ei) x := rfl

end Cert.Gnn

namespace Cert.KernelIdeal.Fold

open Idealize.ShloMosaic Idealize.ShloMosaic.StableHlo Idealize.ShloMosaic.TcCoe Idealize.SL.Sem
open Cert.KernelIdeal Cert.KernelIdeal.Gen

/-- Reads a fold of host operations at one buffer: the fold unrolled, each operation deciding whether the buffer is
    the one it writes. -/
macro "read_fold" : tactic => `(tactic| (simp only [after_cons, after_nil]; rfl))

/-! ## The host stretches, read at the buffers that matter, from any contents -/

section Stretches

variable {F : FTy → Type} [FloatOps F] (W : Valuation τ sig (Elt F))

attribute [local irreducible] Host.scatterAdd Host.gather Host.rsqrt concatenate extractStridedSlice shapeCast broadcastInDim
set_option maxRecDepth 8192
set_option maxHeartbeats 2000000

theorem s0_src : after hostOps0 W (Proc.devRef .tc main_v3) = Cert.Gnn.src (W (Proc.devRef .tc main_arg20)) := by read_fold
theorem s0_dst : after hostOps0 W (Proc.devRef .tc main_v6) = Cert.Gnn.dst (W (Proc.devRef .tc main_arg20)) := by read_fold
theorem s0_norm : after hostOps0 W (Proc.devRef .tc main_v28) = Cert.Gnn.norm (W (Proc.devRef .tc main_arg20)) := by read_fold
theorem s0_c26 : after hostOps0 W (Proc.devRef .tc main_v29)
    = extractStridedSlice S50000x26 ![0, 0] (W (Proc.devRef .tc main_arg1)) Cert.KernelIdeal.Facts₀.slices_S50000x39_S50000x26_0_0 := by read_fold
theorem s0_keep_arg0 : after hostOps0 W (Proc.devRef .tc main_arg0) = W (Proc.devRef .tc main_arg0) := by read_fold
theorem s0_keep_arg1 : after hostOps0 W (Proc.devRef .tc main_arg1) = W (Proc.devRef .tc main_arg1) := by read_fold
theorem s0_keep_arg2 : after hostOps0 W (Proc.devRef .tc main_arg2) = W (Proc.devRef .tc main_arg2) := by read_fold
theorem s0_keep_arg3 : after hostOps0 W (Proc.devRef .tc main_arg3) = W (Proc.devRef .tc main_arg3) := by read_fold
theorem s0_keep_arg4 : after hostOps0 W (Proc.devRef .tc main_arg4) = W (Proc.devRef .tc main_arg4) := by read_fold
theorem s0_keep_arg5 : after hostOps0 W (Proc.devRef .tc main_arg5) = W (Proc.devRef .tc main_arg5) := by read_fold
theorem s0_keep_arg6 : after hostOps0 W (Proc.devRef .tc main_arg6) = W (Proc.devRef .tc main_arg6) := by read_fold
theorem s0_keep_arg7 : after hostOps0 W (Proc.devRef .tc main_arg7) = W (Proc.devRef .tc main_arg7) := by read_fold
theorem s0_keep_arg8 : after hostOps0 W (Proc.devRef .tc main_arg8) = W (Proc.devRef .tc main_arg8) := by read_fold
theorem s0_keep_arg9 : after hostOps0 W (Proc.devRef .tc main_arg9) = W (Proc.devRef .tc main_arg9) := by read_fold
theorem s0_keep_arg10 : after hostOps0 W (Proc.devRef .tc main_arg10) = W (Proc.devRef .tc main_arg10) := by read_fold
theorem s0_keep_arg11 : after hostOps0 W (Proc.devRef .tc main_arg11) = W (Proc.devRef .tc main_arg11) := by read_fold
theorem s0_keep_arg12 : after hostOps0 W (Proc.devRef .tc main_arg12) = W (Proc.devRef .tc main_arg12) := by read_fold
theorem s0_keep_arg13 : after hostOps0 W (Proc.devRef .tc main_arg13) = W (Proc.devRef .tc main_arg13) := by read_fold
theorem s0_keep_arg14 : after hostOps0 W (Proc.devRef .tc main_arg14) = W (Proc.devRef .tc main_arg14) := by read_fold
theorem s0_keep_arg15 : after hostOps0 W (Proc.devRef .tc main_arg15) = W (Proc.devRef .tc main_arg15) := by read_fold
theorem s0_keep_arg16 : after hostOps0 W (Proc.devRef .tc main_arg16) = W (Proc.devRef .tc main_arg16) := by read_fold
theorem s0_keep_arg17 : after hostOps0 W (Proc.devRef .tc main_arg17) = W (Proc.devRef .tc main_arg17) := by read_fold
theorem s0_keep_arg18 : after hostOps0 W (Proc.devRef .tc main_arg18) = W (Proc.devRef .tc main_arg18) := by read_fold
theorem s0_keep_arg19 : after hostOps0 W (Proc.devRef .tc main_arg19) = W (Proc.devRef .tc main_arg19) := by read_fold
theorem s0_keep_arg20 : after hostOps0 W (Proc.devRef .tc main_arg20) = W (Proc.devRef .tc main_arg20) := by read_fold

theorem s1_agg : after hostOps1 W (Proc.devRef .tc main_v43)
    = Cert.Gnn.aggWith (W (Proc.devRef .tc main_v3)) (W (Proc.devRef .tc main_v6)) (W (Proc.devRef .tc main_v28)) (W (Proc.devRef .tc main_v30_3)) := by read_fold
theorem s1_keep_v3 : after hostOps1 W (Proc.devRef .tc main_v3) = W (Proc.devRef .tc main_v3) := by read_fold
theorem s1_keep_v6 : after hostOps1 W (Proc.devRef .tc main_v6) = W (Proc.devRef .tc main_v6) := by read_fold
theorem s1_keep_v28 : after hostOps1 W (Proc.devRef .tc main_v28) = W (Proc.devRef .tc main_v28) := by read_fold
theorem s1_keep_v30_0 : after hostOps1 W (Proc.devRef .tc main_v30_0) = W (Proc.devRef .tc main_v30_0) := by read_fold
theorem s1_keep_v30_1 : after hostOps1 W (Proc.devRef .tc main_v30_1) = W (Proc.devRef .tc main_v30_1) := by read_fold
theorem s1_keep_v30_2 : after hostOps1 W (Proc.devRef .tc main_v30_2) = W (Proc.devRef .tc main_v30_2) := by read_fold
theorem s1_keep_arg11 : after hostOps1 W (Proc.devRef .tc main_arg11) = W (Proc.devRef .tc main_arg11) := by read_fold
theorem s1_keep_arg12 : after hostOps1 W (Proc.devRef .tc main_arg12) = W (Proc.devRef .tc main_arg12) := by read_fold
theorem s1_keep_arg13 : after hostOps1 W (Proc.devRef .tc main_arg13) = W (Proc.devRef .tc main_arg13) := by read_fold
theorem s1_keep_arg14 : after hostOps1 W (Proc.devRef .tc main_arg14) = W (Proc.devRef .tc main_arg14) := by read_fold
theorem s1_keep_arg15 : after hostOps1 W (Proc.devRef .tc main_arg15) = W (Proc.devRef .tc main_arg15) := by read_fold
theorem s1_keep_arg16 : after hostOps1 W (Proc.devRef .tc main_arg16) = W (Proc.devRef .tc main_arg16) := by read_fold
theorem s1_keep_arg17 : after hostOps1 W (Proc.devRef .tc main_arg17) = W (Proc.devRef .tc main_arg17) := by read_fold
theorem s1_keep_arg18 : after hostOps1 W (Proc.devRef .tc main_arg18) = W (Proc.devRef .tc main_arg18) := by read_fold
theorem s1_keep_arg19 : after hostOps1 W (Proc.devRef .tc main_arg19) = W (Proc.devRef .tc main_arg19) := by read_fold

theorem s2_agg : after hostOps2 W (Proc.devRef .tc main_v57)
    = Cert.Gnn.aggWith (W (Proc.devRef .tc main_v3)) (W (Proc.devRef .tc main_v6)) (W (Proc.devRef .tc main_v28)) (W (Proc.devRef .tc main_v44)) := by read_fold
theorem s2_keep_v30_0 : after hostOps2 W (Proc.devRef .tc main_v30_0) = W (Proc.devRef .tc main_v30_0) := by read_fold
theorem s2_keep_v30_1 : after hostOps2 W (Proc.devRef .tc main_v30_1) = W (Proc.devRef .tc main_v30_1) := by read_fold
theorem s2_keep_v30_2 : after hostOps2 W (Proc.devRef .tc main_v30_2) = W (Proc.devRef .tc main_v30_2) := by read_fold
theorem s2_keep_arg13 : after hostOps2 W (Proc.devRef .tc main_arg13) = W (Proc.devRef .tc main_arg13) := by read_fold
theorem s2_keep_arg14 : after hostOps2 W (Proc.devRef .tc main_arg14) = W (Proc.devRef .tc main_arg14) := by read_fold
theorem s2_keep_arg15 : after hostOps2 W (Proc.devRef .tc main_arg15) = W (Proc.devRef .tc main_arg15) := by read_fold
theorem s2_keep_arg16 : after hostOps2 W (Proc.devRef .tc main_arg16) = W (Proc.devRef .tc main_arg16) := by read_fold
theorem s2_keep_arg17 : after hostOps2 W (Proc.devRef .tc main_arg17) = W (Proc.devRef .tc main_arg17) := by read_fold
theorem s2_keep_arg18 : after hostOps2 W (Proc.devRef .tc main_arg18) = W (Proc.devRef .tc main_arg18) := by read_fold
theorem s2_keep_arg19 : after hostOps2 W (Proc.devRef .tc main_arg19) = W (Proc.devRef .tc main_arg19) := by read_fold

theorem s3_flat : after hostOps3 W (Proc.devRef .tc main_v59)
    = shapeCast S50000 (W (Proc.devRef .tc main_v58_1)) Cert.KernelIdeal.Facts₀.shapeCasts_S50000x1_S50000 := by read_fold
theorem s3_keep_v58_0 : after hostOps3 W (Proc.devRef .tc main_v58_0) = W (Proc.devRef .tc main_v58_0) := by read_fold

end Stretches

/-! ## The contents at each boundary of the program, at the buffers that matter -/

section Boundaries

variable (m : (ℓ : Loc nD τ sig) → Buf (Elt Ideal) ℓ) (ρ : Dev nD → PrngReg) (c : Dev nD)

theorem W0_arg20 : W0 m ρ c (Proc.devRef .tc main_arg20) = (m ((c : Thread nD τ).loc main_arg20)) := rfl
theorem W0_arg1 : W0 m ρ c (Proc.devRef .tc main_arg1) = (m ((c : Thread nD τ).loc main_arg1)) := rfl

/-! ### Before the first region -/
theorem W1_arg0 : W1 m ρ c (Proc.devRef .tc main_arg0) = (m ((c : Thread nD τ).loc main_arg0)) := s0_keep_arg0 (W0 m ρ c)
theorem W1_arg1 : W1 m ρ c (Proc.devRef .tc main_arg1) = (m ((c : Thread nD τ).loc main_arg1)) := s0_keep_arg1 (W0 m ρ c)
theorem W1_arg2 : W1 m ρ c (Proc.devRef .tc main_arg2) = (m ((c : Thread nD τ).loc main_arg2)) := s0_keep_arg2 (W0 m ρ c)
theorem W1_arg3 : W1 m ρ c (Proc.devRef .tc main_arg3) = (m ((c : Thread nD τ).loc main_arg3)) := s0_keep_arg3 (W0 m ρ c)
theorem W1_arg4 : W1 m ρ c (Proc.devRef .tc main_arg4) = (m ((c : Thread nD τ).loc main_arg4)) := s0_keep_arg4 (W0 m ρ c)
theorem W1_arg5 : W1 m ρ c (Proc.devRef .tc main_arg5) = (m ((c : Thread nD τ).loc main_arg5)) := s0_keep_arg5 (W0 m ρ c)
theorem W1_arg6 : W1 m ρ c (Proc.devRef .tc main_arg6) = (m ((c : Thread nD τ).loc main_arg6)) := s0_keep_arg6 (W0 m ρ c)
theorem W1_arg7 : W1 m ρ c (Proc.devRef .tc main_arg7) = (m ((c : Thread nD τ).loc main_arg7)) := s0_keep_arg7 (W0 m ρ c)
theorem W1_arg8 : W1 m ρ c (Proc.devRef .tc main_arg8) = (m ((c : Thread nD τ).loc main_arg8)) := s0_keep_arg8 (W0 m ρ c)
theorem W1_arg9 : W1 m ρ c (Proc.devRef .tc main_arg9) = (m ((c : Thread nD τ).loc main_arg9)) := s0_keep_arg9 (W0 m ρ c)
theorem W1_arg10 : W1 m ρ c (Proc.devRef .tc main_arg10) = (m ((c : Thread nD τ).loc main_arg10)) := s0_keep_arg10 (W0 m ρ c)
theorem W1_arg11 : W1 m ρ c (Proc.devRef .tc main_arg11) = (m ((c : Thread nD τ).loc main_arg11)) := s0_keep_arg11 (W0 m ρ c)
theorem W1_arg12 : W1 m ρ c (Proc.devRef .tc main_arg12) = (m ((c : Thread nD τ).loc main_arg12)) := s0_keep_arg12 (W0 m ρ c)
theorem W1_arg13 : W1 m ρ c (Proc.devRef .tc main_arg13) = (m ((c : Thread nD τ).loc main_arg13)) := s0_keep_arg13 (W0 m ρ c)
theorem W1_arg14 : W1 m ρ c (Proc.devRef .tc main_arg14) = (m ((c : Thread nD τ).loc main_arg14)) := s0_keep_arg14 (W0 m ρ c)
theorem W1_arg15 : W1 m ρ c (Proc.devRef .tc main_arg15) = (m ((c : Thread nD τ).loc main_arg15)) := s0_keep_arg15 (W0 m ρ c)
theorem W1_arg16 : W1 m ρ c (Proc.devRef .tc main_arg16) = (m ((c : Thread nD τ).loc main_arg16)) := s0_keep_arg16 (W0 m ρ c)
theorem W1_arg17 : W1 m ρ c (Proc.devRef .tc main_arg17) = (m ((c : Thread nD τ).loc main_arg17)) := s0_keep_arg17 (W0 m ρ c)
theorem W1_arg18 : W1 m ρ c (Proc.devRef .tc main_arg18) = (m ((c : Thread nD τ).loc main_arg18)) := s0_keep_arg18 (W0 m ρ c)
theorem W1_arg19 : W1 m ρ c (Proc.devRef .tc main_arg19) = (m ((c : Thread nD τ).loc main_arg19)) := s0_keep_arg19 (W0 m ρ c)
theorem W1_arg20 : W1 m ρ c (Proc.devRef .tc main_arg20) = (m ((c : Thread nD τ).loc main_arg20)) := s0_keep_arg20 (W0 m ρ c)
theorem W1_src : W1 m ρ c (Proc.devRef .tc main_v3) = Cert.Gnn.src (m ((c : Thread nD τ).loc main_arg20)) := (s0_src (W0 m ρ c)).trans (congrArg _ (W0_arg20 m ρ c))
theorem W1_dst : W1 m ρ c (Proc.devRef .tc main_v6) = Cert.Gnn.dst (m ((c : Thread nD τ).loc main_arg20)) := (s0_dst (W0 m ρ c)).trans (congrArg _ (W0_arg20 m ρ c))
theorem W1_norm : W1 m ρ c (Proc.devRef .tc main_v28) = Cert.Gnn.norm (m ((c : Thread nD τ).loc main_arg20)) := (s0_norm (W0 m ρ c)).trans (congrArg _ (W0_arg20 m ρ c))
theorem W1_c26 : W1 m ρ c (Proc.devRef .tc main_v29)
    = extractStridedSlice S50000x26 ![0, 0] (m ((c : Thread nD τ).loc main_arg1)) Cert.KernelIdeal.Facts₀.slices_S50000x39_S50000x26_0_0 :=
  (s0_c26 (W0 m ρ c)).trans (congrArg (fun x => extractStridedSlice S50000x26 ![0, 0] x Cert.KernelIdeal.Facts₀.slices_S50000x39_S50000x26_0_0) (W0_arg1 m ρ c))

/-! ### After the first region -/
theorem W2_xd : W2 m ρ c (Proc.devRef .tc main_v30_0) = Cert.Gnn.xd (m ((c : Thread nD τ).loc main_arg0)) (m ((c : Thread nD τ).loc main_arg2)) (m ((c : Thread nD τ).loc main_arg3)) :=
  (W2_arr m ρ c 11).trans ((Cert.KernelIdeal.RegionA.arr_xd (V1 m ρ) c).trans
    (congr (congr (congrArg Cert.Gnn.xd (W1_arg0 m ρ c)) (W1_arg2 m ρ c)) (W1_arg3 m ρ c)))
theorem W2_xc1 : W2 m ρ c (Proc.devRef .tc main_v30_1) = Cert.Gnn.xc1 (m ((c : Thread nD τ).loc main_arg1)) (m ((c : Thread nD τ).loc main_arg4)) (m ((c : Thread nD τ).loc main_arg5)) :=
  (W2_arr m ρ c 12).trans ((Cert.KernelIdeal.RegionA.arr_xc1 (V1 m ρ) c (m ((c : Thread nD τ).loc main_arg1)) (W1_c26 m ρ c)).trans
    (congr (congrArg (Cert.Gnn.xc1 (m ((c : Thread nD τ).loc main_arg1))) (W1_arg4 m ρ c)) (W1_arg5 m ρ c)))
theorem W2_xc2 : W2 m ρ c (Proc.devRef .tc main_v30_2) = Cert.Gnn.xc2 (m ((c : Thread nD τ).loc main_arg1)) (m ((c : Thread nD τ).loc main_arg6)) (m ((c : Thread nD τ).loc main_arg7)) :=
  (W2_arr m ρ c 13).trans ((Cert.KernelIdeal.RegionA.arr_xc2 (V1 m ρ) c (m ((c : Thread nD τ).loc main_arg1)) (W1_c26 m ρ c)).trans
    (congr (congrArg (Cert.Gnn.xc2 (m ((c : Thread nD τ).loc main_arg1))) (W1_arg6 m ρ c)) (W1_arg7 m ρ c)))
theorem W2_xw1 : W2 m ρ c (Proc.devRef .tc main_v30_3) = Cert.Gnn.xw1 (m ((c : Thread nD τ).loc main_arg0)) (m ((c : Thread nD τ).loc main_arg8)) (m ((c : Thread nD τ).loc main_arg9)) (m ((c : Thread nD τ).loc main_arg10)) :=
  (W2_arr m ρ c 14).trans ((Cert.KernelIdeal.RegionA.arr_xw1 (V1 m ρ) c).trans
    (congr (congr (congr (congrArg Cert.Gnn.xw1 (W1_arg0 m ρ c)) (W1_arg8 m ρ c)) (W1_arg9 m ρ c)) (W1_arg10 m ρ c)))
theorem W2_src : W2 m ρ c (Proc.devRef .tc main_v3) = Cert.Gnn.src (m ((c : Thread nD τ).loc main_arg20)) := (W2_of_ne m ρ c main_v3 (by decide)).trans (W1_src m ρ c)
theorem W2_dst : W2 m ρ c (Proc.devRef .tc main_v6) = Cert.Gnn.dst (m ((c : Thread nD τ).loc main_arg20)) := (W2_of_ne m ρ c main_v6 (by decide)).trans (W1_dst m ρ c)
theorem W2_norm : W2 m ρ c (Proc.devRef .tc main_v28) = Cert.Gnn.norm (m ((c : Thread nD τ).loc main_arg20)) := (W2_of_ne m ρ c main_v28 (by decide)).trans (W1_norm m ρ c)
theorem W2_arg11 : W2 m ρ c (Proc.devRef .tc main_arg11) = (m ((c : Thread nD τ).loc main_arg11)) := (W2_of_ne m ρ c main_arg11 (by decide)).trans (W1_arg11 m ρ c)
theorem W2_arg12 : W2 m ρ c (Proc.devRef .tc main_arg12) = (m ((c : Thread nD τ).loc main_arg12)) := (W2_of_ne m ρ c main_arg12 (by decide)).trans (W1_arg12 m ρ c)
theorem W2_arg13 : W2 m ρ c (Proc.devRef .tc main_arg13) = (m ((c : Thread nD τ).loc main_arg13)) := (W2_of_ne m ρ c main_arg13 (by decide)).trans (W1_arg13 m ρ c)
theorem W2_arg14 : W2 m ρ c (Proc.devRef .tc main_arg14) = (m ((c : Thread nD τ).loc main_arg14)) := (W2_of_ne m ρ c main_arg14 (by decide)).trans (W1_arg14 m ρ c)
theorem W2_arg15 : W2 m ρ c (Proc.devRef .tc main_arg15) = (m ((c : Thread nD τ).loc main_arg15)) := (W2_of_ne m ρ c main_arg15 (by decide)).trans (W1_arg15 m ρ c)
theorem W2_arg16 : W2 m ρ c (Proc.devRef .tc main_arg16) = (m ((c : Thread nD τ).loc main_arg16)) := (W2_of_ne m ρ c main_arg16 (by decide)).trans (W1_arg16 m ρ c)
theorem W2_arg17 : W2 m ρ c (Proc.devRef .tc main_arg17) = (m ((c : Thread nD τ).loc main_arg17)) := (W2_of_ne m ρ c main_arg17 (by decide)).trans (W1_arg17 m ρ c)
theorem W2_arg18 : W2 m ρ c (Proc.devRef .tc main_arg18) = (m ((c : Thread nD τ).loc main_arg18)) := (W2_of_ne m ρ c main_arg18 (by decide)).trans (W1_arg18 m ρ c)
theorem W2_arg19 : W2 m ρ c (Proc.devRef .tc main_arg19) = (m ((c : Thread nD τ).loc main_arg19)) := (W2_of_ne m ρ c main_arg19 (by decide)).trans (W1_arg19 m ρ c)

/-! ### Before the second region -/
theorem W3_raw1 : W3 m ρ c (Proc.devRef .tc main_v43) = Cert.Gnn.agg (m ((c : Thread nD τ).loc main_arg20)) (Cert.Gnn.xw1 (m ((c : Thread nD τ).loc main_arg0)) (m ((c : Thread nD τ).loc main_arg8)) (m ((c : Thread nD τ).loc main_arg9)) (m ((c : Thread nD τ).loc main_arg10))) :=
  (s1_agg (W2 m ρ c)).trans ((congr (congr (congr (congrArg Cert.Gnn.aggWith (W2_src m ρ c)) (W2_dst m ρ c)) (W2_norm m ρ c)) (W2_xw1 m ρ c)).trans
    (Cert.Gnn.agg_eq _ _).symm)
theorem W3_src : W3 m ρ c (Proc.devRef .tc main_v3) = Cert.Gnn.src (m ((c : Thread nD τ).loc main_arg20)) := (s1_keep_v3 (W2 m ρ c)).trans (W2_src m ρ c)
theorem W3_dst : W3 m ρ c (Proc.devRef .tc main_v6) = Cert.Gnn.dst (m ((c : Thread nD τ).loc main_arg20)) := (s1_keep_v6 (W2 m ρ c)).trans (W2_dst m ρ c)
theorem W3_norm : W3 m ρ c (Proc.devRef .tc main_v28) = Cert.Gnn.norm (m ((c : Thread nD τ).loc main_arg20)) := (s1_keep_v28 (W2 m ρ c)).trans (W2_norm m ρ c)
theorem W3_xd : W3 m ρ c (Proc.devRef .tc main_v30_0) = Cert.Gnn.xd (m ((c : Thread nD τ).loc main_arg0)) (m ((c : Thread nD τ).loc main_arg2)) (m ((c : Thread nD τ).loc main_arg3)) := (s1_keep_v30_0 (W2 m ρ c)).trans (W2_xd m ρ c)
theorem W3_xc1 : W3 m ρ c (Proc.devRef .tc main_v30_1) = Cert.Gnn.xc1 (m ((c : Thread nD τ).loc main_arg1)) (m ((c : Thread nD τ).loc main_arg4)) (m ((c : Thread nD τ).loc main_arg5)) := (s1_keep_v30_1 (W2 m ρ c)).trans (W2_xc1 m ρ c)
theorem W3_xc2 : W3 m ρ c (Proc.devRef .tc main_v30_2) = Cert.Gnn.xc2 (m ((c : Thread nD τ).loc main_arg1)) (m ((c : Thread nD τ).loc main_arg6)) (m ((c : Thread nD τ).loc main_arg7)) := (s1_keep_v30_2 (W2 m ρ c)).trans (W2_xc2 m ρ c)
theorem W3_arg11 : W3 m ρ c (Proc.devRef .tc main_arg11) = (m ((c : Thread nD τ).loc main_arg11)) := (s1_keep_arg11 (W2 m ρ c)).trans (W2_arg11 m ρ c)
theorem W3_arg12 : W3 m ρ c (Proc.devRef .tc main_arg12) = (m ((c : Thread nD τ).loc main_arg12)) := (s1_keep_arg12 (W2 m ρ c)).trans (W2_arg12 m ρ c)
theorem W3_arg13 : W3 m ρ c (Proc.devRef .tc main_arg13) = (m ((c : Thread nD τ).loc main_arg13)) := (s1_keep_arg13 (W2 m ρ c)).trans (W2_arg13 m ρ c)
theorem W3_arg14 : W3 m ρ c (Proc.devRef .tc main_arg14) = (m ((c : Thread nD τ).loc main_arg14)) := (s1_keep_arg14 (W2 m ρ c)).trans (W2_arg14 m ρ c)
theorem W3_arg15 : W3 m ρ c (Proc.devRef .tc main_arg15) = (m ((c : Thread nD τ).loc main_arg15)) := (s1_keep_arg15 (W2 m ρ c)).trans (W2_arg15 m ρ c)
theorem W3_arg16 : W3 m ρ c (Proc.devRef .tc main_arg16) = (m ((c : Thread nD τ).loc main_arg16)) := (s1_keep_arg16 (W2 m ρ c)).trans (W2_arg16 m ρ c)
theorem W3_arg17 : W3 m ρ c (Proc.devRef .tc main_arg17) = (m ((c : Thread nD τ).loc main_arg17)) := (s1_keep_arg17 (W2 m ρ c)).trans (W2_arg17 m ρ c)
theorem W3_arg18 : W3 m ρ c (Proc.devRef .tc main_arg18) = (m ((c : Thread nD τ).loc main_arg18)) := (s1_keep_arg18 (W2 m ρ c)).trans (W2_arg18 m ρ c)
theorem W3_arg19 : W3 m ρ c (Proc.devRef .tc main_arg19) = (m ((c : Thread nD τ).loc main_arg19)) := (s1_keep_arg19 (W2 m ρ c)).trans (W2_arg19 m ρ c)

/-! ### After the second region -/
theorem W4_xw2 : W4 m ρ c (Proc.devRef .tc main_v44) = Cert.Gnn.xw2 (Cert.Gnn.agg (m ((c : Thread nD τ).loc main_arg20)) (Cert.Gnn.xw1 (m ((c : Thread nD τ).loc main_arg0)) (m ((c : Thread nD τ).loc main_arg8)) (m ((c : Thread nD τ).loc main_arg9)) (m ((c : Thread nD τ).loc main_arg10)))) (m ((c : Thread nD τ).loc main_arg11)) (m ((c : Thread nD τ).loc main_arg12)) :=
  (W4_arr m ρ c 3).trans ((Cert.KernelIdeal.RegionB.arr_xw2 (V3 m ρ) c).trans
    (congr (congr (congrArg Cert.Gnn.xw2 (W3_raw1 m ρ c)) (W3_arg11 m ρ c)) (W3_arg12 m ρ c)))
theorem W4_src : W4 m ρ c (Proc.devRef .tc main_v3) = Cert.Gnn.src (m ((c : Thread nD τ).loc main_arg20)) := (W4_of_ne m ρ c main_v3 (by decide)).trans (W3_src m ρ c)
theorem W4_dst : W4 m ρ c (Proc.devRef .tc main_v6) = Cert.Gnn.dst (m ((c : Thread nD τ).loc main_arg20)) := (W4_of_ne m ρ c main_v6 (by decide)).trans (W3_dst m ρ c)
theorem W4_norm : W4 m ρ c (Proc.devRef .tc main_v28) = Cert.Gnn.norm (m ((c : Thread nD τ).loc main_arg20)) := (W4_of_ne m ρ c main_v28 (by decide)).trans (W3_norm m ρ c)
theorem W4_xd : W4 m ρ c (Proc.devRef .tc main_v30_0) = Cert.Gnn.xd (m ((c : Thread nD τ).loc main_arg0)) (m ((c : Thread nD τ).loc main_arg2)) (m ((c : Thread nD τ).loc main_arg3)) := (W4_of_ne m ρ c main_v30_0 (by decide)).trans (W3_xd m ρ c)
theorem W4_xc1 : W4 m ρ c (Proc.devRef .tc main_v30_1) = Cert.Gnn.xc1 (m ((c : Thread nD τ).loc main_arg1)) (m ((c : Thread nD τ).loc main_arg4)) (m ((c : Thread nD τ).loc main_arg5)) := (W4_of_ne m ρ c main_v30_1 (by decide)).trans (W3_xc1 m ρ c)
theorem W4_xc2 : W4 m ρ c (Proc.devRef .tc main_v30_2) = Cert.Gnn.xc2 (m ((c : Thread nD τ).loc main_arg1)) (m ((c : Thread nD τ).loc main_arg6)) (m ((c : Thread nD τ).loc main_arg7)) := (W4_of_ne m ρ c main_v30_2 (by decide)).trans (W3_xc2 m ρ c)
theorem W4_arg13 : W4 m ρ c (Proc.devRef .tc main_arg13) = (m ((c : Thread nD τ).loc main_arg13)) := (W4_of_ne m ρ c main_arg13 (by decide)).trans (W3_arg13 m ρ c)
theorem W4_arg14 : W4 m ρ c (Proc.devRef .tc main_arg14) = (m ((c : Thread nD τ).loc main_arg14)) := (W4_of_ne m ρ c main_arg14 (by decide)).trans (W3_arg14 m ρ c)
theorem W4_arg15 : W4 m ρ c (Proc.devRef .tc main_arg15) = (m ((c : Thread nD τ).loc main_arg15)) := (W4_of_ne m ρ c main_arg15 (by decide)).trans (W3_arg15 m ρ c)
theorem W4_arg16 : W4 m ρ c (Proc.devRef .tc main_arg16) = (m ((c : Thread nD τ).loc main_arg16)) := (W4_of_ne m ρ c main_arg16 (by decide)).trans (W3_arg16 m ρ c)
theorem W4_arg17 : W4 m ρ c (Proc.devRef .tc main_arg17) = (m ((c : Thread nD τ).loc main_arg17)) := (W4_of_ne m ρ c main_arg17 (by decide)).trans (W3_arg17 m ρ c)
theorem W4_arg18 : W4 m ρ c (Proc.devRef .tc main_arg18) = (m ((c : Thread nD τ).loc main_arg18)) := (W4_of_ne m ρ c main_arg18 (by decide)).trans (W3_arg18 m ρ c)
theorem W4_arg19 : W4 m ρ c (Proc.devRef .tc main_arg19) = (m ((c : Thread nD τ).loc main_arg19)) := (W4_of_ne m ρ c main_arg19 (by decide)).trans (W3_arg19 m ρ c)

/-! ### Before the third region -/
theorem W5_raw2 : W5 m ρ c (Proc.devRef .tc main_v57) = Cert.Gnn.agg (m ((c : Thread nD τ).loc main_arg20)) (Cert.Gnn.xw2 (Cert.Gnn.agg (m ((c : Thread nD τ).loc main_arg20)) (Cert.Gnn.xw1 (m ((c : Thread nD τ).loc main_arg0)) (m ((c : Thread nD τ).loc main_arg8)) (m ((c : Thread nD τ).loc main_arg9)) (m ((c : Thread nD τ).loc main_arg10)))) (m ((c : Thread nD τ).loc main_arg11)) (m ((c : Thread nD τ).loc main_arg12))) :=
  (s2_agg (W4 m ρ c)).trans ((congr (congr (congr (congrArg Cert.Gnn.aggWith (W4_src m ρ c)) (W4_dst m ρ c)) (W4_norm m ρ c)) (W4_xw2 m ρ c)).trans
    (Cert.Gnn.agg_eq _ _).symm)
theorem W5_xd : W5 m ρ c (Proc.devRef .tc main_v30_0) = Cert.Gnn.xd (m ((c : Thread nD τ).loc main_arg0)) (m ((c : Thread nD τ).loc main_arg2)) (m ((c : Thread nD τ).loc main_arg3)) := (s2_keep_v30_0 (W4 m ρ c)).trans (W4_xd m ρ c)
theorem W5_xc1 : W5 m ρ c (Proc.devRef .tc main_v30_1) = Cert.Gnn.xc1 (m ((c : Thread nD τ).loc main_arg1)) (m ((c : Thread nD τ).loc main_arg4)) (m ((c : Thread nD τ).loc main_arg5)) := (s2_keep_v30_1 (W4 m ρ c)).trans (W4_xc1 m ρ c)
theorem W5_xc2 : W5 m ρ c (Proc.devRef .tc main_v30_2) = Cert.Gnn.xc2 (m ((c : Thread nD τ).loc main_arg1)) (m ((c : Thread nD τ).loc main_arg6)) (m ((c : Thread nD τ).loc main_arg7)) := (s2_keep_v30_2 (W4 m ρ c)).trans (W4_xc2 m ρ c)
theorem W5_arg13 : W5 m ρ c (Proc.devRef .tc main_arg13) = (m ((c : Thread nD τ).loc main_arg13)) := (s2_keep_arg13 (W4 m ρ c)).trans (W4_arg13 m ρ c)
theorem W5_arg14 : W5 m ρ c (Proc.devRef .tc main_arg14) = (m ((c : Thread nD τ).loc main_arg14)) := (s2_keep_arg14 (W4 m ρ c)).trans (W4_arg14 m ρ c)
theorem W5_arg15 : W5 m ρ c (Proc.devRef .tc main_arg15) = (m ((c : Thread nD τ).loc main_arg15)) := (s2_keep_arg15 (W4 m ρ c)).trans (W4_arg15 m ρ c)
theorem W5_arg16 : W5 m ρ c (Proc.devRef .tc main_arg16) = (m ((c : Thread nD τ).loc main_arg16)) := (s2_keep_arg16 (W4 m ρ c)).trans (W4_arg16 m ρ c)
theorem W5_arg17 : W5 m ρ c (Proc.devRef .tc main_arg17) = (m ((c : Thread nD τ).loc main_arg17)) := (s2_keep_arg17 (W4 m ρ c)).trans (W4_arg17 m ρ c)
theorem W5_arg18 : W5 m ρ c (Proc.devRef .tc main_arg18) = (m ((c : Thread nD τ).loc main_arg18)) := (s2_keep_arg18 (W4 m ρ c)).trans (W4_arg18 m ρ c)
theorem W5_arg19 : W5 m ρ c (Proc.devRef .tc main_arg19) = (m ((c : Thread nD τ).loc main_arg19)) := (s2_keep_arg19 (W4 m ρ c)).trans (W4_arg19 m ρ c)

/-! ### After the third region, and at the end -/
theorem W6_hid : W6 m ρ c (Proc.devRef .tc main_v58_0) = Cert.Gnn.hid (Cert.Gnn.xd (m ((c : Thread nD τ).loc main_arg0)) (m ((c : Thread nD τ).loc main_arg2)) (m ((c : Thread nD τ).loc main_arg3))) (Cert.Gnn.xc1 (m ((c : Thread nD τ).loc main_arg1)) (m ((c : Thread nD τ).loc main_arg4)) (m ((c : Thread nD τ).loc main_arg5))) (Cert.Gnn.xc2 (m ((c : Thread nD τ).loc main_arg1)) (m ((c : Thread nD τ).loc main_arg6)) (m ((c : Thread nD τ).loc main_arg7))) (Cert.Gnn.agg (m ((c : Thread nD τ).loc main_arg20)) (Cert.Gnn.xw2 (Cert.Gnn.agg (m ((c : Thread nD τ).loc main_arg20)) (Cert.Gnn.xw1 (m ((c : Thread nD τ).loc main_arg0)) (m ((c : Thread nD τ).loc main_arg8)) (m ((c : Thread nD τ).loc main_arg9)) (m ((c : Thread nD τ).loc main_arg10)))) (m ((c : Thread nD τ).loc main_arg11)) (m ((c : Thread nD τ).loc main_arg12)))) (m ((c : Thread nD τ).loc main_arg13)) (m ((c : Thread nD τ).loc main_arg14)) (m ((c : Thread nD τ).loc main_arg15)) :=
  (W6_arr m ρ c 11).trans ((Cert.KernelIdeal.RegionC.arr_hid (V5 m ρ) c).trans
    (congr (congr (congr (congr (congr (congr (congrArg Cert.Gnn.hid (W5_xd m ρ c)) (W5_xc1 m ρ c)) (W5_xc2 m ρ c)) (W5_raw2 m ρ c)) (W5_arg13 m ρ c)) (W5_arg14 m ρ c)) (W5_arg15 m ρ c)))
theorem W6_score : W6 m ρ c (Proc.devRef .tc main_v58_1) = Cert.Gnn.score (Cert.Gnn.hid (Cert.Gnn.xd (m ((c : Thread nD τ).loc main_arg0)) (m ((c : Thread nD τ).loc main_arg2)) (m ((c : Thread nD τ).loc main_arg3))) (Cert.Gnn.xc1 (m ((c : Thread nD τ).loc main_arg1)) (m ((c : Thread nD τ).loc main_arg4)) (m ((c : Thread nD τ).loc main_arg5))) (Cert.Gnn.xc2 (m ((c : Thread nD τ).loc main_arg1)) (m ((c : Thread nD τ).loc main_arg6)) (m ((c : Thread nD τ).loc main_arg7))) (Cert.Gnn.agg (m ((c : Thread nD τ).loc main_arg20)) (Cert.Gnn.xw2 (Cert.Gnn.agg (m ((c : Thread nD τ).loc main_arg20)) (Cert.Gnn.xw1 (m ((c : Thread nD τ).loc main_arg0)) (m ((c : Thread nD τ).loc main_arg8)) (m ((c : Thread nD τ).loc main_arg9)) (m ((c : Thread nD τ).loc main_arg10)))) (m ((c : Thread nD τ).loc main_arg11)) (m ((c : Thread nD τ).loc main_arg12)))) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) :=
  (W6_arr m ρ c 12).trans ((Cert.KernelIdeal.RegionC.arr_score (V5 m ρ) c).trans
    (congr (congr (congr (congr (congrArg Cert.Gnn.score
      (congr (congr (congr (congr (congr (congr (congrArg Cert.Gnn.hid (W5_xd m ρ c)) (W5_xc1 m ρ c)) (W5_xc2 m ρ c)) (W5_raw2 m ρ c)) (W5_arg13 m ρ c)) (W5_arg14 m ρ c)) (W5_arg15 m ρ c)))
      (W5_arg16 m ρ c)) (W5_arg17 m ρ c)) (W5_arg18 m ρ c)) (W5_arg19 m ρ c)))

/-- The hidden-array buffer at the end: the network's hidden array of the argument arrays. -/
theorem W7_hid : W7 m ρ c (Proc.devRef .tc main_v58_0) = Cert.Gnn.resH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) :=
  (s3_keep_v58_0 (W6 m ρ c)).trans (W6_hid m ρ c)

/-- The score buffer at the end: the network's scores of the argument arrays. -/
theorem W7_score : W7 m ρ c (Proc.devRef .tc main_v59) = Cert.Gnn.resS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (s3_flat (W6 m ρ c)).trans (congrArg (fun x => shapeCast S50000 x Cert.KernelIdeal.Facts₀.shapeCasts_S50000x1_S50000) (W6_score m ρ c))

end Boundaries

end Cert.KernelIdeal.Fold

end
-- ==== Proof.RefRun.lean ====
/-
  The reference program's @main as the list of its host operations, in order.  A call of the leaky rectifier is
  written out at its call site as the seven operations of its body over the call's own buffers: the constant zero,
  its broadcast, the comparison x ≥ 0, the slope's conversion (the identity), the slope's broadcast, the product
  slope · x, and the selection between x and the product made by the nested call.  @main equals the straight line of
  these operations, and so every execution of it terminates with each buffer at the fold of the operations' results
  over the launch contents.
-/
import proofs.«104056_j89859305767623_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
set_option maxRecDepth 16384 in
set_option maxHeartbeats 4000000 in
/-- @main's 209 operations, in order, the eight calls written out. -/
abbrev ops : List (HloOp τ sig (Elt F)) :=
  [ StableHlo.nullary main_v0 (iotaInDim S50000 32 0),
    StableHlo.unary main_arg20 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg20 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_arg0 main_arg2 main_v7 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg3 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S50000x256 ![0, 1] bcast_S1x256_S50000x256_0_1 : (⟨S1x256, .f32⟩ : BufTy).Contents (Elt F) → (⟨S50000x256, .f32⟩ : BufTy).Contents (Elt F)),
    StableHlo.binary main_v7 main_v9 main_v10 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    TRef.nullary main_call0.cst (constant S_ .f32 0x00000000#32),
    TRef.unary main_call0.cst main_call0.v0 (broadcastInDim S50000x256 ![] bcast_S_S50000x256),
    TRef.binary (.of main_v10 : TRef sig ⟨S50000x256, .f32⟩) main_call0.v0 main_call0.v1 (cmpf .oge),
    TRef.unary (.of main_cst : TRef sig ⟨S_, .f32⟩) main_call0.v2 id,
    TRef.unary main_call0.v2 main_call0.v3 (broadcastInDim S50000x256 ![] bcast_S_S50000x256),
    TRef.binary main_call0.v3 (.of main_v10 : TRef sig ⟨S50000x256, .f32⟩) main_call0.v4 mulf,
    TRef.ternary main_call0.v1 (.of main_v10 : TRef sig ⟨S50000x256, .f32⟩) main_call0.v4 main_call0.call0.v0 select,
    StableHlo.unary main_arg1 main_v12 ((extractStridedSlice S50000x13 ![0, 0] · slices_S50000x39_S50000x13_0_0) : (⟨S50000x39, .f32⟩ : BufTy).Contents (Elt F) → (⟨S50000x13, .f32⟩ : BufTy).Contents (Elt F)),
    StableHlo.binary main_v12 main_arg4 main_v13 ((fun l r => Host.dotGeneral dot_S50000x13_S13x256_S50000x256_1_0_0_1_n_n none l r) : (⟨S50000x13, .f32⟩ : BufTy).Contents (Elt F) → (⟨S13x256, .f32⟩ : BufTy).Contents (Elt F) → (⟨S50000x256, .f32⟩ : BufTy).Contents (Elt F)),
    StableHlo.unary main_arg5 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S50000x256 ![0, 1] bcast_S1x256_S50000x256_0_1 : (⟨S1x256, .f32⟩ : BufTy).Contents (Elt F) → (⟨S50000x256, .f32⟩ : BufTy).Contents (Elt F)),
    StableHlo.binary main_v13 main_v15 main_v16 (addf : (⟨S50000x256, .f32⟩ : BufTy).Contents (Elt F) → (⟨S50000x256, .f32⟩ : BufTy).Contents (Elt F) → (⟨S50000x256, .f32⟩ : BufTy).Contents (Elt F)),
    StableHlo.nullary main_cst_0 (constant S_ .f32 0x3C23D70A#32),
    TRef.nullary main_call1.cst (constant S_ .f32 0x00000000#32),
    TRef.unary main_call1.cst main_call1.v0 (broadcastInDim S50000x256 ![] bcast_S_S50000x256),
    TRef.binary (.of main_v16 : TRef sig ⟨S50000x256, .f32⟩) main_call1.v0 main_call1.v1 (cmpf .oge),
    TRef.unary (.of main_cst_0 : TRef sig ⟨S_, .f32⟩) main_call1.v2 id,
    TRef.unary main_call1.v2 main_call1.v3 (broadcastInDim S50000x256 ![] bcast_S_S50000x256),
    TRef.binary main_call1.v3 (.of main_v16 : TRef sig ⟨S50000x256, .f32⟩) main_call1.v4 mulf,
    TRef.ternary main_call1.v1 (.of main_v16 : TRef sig ⟨S50000x256, .f32⟩) main_call1.v4 main_call1.call0.v0 select,
    StableHlo.unary main_arg1 main_v18 ((extractStridedSlice S50000x13 ![0, 13] · slices_S50000x39_S50000x13_0_13) : (⟨S50000x39, .f32⟩ : BufTy).Contents (Elt F) → (⟨S50000x13, .f32⟩ : BufTy).Contents (Elt F)),
    StableHlo.binary main_v18 main_arg6 main_v19 ((fun l r => Host.dotGeneral dot_S50000x13_S13x256_S50000x256_1_0_0_1_n_n none l r) : (⟨S50000x13, .f32⟩ : BufTy).Contents (Elt F) → (⟨S13x256, .f32⟩ : BufTy).Contents (Elt F) → (⟨S50000x256, .f32⟩ : BufTy).Contents (Elt F)),
    StableHlo.unary main_arg7 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v19 main_v21 main_v22 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x3C23D70A#32),
    TRef.nullary main_call2.cst (constant S_ .f32 0x00000000#32),
    TRef.unary main_call2.cst main_call2.v0 (broadcastInDim S50000x256 ![] bcast_S_S50000x256),
    TRef.binary (.of main_v22 : TRef sig ⟨S50000x256, .f32⟩) main_call2.v0 main_call2.v1 (cmpf .oge),
    TRef.unary (.of main_cst_1 : TRef sig ⟨S_, .f32⟩) main_call2.v2 id,
    TRef.unary main_call2.v2 main_call2.v3 (broadcastInDim S50000x256 ![] bcast_S_S50000x256),
    TRef.binary main_call2.v3 (.of main_v22 : TRef sig ⟨S50000x256, .f32⟩) main_call2.v4 mulf,
    TRef.ternary main_call2.v1 (.of main_v22 : TRef sig ⟨S50000x256, .f32⟩) main_call2.v4 main_call2.call0.v0 select,
    StableHlo.binary main_arg0 main_arg8 main_v24 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg9 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v24 main_v26 main_v27 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x3C23D70A#32),
    TRef.nullary main_call3.cst (constant S_ .f32 0x00000000#32),
    TRef.unary main_call3.cst main_call3.v0 (broadcastInDim S50000x256 ![] bcast_S_S50000x256),
    TRef.binary (.of main_v27 : TRef sig ⟨S50000x256, .f32⟩) main_call3.v0 main_call3.v1 (cmpf .oge),
    TRef.unary (.of main_cst_2 : TRef sig ⟨S_, .f32⟩) main_call3.v2 id,
    TRef.unary main_call3.v2 main_call3.v3 (broadcastInDim S50000x256 ![] bcast_S_S50000x256),
    TRef.binary main_call3.v3 (.of main_v27 : TRef sig ⟨S50000x256, .f32⟩) main_call3.v4 mulf,
    TRef.ternary main_call3.v1 (.of main_v27 : TRef sig ⟨S50000x256, .f32⟩) main_call3.v4 main_call3.call0.v0 select,
    StableHlo.binary main_v28 main_arg10 main_v29 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst_3 (constant S_ .f32 0x3F800000#32),
    StableHlo.unary main_cst_3 main_v30 (broadcastInDim S850000 ![] bcast_S_S850000 : (⟨S_, .f32⟩ : BufTy).Contents (Elt F) → (⟨S850000, .f32⟩ : BufTy).Contents (Elt F)),
    StableHlo.nullary main_cst_4 (constant S_ .f32 0x00000000#32),
    StableHlo.unary main_cst_4 main_v31 (broadcastInDim S50000 ![] bcast_S_S50000 : (⟨S_, .f32⟩ : BufTy).Contents (Elt F) → (⟨S50000, .f32⟩ : BufTy).Contents (Elt F)),
    StableHlo.unary main_v6 main_v32 (broadcastInDim S850000x1 ![0] bcast_S850000_S850000x1_0 : (⟨S850000, .i32⟩ : BufTy).Contents (Elt F) → (⟨S850000x1, .i32⟩ : BufTy).Contents (Elt F)),
    StableHlo.ternary main_v31 main_v32 main_v30 main_v33 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_5 (constant S_ .f32 0x2B8CBCCC#32),
    StableHlo.unary main_cst_5 main_v34 (broadcastInDim S50000 ![] bcast_S_S50000 : (⟨S_, .f32⟩ : BufTy).Contents (Elt F) → (⟨S50000, .f32⟩ : BufTy).Contents (Elt F)),
    StableHlo.binary main_v33 main_v34 main_v35 (maximumf : (⟨S50000, .f32⟩ : BufTy).Contents (Elt F) → (⟨S50000, .f32⟩ : BufTy).Contents (Elt F) → (⟨S50000, .f32⟩ : BufTy).Contents (Elt F)),
    StableHlo.unary main_v35 main_v36 (Host.rsqrt : (⟨S50000, .f32⟩ : BufTy).Contents (Elt F) → (⟨S50000, .f32⟩ : BufTy).Contents (Elt F)),
    StableHlo.nullary main_c (constantI S_ 32 0#32),
    StableHlo.unary main_c main_v37 (broadcastInDim S850000 ![] bcast_S_S850000 : (⟨S_, .i32⟩ : BufTy).Contents (Elt F) → (⟨S850000, .i32⟩ : BufTy).Contents (Elt F)),
    StableHlo.binary main_v3 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v39 (broadcastInDim S850000 ![] bcast_S_S850000 : (⟨S_, .i32⟩ : BufTy).Contents (Elt F) → (⟨S850000, .i32⟩ : BufTy).Contents (Elt F)),
    StableHlo.binary main_v3 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v3 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v36 main_v42 main_v43 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_7 (constantI S_ 32 0#32),
    StableHlo.unary main_c_7 main_v44 (broadcastInDim S850000 ![] bcast_S_S850000 : (⟨S_, .i32⟩ : BufTy).Contents (Elt F) → (⟨S850000, .i32⟩ : BufTy).Contents (Elt F)),
    StableHlo.binary main_v6 main_v44 main_v45 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v46 (broadcastInDim S850000 ![] bcast_S_S850000 : (⟨S_, .i32⟩ : BufTy).Contents (Elt F) → (⟨S850000, .i32⟩ : BufTy).Contents (Elt F)),
    StableHlo.binary main_v6 main_v46 main_v47 (addi : (⟨S850000, .i32⟩ : BufTy).Contents (Elt F) → (⟨S850000, .i32⟩ : BufTy).Contents (Elt F) → (⟨S850000, .i32⟩ : BufTy).Contents (Elt F)),
    StableHlo.ternary main_v45 main_v47 main_v6 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v48 main_v49 (broadcastInDim S850000x1 ![0] bcast_S850000_S850000x1_0 : (⟨S850000, .i32⟩ : BufTy).Contents (Elt F) → (⟨S850000x1, .i32⟩ : BufTy).Contents (Elt F)),
    StableHlo.binary main_v36 main_v49 main_v50 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v43 main_v50 main_v51 (mulf : (⟨S850000, .f32⟩ : BufTy).Contents (Elt F) → (⟨S850000, .f32⟩ : BufTy).Contents (Elt F) → (⟨S850000, .f32⟩ : BufTy).Contents (Elt F)),
    StableHlo.nullary main_c_9 (constantI S_ 32 0#32),
    StableHlo.unary main_c_9 main_v52 (broadcastInDim S850000 ![] bcast_S_S850000 : (⟨S_, .i32⟩ : BufTy).Contents (Elt F) → (⟨S850000, .i32⟩ : BufTy).Contents (Elt F)),
    StableHlo.binary main_v3 main_v52 main_v53 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v54 (broadcastInDim S850000 ![] bcast_S_S850000 : (⟨S_, .i32⟩ : BufTy).Contents (Elt F) → (⟨S850000, .i32⟩ : BufTy).Contents (Elt F)),
    StableHlo.binary main_v3 main_v54 main_v55 (addi : (⟨S850000, .i32⟩ : BufTy).Contents (Elt F) → (⟨S850000, .i32⟩ : BufTy).Contents (Elt F) → (⟨S850000, .i32⟩ : BufTy).Contents (Elt F)),
    StableHlo.ternary main_v53 main_v55 main_v3 main_v56 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v56 main_v57 (broadcastInDim S850000x1 ![0] bcast_S850000_S850000x1_0 : (⟨S850000, .i32⟩ : BufTy).Contents (Elt F) → (⟨S850000x1, .i32⟩ : BufTy).Contents (Elt F)),
    StableHlo.binary main_v29 main_v57 main_v58 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v51 main_v59 (broadcastInDim S850000x1 ![0] bcast_S850000_S850000x1_0 : (⟨S850000, .f32⟩ : BufTy).Contents (Elt F) → (⟨S850000x1, .f32⟩ : BufTy).Contents (Elt F)),
    StableHlo.unary main_v59 main_v60 (broadcastInDim S850000x256 ![0, 1] bcast_S850000x1_S850000x256_0_1 : (⟨S850000x1, .f32⟩ : BufTy).Contents (Elt F) → (⟨S850000x256, .f32⟩ : BufTy).Contents (Elt F)),
    StableHlo.binary main_v58 main_v60 main_v61 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v62 (broadcastInDim S50000x256 ![] bcast_S_S50000x256 : (⟨S_, .f32⟩ : BufTy).Contents (Elt F) → (⟨S50000x256, .f32⟩ : BufTy).Contents (Elt F)),
    StableHlo.unary main_v6 main_v63 (broadcastInDim S850000x1 ![0] bcast_S850000_S850000x1_0 : (⟨S850000, .i32⟩ : BufTy).Contents (Elt F) → (⟨S850000x1, .i32⟩ : BufTy).Contents (Elt F)),
    StableHlo.ternary main_v62 main_v63 main_v61 main_v64 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg11 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (addf : (⟨S50000x256, .f32⟩ : BufTy).Contents (Elt F) → (⟨S50000x256, .f32⟩ : BufTy).Contents (Elt F) → (⟨S50000x256, .f32⟩ : BufTy).Contents (Elt F)),
    StableHlo.nullary main_cst_12 (constant S_ .f32 0x3C23D70A#32),
    TRef.nullary main_call4.cst (constant S_ .f32 0x00000000#32),
    TRef.unary main_call4.cst main_call4.v0 (broadcastInDim S50000x256 ![] bcast_S_S50000x256),
    TRef.binary (.of main_v67 : TRef sig ⟨S50000x256, .f32⟩) main_call4.v0 main_call4.v1 (cmpf .oge),
    TRef.unary (.of main_cst_12 : TRef sig ⟨S_, .f32⟩) main_call4.v2 id,
    TRef.unary main_call4.v2 main_call4.v3 (broadcastInDim S50000x256 ![] bcast_S_S50000x256),
    TRef.binary main_call4.v3 (.of main_v67 : TRef sig ⟨S50000x256, .f32⟩) main_call4.v4 mulf,
    TRef.ternary main_call4.v1 (.of main_v67 : TRef sig ⟨S50000x256, .f32⟩) main_call4.v4 main_call4.call0.v0 select,
    StableHlo.binary main_v68 main_arg12 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst_13 (constant S_ .f32 0x3F800000#32),
    StableHlo.unary main_cst_13 main_v70 (broadcastInDim S850000 ![] bcast_S_S850000 : (⟨S_, .f32⟩ : BufTy).Contents (Elt F) → (⟨S850000, .f32⟩ : BufTy).Contents (Elt F)),
    StableHlo.nullary main_cst_14 (constant S_ .f32 0x00000000#32),
    StableHlo.unary main_cst_14 main_v71 (broadcastInDim S50000 ![] bcast_S_S50000 : (⟨S_, .f32⟩ : BufTy).Contents (Elt F) → (⟨S50000, .f32⟩ : BufTy).Contents (Elt F)),
    StableHlo.unary main_v6 main_v72 (broadcastInDim S850000x1 ![0] bcast_S850000_S850000x1_0 : (⟨S850000, .i32⟩ : BufTy).Contents (Elt F) → (⟨S850000x1, .i32⟩ : BufTy).Contents (Elt F)),
    StableHlo.ternary main_v71 main_v72 main_v70 main_v73 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_15 (constant S_ .f32 0x2B8CBCCC#32),
    StableHlo.unary main_cst_15 main_v74 (broadcastInDim S50000 ![] bcast_S_S50000 : (⟨S_, .f32⟩ : BufTy).Contents (Elt F) → (⟨S50000, .f32⟩ : BufTy).Contents (Elt F)),
    StableHlo.binary main_v73 main_v74 main_v75 (maximumf : (⟨S50000, .f32⟩ : BufTy).Contents (Elt F) → (⟨S50000, .f32⟩ : BufTy).Contents (Elt F) → (⟨S50000, .f32⟩ : BufTy).Contents (Elt F)),
    StableHlo.unary main_v75 main_v76 (Host.rsqrt : (⟨S50000, .f32⟩ : BufTy).Contents (Elt F) → (⟨S50000, .f32⟩ : BufTy).Contents (Elt F)),
    StableHlo.nullary main_c_16 (constantI S_ 32 0#32),
    StableHlo.unary main_c_16 main_v77 (broadcastInDim S850000 ![] bcast_S_S850000 : (⟨S_, .i32⟩ : BufTy).Contents (Elt F) → (⟨S850000, .i32⟩ : BufTy).Contents (Elt F)),
    StableHlo.binary main_v3 main_v77 main_v78 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v79 (broadcastInDim S850000 ![] bcast_S_S850000 : (⟨S_, .i32⟩ : BufTy).Contents (Elt F) → (⟨S850000, .i32⟩ : BufTy).Contents (Elt F)),
    StableHlo.binary main_v3 main_v79 main_v80 (addi : (⟨S850000, .i32⟩ : BufTy).Contents (Elt F) → (⟨S850000, .i32⟩ : BufTy).Contents (Elt F) → (⟨S850000, .i32⟩ : BufTy).Contents (Elt F)),
    StableHlo.ternary main_v78 main_v80 main_v3 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v81 main_v82 (broadcastInDim S850000x1 ![0] bcast_S850000_S850000x1_0 : (⟨S850000, .i32⟩ : BufTy).Contents (Elt F) → (⟨S850000x1, .i32⟩ : BufTy).Contents (Elt F)),
    StableHlo.binary main_v76 main_v82 main_v83 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_18 (constantI S_ 32 0#32),
    StableHlo.unary main_c_18 main_v84 (broadcastInDim S850000 ![] bcast_S_S850000 : (⟨S_, .i32⟩ : BufTy).Contents (Elt F) → (⟨S850000, .i32⟩ : BufTy).Contents (Elt F)),
    StableHlo.binary main_v6 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v86 (broadcastInDim S850000 ![] bcast_S_S850000 : (⟨S_, .i32⟩ : BufTy).Contents (Elt F) → (⟨S850000, .i32⟩ : BufTy).Contents (Elt F)),
    StableHlo.binary main_v6 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v6 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v76 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v83 main_v90 main_v91 (mulf : (⟨S850000, .f32⟩ : BufTy).Contents (Elt F) → (⟨S850000, .f32⟩ : BufTy).Contents (Elt F) → (⟨S850000, .f32⟩ : BufTy).Contents (Elt F)),
    StableHlo.nullary main_c_20 (constantI S_ 32 0#32),
    StableHlo.unary main_c_20 main_v92 (broadcastInDim S850000 ![] bcast_S_S850000 : (⟨S_, .i32⟩ : BufTy).Contents (Elt F) → (⟨S850000, .i32⟩ : BufTy).Contents (Elt F)),
    StableHlo.binary main_v3 main_v92 main_v93 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v94 (broadcastInDim S850000 ![] bcast_S_S850000 : (⟨S_, .i32⟩ : BufTy).Contents (Elt F) → (⟨S850000, .i32⟩ : BufTy).Contents (Elt F)),
    StableHlo.binary main_v3 main_v94 main_v95 (addi : (⟨S850000, .i32⟩ : BufTy).Contents (Elt F) → (⟨S850000, .i32⟩ : BufTy).Contents (Elt F) → (⟨S850000, .i32⟩ : BufTy).Contents (Elt F)),
    StableHlo.ternary main_v93 main_v95 main_v3 main_v96 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v96 main_v97 (broadcastInDim S850000x1 ![0] bcast_S850000_S850000x1_0 : (⟨S850000, .i32⟩ : BufTy).Contents (Elt F) → (⟨S850000x1, .i32⟩ : BufTy).Contents (Elt F)),
    StableHlo.binary main_v69 main_v97 main_v98 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v91 main_v99 (broadcastInDim S850000x1 ![0] bcast_S850000_S850000x1_0 : (⟨S850000, .f32⟩ : BufTy).Contents (Elt F) → (⟨S850000x1, .f32⟩ : BufTy).Contents (Elt F)),
    StableHlo.unary main_v99 main_v100 (broadcastInDim S850000x256 ![0, 1] bcast_S850000x1_S850000x256_0_1 : (⟨S850000x1, .f32⟩ : BufTy).Contents (Elt F) → (⟨S850000x256, .f32⟩ : BufTy).Contents (Elt F)),
    StableHlo.binary main_v98 main_v100 main_v101 (mulf : (⟨S850000x256, .f32⟩ : BufTy).Contents (Elt F) → (⟨S850000x256, .f32⟩ : BufTy).Contents (Elt F) → (⟨S850000x256, .f32⟩ : BufTy).Contents (Elt F)),
    StableHlo.nullary main_cst_22 (constant S_ .f32 0x00000000#32),
    StableHlo.unary main_cst_22 main_v102 (broadcastInDim S50000x256 ![] bcast_S_S50000x256 : (⟨S_, .f32⟩ : BufTy).Contents (Elt F) → (⟨S50000x256, .f32⟩ : BufTy).Contents (Elt F)),
    StableHlo.unary main_v6 main_v103 (broadcastInDim S850000x1 ![0] bcast_S850000_S850000x1_0 : (⟨S850000, .i32⟩ : BufTy).Contents (Elt F) → (⟨S850000x1, .i32⟩ : BufTy).Contents (Elt F)),
    StableHlo.ternary main_v102 main_v103 main_v101 main_v104 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg13 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v104 main_v106 main_v107 (addf : (⟨S50000x256, .f32⟩ : BufTy).Contents (Elt F) → (⟨S50000x256, .f32⟩ : BufTy).Contents (Elt F) → (⟨S50000x256, .f32⟩ : BufTy).Contents (Elt F)),
    StableHlo.nullary main_cst_23 (constant S_ .f32 0x3C23D70A#32),
    TRef.nullary main_call5.cst (constant S_ .f32 0x00000000#32),
    TRef.unary main_call5.cst main_call5.v0 (broadcastInDim S50000x256 ![] bcast_S_S50000x256),
    TRef.binary (.of main_v107 : TRef sig ⟨S50000x256, .f32⟩) main_call5.v0 main_call5.v1 (cmpf .oge),
    TRef.unary (.of main_cst_23 : TRef sig ⟨S_, .f32⟩) main_call5.v2 id,
    TRef.unary main_call5.v2 main_call5.v3 (broadcastInDim S50000x256 ![] bcast_S_S50000x256),
    TRef.binary main_call5.v3 (.of main_v107 : TRef sig ⟨S50000x256, .f32⟩) main_call5.v4 mulf,
    TRef.ternary main_call5.v1 (.of main_v107 : TRef sig ⟨S50000x256, .f32⟩) main_call5.v4 main_call5.call0.v0 select,
    StableHlo.nary ![main_v11, main_v17, main_v23, main_v108] main_v109 (fun u => concatenate S50000x1024 1 [⟨S50000x256, u 0⟩, ⟨S50000x256, u 1⟩, ⟨S50000x256, u 2⟩, ⟨S50000x256, u 3⟩] concatenates_S50000x256_S50000x256_S50000x256_S50000x256_S50000x1024_d1),
    StableHlo.binary main_v109 main_arg14 main_v110 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    StableHlo.unary main_arg15 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S50000x512 ![0, 1] bcast_S1x512_S50000x512_0_1 : (⟨S1x512, .f32⟩ : BufTy).Contents (Elt F) → (⟨S50000x512, .f32⟩ : BufTy).Contents (Elt F)),
    StableHlo.binary main_v110 main_v112 main_v113 (addf : (⟨S50000x512, .f32⟩ : BufTy).Contents (Elt F) → (⟨S50000x512, .f32⟩ : BufTy).Contents (Elt F) → (⟨S50000x512, .f32⟩ : BufTy).Contents (Elt F)),
    StableHlo.nullary main_cst_24 (constant S_ .f32 0x3C23D70A#32),
    TRef.nullary main_call6.cst (constant S_ .f32 0x00000000#32),
    TRef.unary main_call6.cst main_call6.v0 (broadcastInDim S50000x512 ![] bcast_S_S50000x512),
    TRef.binary (.of main_v113 : TRef sig ⟨S50000x512, .f32⟩) main_call6.v0 main_call6.v1 (cmpf .oge),
    TRef.unary (.of main_cst_24 : TRef sig ⟨S_, .f32⟩) main_call6.v2 id,
    TRef.unary main_call6.v2 main_call6.v3 (broadcastInDim S50000x512 ![] bcast_S_S50000x512),
    TRef.binary main_call6.v3 (.of main_v113 : TRef sig ⟨S50000x512, .f32⟩) main_call6.v4 mulf,
    TRef.ternary main_call6.v1 (.of main_v113 : TRef sig ⟨S50000x512, .f32⟩) main_call6.v4 main_call6.call0.v0 select,
    StableHlo.binary main_v114 main_arg16 main_v115 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg17 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v115 main_v117 main_v118 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x3C23D70A#32),
    TRef.nullary main_call7.cst (constant S_ .f32 0x00000000#32),
    TRef.unary main_call7.cst main_call7.v0 (broadcastInDim S50000x256 ![] bcast_S_S50000x256),
    TRef.binary (.of main_v118 : TRef sig ⟨S50000x256, .f32⟩) main_call7.v0 main_call7.v1 (cmpf .oge),
    TRef.unary (.of main_cst_25 : TRef sig ⟨S_, .f32⟩) main_call7.v2 id,
    TRef.unary main_call7.v2 main_call7.v3 (broadcastInDim S50000x256 ![] bcast_S_S50000x256),
    TRef.binary main_call7.v3 (.of main_v118 : TRef sig ⟨S50000x256, .f32⟩) main_call7.v4 mulf,
    TRef.ternary main_call7.v1 (.of main_v118 : TRef sig ⟨S50000x256, .f32⟩) main_call7.v4 main_call7.call0.v0 select,
    StableHlo.binary main_v119 main_arg18 main_v120 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg19 main_v121 (broadcastInDim S1x1 ![1] bcast_S1_S1x1_1 : (⟨S1, .f32⟩ : BufTy).Contents (Elt F) → (⟨S1x1, .f32⟩ : BufTy).Contents (Elt F)),
    StableHlo.unary main_v121 main_v122 (broadcastInDim S50000x1 ![0, 1] bcast_S1x1_S50000x1_0_1 : (⟨S1x1, .f32⟩ : BufTy).Contents (Elt F) → (⟨S50000x1, .f32⟩ : BufTy).Contents (Elt F)),
    StableHlo.binary main_v120 main_v122 main_v123 (addf : (⟨S50000x1, .f32⟩ : BufTy).Contents (Elt F) → (⟨S50000x1, .f32⟩ : BufTy).Contents (Elt F) → (⟨S50000x1, .f32⟩ : BufTy).Contents (Elt F)),
    StableHlo.unary main_v123 main_v124 (Host.negf : (⟨S50000x1, .f32⟩ : BufTy).Contents (Elt F) → (⟨S50000x1, .f32⟩ : BufTy).Contents (Elt F)),
    StableHlo.unary main_v124 main_v125 (Host.exp : (⟨S50000x1, .f32⟩ : BufTy).Contents (Elt F) → (⟨S50000x1, .f32⟩ : BufTy).Contents (Elt F)),
    StableHlo.nullary main_cst_26 (constant S_ .f32 0x3F800000#32),
    StableHlo.unary main_cst_26 main_v126 (broadcastInDim S50000x1 ![] bcast_S_S50000x1 : (⟨S_, .f32⟩ : BufTy).Contents (Elt F) → (⟨S50000x1, .f32⟩ : BufTy).Contents (Elt F)),
    StableHlo.binary main_v126 main_v125 main_v127 (addf : (⟨S50000x1, .f32⟩ : BufTy).Contents (Elt F) → (⟨S50000x1, .f32⟩ : BufTy).Contents (Elt F) → (⟨S50000x1, .f32⟩ : BufTy).Contents (Elt F)),
    StableHlo.nullary main_cst_27 (constant S_ .f32 0x3F800000#32),
    StableHlo.unary main_cst_27 main_v128 (broadcastInDim S50000x1 ![] bcast_S_S50000x1 : (⟨S_, .f32⟩ : BufTy).Contents (Elt F) → (⟨S50000x1, .f32⟩ : BufTy).Contents (Elt F)),
    StableHlo.binary main_v128 main_v127 main_v129 (Host.divf : (⟨S50000x1, .f32⟩ : BufTy).Contents (Elt F) → (⟨S50000x1, .f32⟩ : BufTy).Contents (Elt F) → (⟨S50000x1, .f32⟩ : BufTy).Contents (Elt F)),
    StableHlo.reshape main_v129 main_v130 rfl shapeCasts_S50000x1_S50000 ]

set_option maxRecDepth 16384 in
set_option maxHeartbeats 4000000 in
/-- @main is that straight line: its three windows in order, the functions' bodies unfolded at their calls and the
    call records at their fields; both sides are one chain of steps once sequencing is reassociated. -/
theorem main_eq (c : Dev nD) : main (F := F) c = seq ops := by
  simp only [main, main_part0, main_part1, main_part2, fn_leaky_relu.body, fn_leaky_relu_0.body, fn_where.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 4000000 in
/-- Every operation touches buffers of the TensorCore only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., reshape_bufs_sub ..⟩

set_option maxRecDepth 16384 in
set_option maxHeartbeats 4000000 in
/-- For any float values, from any memory with zero counters: every weakly fair execution of @main terminates, and
    every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibTypedRef.lean ====
/-
  A typed reference carries the type of the tensor value its buffer holds, and moves contents between that type and
  the buffer's own type along the equation between the two.  Moving contents there and back, in either order, is
  the identity.  Nothing here knows a program.
-/
import Idealize.ShloMosaic.Lib.StableHlo

noncomputable section

namespace Cert.TypedRef

open Idealize.ShloMosaic Idealize.ShloMosaic.StableHlo

variable {sig : RefSig} {Val : EltTy → Type} {T : BufTy}

/-- Contents taken to the buffer's own type and back are the contents. -/
theorem ofBuf_toBuf (x : TRef sig T) (v : T.Contents Val) : x.ofBuf (x.toBuf v) = v := by
  obtain ⟨r, h, h1, h2⟩ := x
  subst h
  rfl

/-- Contents of the buffer taken to the value's type and back are the contents. -/
theorem toBuf_ofBuf (x : TRef sig T) (v : x.ref.ty.Contents Val) : x.toBuf (x.ofBuf v) = v := by
  obtain ⟨r, h, h1, h2⟩ := x
  subst h
  rfl

end Cert.TypedRef

end
-- ==== Proof.RefValue.lean ====
/-
  What the reference program leaves in its result buffers, as whole-array terms of the argument arrays.

  The fold of @main's operations is read at a buffer by unrolling it: each operation's result at its own buffer is its
  function of the contents of its operands, at any other buffer what was there.  The list is read in seven consecutive
  stretches, each from arbitrary contents before it and only at the buffers read later: the sources and destinations of
  the edges, the three dense layers and the input of the first propagation; the edges' weights; the first propagation
  and the layer after it; the weights again (the program computes them once for each propagation); the second
  propagation; the hidden array; the scores.  Composed, the hidden array is `Cert.Gnn.resH` of the arguments and the
  scores are `Cert.Gnn.resS`; no operation writes an argument's buffer.  The run of @main is then restated with these
  terms at the launch contents.
-/
import proofs.«104056_j89859305767623_1_alg».proof.Proof.RefRun
import proofs.«104056_j89859305767623_1_alg».proof.Proof.Terms
import proofs.«104056_j89859305767623_1_alg».proof.Proof.LibTypedRef

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The graph's terms over given arrays of sources and destinations

`Cert.Gnn.norm` and `Cert.Gnn.agg` are functions of the edge table; the program holds the sources and the destinations in
buffers of their own and computes the rest from those.  The same terms, with the two arrays (and the weights, and the four
pieces of the hidden layer's input) as arguments. -/

/-- d^(-1/2) for a given array of destinations. -/
def dinvOf (d : Cert.Gnn.Arr F S850000 .i32) : Cert.Gnn.Arr F S50000 .f32 :=
  Host.rsqrt (maximumf
    (Host.scatterAdd scatter_S50000_S850000x1_S850000_n_0_0_1
      (broadcastInDim S50000 ![] bcast_S_S50000 (constant S_ .f32 0x00000000#32))
      (broadcastInDim S850000x1 ![0] bcast_S850000_S850000x1_0 d)
      (broadcastInDim S850000 ![] bcast_S_S850000 (constant S_ .f32 0x3F800000#32)))
    (broadcastInDim S50000 ![] bcast_S_S50000 (constant S_ .f32 0x2B8CBCCC#32)))

/-- The edges' weights for given sources and destinations. -/
def normOf (s d : Cert.Gnn.Arr F S850000 .i32) : Cert.Gnn.Arr F S850000 .f32 :=
  mulf (Host.gather gather_S50000_S850000x1_S850000_n_0_n_n_0_1_1 (dinvOf d) (Cert.Gnn.col (F := F) s))
    (Host.gather gather_S50000_S850000x1_S850000_n_0_n_n_0_1_1 (dinvOf d) (Cert.Gnn.col (F := F) d))

/-- One propagation for given sources, destinations and weights. -/
def aggOf (s d : Cert.Gnn.Arr F S850000 .i32) (w : Cert.Gnn.Arr F S850000 .f32) (x : Cert.Gnn.Arr F S50000x256 .f32) :
    Cert.Gnn.Arr F S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (mulf (Host.gather gather_S50000x256_S850000x1_S850000x256_1_0_n_n_0_1_1256 x (Cert.Gnn.col (F := F) s))
      (broadcastInDim S850000x256 ![0, 1] bcast_S850000x1_S850000x256_0_1
        (broadcastInDim S850000x1 ![0] bcast_S850000_S850000x1_0 w)))

/-- The hidden array for its four input pieces given. -/
def hidOf (d c1 c2 p : Cert.Gnn.Arr F S50000x256 .f32) (Wf : Cert.Gnn.Arr F S1024x512 .f32) (bf : Cert.Gnn.Arr F S512 .f32) :
    Cert.Gnn.Arr F S50000x512 .f32 :=
  Cert.Gnn.leaky S50000x512 bcast_S_S50000x512
    (addf (Host.dotGeneral dot_S50000x1024_S1024x512_S50000x512_1_0_0_1_n_n none
        (concatenate S50000x1024 1 [⟨S50000x256, d⟩, ⟨S50000x256, c1⟩, ⟨S50000x256, c2⟩, ⟨S50000x256, p⟩]
          concatenates_S50000x256_S50000x256_S50000x256_S50000x256_S50000x1024_d1) Wf)
      (broadcastInDim S50000x512 ![0, 1] bcast_S1x512_S50000x512_0_1 (broadcastInDim S1x512 ![1] bcast_S512_S1x512_1 bf)))

/-! ## The list in seven stretches -/

set_option maxRecDepth 16384 in
set_option maxHeartbeats 4000000 in
/-- Operations 1 … 58 of the list. -/
def sA : List (HloOp τ sig (Elt F)) :=
  [ StableHlo.nullary main_v0 (iotaInDim S50000 32 0),
    StableHlo.unary main_arg20 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg20 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_arg0 main_arg2 main_v7 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg3 main_v8 (broadcastInDim S1x256 ![1] bcast_S256_S1x256_1 : (⟨S256, .f32⟩ : BufTy).Contents (Elt F) → (⟨S1x256, .f32⟩ : BufTy).Contents (Elt F)),
    StableHlo.unary main_v8 main_v9 (broadcastInDim S50000x256 ![0, 1] bcast_S1x256_S50000x256_0_1 : (⟨S1x256, .f32⟩ : BufTy).Contents (Elt F) → (⟨S50000x256, .f32⟩ : BufTy).Contents (Elt F)),
    StableHlo.binary main_v7 main_v9 main_v10 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    TRef.nullary main_call0.cst (constant S_ .f32 0x00000000#32),
    TRef.unary main_call0.cst main_call0.v0 (broadcastInDim S50000x256 ![] bcast_S_S50000x256),
    TRef.binary (.of main_v10 : TRef sig ⟨S50000x256, .f32⟩) main_call0.v0 main_call0.v1 (cmpf .oge),
    TRef.unary (.of main_cst : TRef sig ⟨S_, .f32⟩) main_call0.v2 id,
    TRef.unary main_call0.v2 main_call0.v3 (broadcastInDim S50000x256 ![] bcast_S_S50000x256),
    TRef.binary main_call0.v3 (.of main_v10 : TRef sig ⟨S50000x256, .f32⟩) main_call0.v4 mulf,
    TRef.ternary main_call0.v1 (.of main_v10 : TRef sig ⟨S50000x256, .f32⟩) main_call0.v4 main_call0.call0.v0 select,
    StableHlo.unary main_arg1 main_v12 ((extractStridedSlice S50000x13 ![0, 0] · slices_S50000x39_S50000x13_0_0) : (⟨S50000x39, .f32⟩ : BufTy).Contents (Elt F) → (⟨S50000x13, .f32⟩ : BufTy).Contents (Elt F)),
    StableHlo.binary main_v12 main_arg4 main_v13 ((fun l r => Host.dotGeneral dot_S50000x13_S13x256_S50000x256_1_0_0_1_n_n none l r) : (⟨S50000x13, .f32⟩ : BufTy).Contents (Elt F) → (⟨S13x256, .f32⟩ : BufTy).Contents (Elt F) → (⟨S50000x256, .f32⟩ : BufTy).Contents (Elt F)),
    StableHlo.unary main_arg5 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S50000x256 ![0, 1] bcast_S1x256_S50000x256_0_1 : (⟨S1x256, .f32⟩ : BufTy).Contents (Elt F) → (⟨S50000x256, .f32⟩ : BufTy).Contents (Elt F)),
    StableHlo.binary main_v13 main_v15 main_v16 (addf : (⟨S50000x256, .f32⟩ : BufTy).Contents (Elt F) → (⟨S50000x256, .f32⟩ : BufTy).Contents (Elt F) → (⟨S50000x256, .f32⟩ : BufTy).Contents (Elt F)),
    StableHlo.nullary main_cst_0 (constant S_ .f32 0x3C23D70A#32),
    TRef.nullary main_call1.cst (constant S_ .f32 0x00000000#32),
    TRef.unary main_call1.cst main_call1.v0 (broadcastInDim S50000x256 ![] bcast_S_S50000x256),
    TRef.binary (.of main_v16 : TRef sig ⟨S50000x256, .f32⟩) main_call1.v0 main_call1.v1 (cmpf .oge),
    TRef.unary (.of main_cst_0 : TRef sig ⟨S_, .f32⟩) main_call1.v2 id,
    TRef.unary main_call1.v2 main_call1.v3 (broadcastInDim S50000x256 ![] bcast_S_S50000x256),
    TRef.binary main_call1.v3 (.of main_v16 : TRef sig ⟨S50000x256, .f32⟩) main_call1.v4 mulf,
    TRef.ternary main_call1.v1 (.of main_v16 : TRef sig ⟨S50000x256, .f32⟩) main_call1.v4 main_call1.call0.v0 select,
    StableHlo.unary main_arg1 main_v18 ((extractStridedSlice S50000x13 ![0, 13] · slices_S50000x39_S50000x13_0_13) : (⟨S50000x39, .f32⟩ : BufTy).Contents (Elt F) → (⟨S50000x13, .f32⟩ : BufTy).Contents (Elt F)),
    StableHlo.binary main_v18 main_arg6 main_v19 ((fun l r => Host.dotGeneral dot_S50000x13_S13x256_S50000x256_1_0_0_1_n_n none l r) : (⟨S50000x13, .f32⟩ : BufTy).Contents (Elt F) → (⟨S13x256, .f32⟩ : BufTy).Contents (Elt F) → (⟨S50000x256, .f32⟩ : BufTy).Contents (Elt F)),
    StableHlo.unary main_arg7 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v19 main_v21 main_v22 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x3C23D70A#32),
    TRef.nullary main_call2.cst (constant S_ .f32 0x00000000#32),
    TRef.unary main_call2.cst main_call2.v0 (broadcastInDim S50000x256 ![] bcast_S_S50000x256),
    TRef.binary (.of main_v22 : TRef sig ⟨S50000x256, .f32⟩) main_call2.v0 main_call2.v1 (cmpf .oge),
    TRef.unary (.of main_cst_1 : TRef sig ⟨S_, .f32⟩) main_call2.v2 id,
    TRef.unary main_call2.v2 main_call2.v3 (broadcastInDim S50000x256 ![] bcast_S_S50000x256),
    TRef.binary main_call2.v3 (.of main_v22 : TRef sig ⟨S50000x256, .f32⟩) main_call2.v4 mulf,
    TRef.ternary main_call2.v1 (.of main_v22 : TRef sig ⟨S50000x256, .f32⟩) main_call2.v4 main_call2.call0.v0 select,
    StableHlo.binary main_arg0 main_arg8 main_v24 ((fun l r => Host.dotGeneral dot_S50000x64_S64x256_S50000x256_1_0_0_1_n_n none l r) : (⟨S50000x64, .f32⟩ : BufTy).Contents (Elt F) → (⟨S64x256, .f32⟩ : BufTy).Contents (Elt F) → (⟨S50000x256, .f32⟩ : BufTy).Contents (Elt F)),
    StableHlo.unary main_arg9 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S50000x256 ![0, 1] bcast_S1x256_S50000x256_0_1 : (⟨S1x256, .f32⟩ : BufTy).Contents (Elt F) → (⟨S50000x256, .f32⟩ : BufTy).Contents (Elt F)),
    StableHlo.binary main_v24 main_v26 main_v27 (addf : (⟨S50000x256, .f32⟩ : BufTy).Contents (Elt F) → (⟨S50000x256, .f32⟩ : BufTy).Contents (Elt F) → (⟨S50000x256, .f32⟩ : BufTy).Contents (Elt F)),
    StableHlo.nullary main_cst_2 (constant S_ .f32 0x3C23D70A#32),
    TRef.nullary main_call3.cst (constant S_ .f32 0x00000000#32),
    TRef.unary main_call3.cst main_call3.v0 (broadcastInDim S50000x256 ![] bcast_S_S50000x256),
    TRef.binary (.of main_v27 : TRef sig ⟨S50000x256, .f32⟩) main_call3.v0 main_call3.v1 (cmpf .oge),
    TRef.unary (.of main_cst_2 : TRef sig ⟨S_, .f32⟩) main_call3.v2 id,
    TRef.unary main_call3.v2 main_call3.v3 (broadcastInDim S50000x256 ![] bcast_S_S50000x256),
    TRef.binary main_call3.v3 (.of main_v27 : TRef sig ⟨S50000x256, .f32⟩) main_call3.v4 mulf,
    TRef.ternary main_call3.v1 (.of main_v27 : TRef sig ⟨S50000x256, .f32⟩) main_call3.v4 main_call3.call0.v0 select,
    StableHlo.binary main_v28 main_arg10 main_v29 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

set_option maxRecDepth 16384 in
set_option maxHeartbeats 4000000 in
/-- Operations 59 … 87 of the list. -/
def sB : List (HloOp τ sig (Elt F)) :=
  [ StableHlo.nullary main_cst_3 (constant S_ .f32 0x3F800000#32),
    StableHlo.unary main_cst_3 main_v30 (broadcastInDim S850000 ![] bcast_S_S850000 : (⟨S_, .f32⟩ : BufTy).Contents (Elt F) → (⟨S850000, .f32⟩ : BufTy).Contents (Elt F)),
    StableHlo.nullary main_cst_4 (constant S_ .f32 0x00000000#32),
    StableHlo.unary main_cst_4 main_v31 (broadcastInDim S50000 ![] bcast_S_S50000 : (⟨S_, .f32⟩ : BufTy).Contents (Elt F) → (⟨S50000, .f32⟩ : BufTy).Contents (Elt F)),
    StableHlo.unary main_v6 main_v32 (broadcastInDim S850000x1 ![0] bcast_S850000_S850000x1_0 : (⟨S850000, .i32⟩ : BufTy).Contents (Elt F) → (⟨S850000x1, .i32⟩ : BufTy).Contents (Elt F)),
    StableHlo.ternary main_v31 main_v32 main_v30 main_v33 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_5 (constant S_ .f32 0x2B8CBCCC#32),
    StableHlo.unary main_cst_5 main_v34 (broadcastInDim S50000 ![] bcast_S_S50000 : (⟨S_, .f32⟩ : BufTy).Contents (Elt F) → (⟨S50000, .f32⟩ : BufTy).Contents (Elt F)),
    StableHlo.binary main_v33 main_v34 main_v35 (maximumf : (⟨S50000, .f32⟩ : BufTy).Contents (Elt F) → (⟨S50000, .f32⟩ : BufTy).Contents (Elt F) → (⟨S50000, .f32⟩ : BufTy).Contents (Elt F)),
    StableHlo.unary main_v35 main_v36 (Host.rsqrt : (⟨S50000, .f32⟩ : BufTy).Contents (Elt F) → (⟨S50000, .f32⟩ : BufTy).Contents (Elt F)),
    StableHlo.nullary main_c (constantI S_ 32 0#32),
    StableHlo.unary main_c main_v37 (broadcastInDim S850000 ![] bcast_S_S850000 : (⟨S_, .i32⟩ : BufTy).Contents (Elt F) → (⟨S850000, .i32⟩ : BufTy).Contents (Elt F)),
    StableHlo.binary main_v3 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v39 (broadcastInDim S850000 ![] bcast_S_S850000 : (⟨S_, .i32⟩ : BufTy).Contents (Elt F) → (⟨S850000, .i32⟩ : BufTy).Contents (Elt F)),
    StableHlo.binary main_v3 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v3 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v36 main_v42 main_v43 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_7 (constantI S_ 32 0#32),
    StableHlo.unary main_c_7 main_v44 (broadcastInDim S850000 ![] bcast_S_S850000 : (⟨S_, .i32⟩ : BufTy).Contents (Elt F) → (⟨S850000, .i32⟩ : BufTy).Contents (Elt F)),
    StableHlo.binary main_v6 main_v44 main_v45 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v46 (broadcastInDim S850000 ![] bcast_S_S850000 : (⟨S_, .i32⟩ : BufTy).Contents (Elt F) → (⟨S850000, .i32⟩ : BufTy).Contents (Elt F)),
    StableHlo.binary main_v6 main_v46 main_v47 (addi : (⟨S850000, .i32⟩ : BufTy).Contents (Elt F) → (⟨S850000, .i32⟩ : BufTy).Contents (Elt F) → (⟨S850000, .i32⟩ : BufTy).Contents (Elt F)),
    StableHlo.ternary main_v45 main_v47 main_v6 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v48 main_v49 (broadcastInDim S850000x1 ![0] bcast_S850000_S850000x1_0 : (⟨S850000, .i32⟩ : BufTy).Contents (Elt F) → (⟨S850000x1, .i32⟩ : BufTy).Contents (Elt F)),
    StableHlo.binary main_v36 main_v49 main_v50 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v43 main_v50 main_v51 (mulf : (⟨S850000, .f32⟩ : BufTy).Contents (Elt F) → (⟨S850000, .f32⟩ : BufTy).Contents (Elt F) → (⟨S850000, .f32⟩ : BufTy).Contents (Elt F)) ]

set_option maxRecDepth 16384 in
set_option maxHeartbeats 4000000 in
/-- Operations 88 … 115 of the list. -/
def sC : List (HloOp τ sig (Elt F)) :=
  [ StableHlo.nullary main_c_9 (constantI S_ 32 0#32),
    StableHlo.unary main_c_9 main_v52 (broadcastInDim S850000 ![] bcast_S_S850000 : (⟨S_, .i32⟩ : BufTy).Contents (Elt F) → (⟨S850000, .i32⟩ : BufTy).Contents (Elt F)),
    StableHlo.binary main_v3 main_v52 main_v53 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v54 (broadcastInDim S850000 ![] bcast_S_S850000 : (⟨S_, .i32⟩ : BufTy).Contents (Elt F) → (⟨S850000, .i32⟩ : BufTy).Contents (Elt F)),
    StableHlo.binary main_v3 main_v54 main_v55 (addi : (⟨S850000, .i32⟩ : BufTy).Contents (Elt F) → (⟨S850000, .i32⟩ : BufTy).Contents (Elt F) → (⟨S850000, .i32⟩ : BufTy).Contents (Elt F)),
    StableHlo.ternary main_v53 main_v55 main_v3 main_v56 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v56 main_v57 (broadcastInDim S850000x1 ![0] bcast_S850000_S850000x1_0 : (⟨S850000, .i32⟩ : BufTy).Contents (Elt F) → (⟨S850000x1, .i32⟩ : BufTy).Contents (Elt F)),
    StableHlo.binary main_v29 main_v57 main_v58 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v51 main_v59 (broadcastInDim S850000x1 ![0] bcast_S850000_S850000x1_0 : (⟨S850000, .f32⟩ : BufTy).Contents (Elt F) → (⟨S850000x1, .f32⟩ : BufTy).Contents (Elt F)),
    StableHlo.unary main_v59 main_v60 (broadcastInDim S850000x256 ![0, 1] bcast_S850000x1_S850000x256_0_1 : (⟨S850000x1, .f32⟩ : BufTy).Contents (Elt F) → (⟨S850000x256, .f32⟩ : BufTy).Contents (Elt F)),
    StableHlo.binary main_v58 main_v60 main_v61 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v62 (broadcastInDim S50000x256 ![] bcast_S_S50000x256 : (⟨S_, .f32⟩ : BufTy).Contents (Elt F) → (⟨S50000x256, .f32⟩ : BufTy).Contents (Elt F)),
    StableHlo.unary main_v6 main_v63 (broadcastInDim S850000x1 ![0] bcast_S850000_S850000x1_0 : (⟨S850000, .i32⟩ : BufTy).Contents (Elt F) → (⟨S850000x1, .i32⟩ : BufTy).Contents (Elt F)),
    StableHlo.ternary main_v62 main_v63 main_v61 main_v64 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg11 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v66 main_v67 (addf : (⟨S50000x256, .f32⟩ : BufTy).Contents (Elt F) → (⟨S50000x256, .f32⟩ : BufTy).Contents (Elt F) → (⟨S50000x256, .f32⟩ : BufTy).Contents (Elt F)),
    StableHlo.nullary main_cst_12 (constant S_ .f32 0x3C23D70A#32),
    TRef.nullary main_call4.cst (constant S_ .f32 0x00000000#32),
    TRef.unary main_call4.cst main_call4.v0 (broadcastInDim S50000x256 ![] bcast_S_S50000x256),
    TRef.binary (.of main_v67 : TRef sig ⟨S50000x256, .f32⟩) main_call4.v0 main_call4.v1 (cmpf .oge),
    TRef.unary (.of main_cst_12 : TRef sig ⟨S_, .f32⟩) main_call4.v2 id,
    TRef.unary main_call4.v2 main_call4.v3 (broadcastInDim S50000x256 ![] bcast_S_S50000x256),
    TRef.binary main_call4.v3 (.of main_v67 : TRef sig ⟨S50000x256, .f32⟩) main_call4.v4 mulf,
    TRef.ternary main_call4.v1 (.of main_v67 : TRef sig ⟨S50000x256, .f32⟩) main_call4.v4 main_call4.call0.v0 select,
    StableHlo.binary main_v68 main_arg12 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

set_option maxRecDepth 16384 in
set_option maxHeartbeats 4000000 in
/-- Operations 116 … 144 of the list. -/
def sD : List (HloOp τ sig (Elt F)) :=
  [ StableHlo.nullary main_cst_13 (constant S_ .f32 0x3F800000#32),
    StableHlo.unary main_cst_13 main_v70 (broadcastInDim S850000 ![] bcast_S_S850000 : (⟨S_, .f32⟩ : BufTy).Contents (Elt F) → (⟨S850000, .f32⟩ : BufTy).Contents (Elt F)),
    StableHlo.nullary main_cst_14 (constant S_ .f32 0x00000000#32),
    StableHlo.unary main_cst_14 main_v71 (broadcastInDim S50000 ![] bcast_S_S50000 : (⟨S_, .f32⟩ : BufTy).Contents (Elt F) → (⟨S50000, .f32⟩ : BufTy).Contents (Elt F)),
    StableHlo.unary main_v6 main_v72 (broadcastInDim S850000x1 ![0] bcast_S850000_S850000x1_0 : (⟨S850000, .i32⟩ : BufTy).Contents (Elt F) → (⟨S850000x1, .i32⟩ : BufTy).Contents (Elt F)),
    StableHlo.ternary main_v71 main_v72 main_v70 main_v73 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_15 (constant S_ .f32 0x2B8CBCCC#32),
    StableHlo.unary main_cst_15 main_v74 (broadcastInDim S50000 ![] bcast_S_S50000 : (⟨S_, .f32⟩ : BufTy).Contents (Elt F) → (⟨S50000, .f32⟩ : BufTy).Contents (Elt F)),
    StableHlo.binary main_v73 main_v74 main_v75 (maximumf : (⟨S50000, .f32⟩ : BufTy).Contents (Elt F) → (⟨S50000, .f32⟩ : BufTy).Contents (Elt F) → (⟨S50000, .f32⟩ : BufTy).Contents (Elt F)),
    StableHlo.unary main_v75 main_v76 (Host.rsqrt : (⟨S50000, .f32⟩ : BufTy).Contents (Elt F) → (⟨S50000, .f32⟩ : BufTy).Contents (Elt F)),
    StableHlo.nullary main_c_16 (constantI S_ 32 0#32),
    StableHlo.unary main_c_16 main_v77 (broadcastInDim S850000 ![] bcast_S_S850000 : (⟨S_, .i32⟩ : BufTy).Contents (Elt F) → (⟨S850000, .i32⟩ : BufTy).Contents (Elt F)),
    StableHlo.binary main_v3 main_v77 main_v78 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v79 (broadcastInDim S850000 ![] bcast_S_S850000 : (⟨S_, .i32⟩ : BufTy).Contents (Elt F) → (⟨S850000, .i32⟩ : BufTy).Contents (Elt F)),
    StableHlo.binary main_v3 main_v79 main_v80 (addi : (⟨S850000, .i32⟩ : BufTy).Contents (Elt F) → (⟨S850000, .i32⟩ : BufTy).Contents (Elt F) → (⟨S850000, .i32⟩ : BufTy).Contents (Elt F)),
    StableHlo.ternary main_v78 main_v80 main_v3 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v81 main_v82 (broadcastInDim S850000x1 ![0] bcast_S850000_S850000x1_0 : (⟨S850000, .i32⟩ : BufTy).Contents (Elt F) → (⟨S850000x1, .i32⟩ : BufTy).Contents (Elt F)),
    StableHlo.binary main_v76 main_v82 main_v83 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_18 (constantI S_ 32 0#32),
    StableHlo.unary main_c_18 main_v84 (broadcastInDim S850000 ![] bcast_S_S850000 : (⟨S_, .i32⟩ : BufTy).Contents (Elt F) → (⟨S850000, .i32⟩ : BufTy).Contents (Elt F)),
    StableHlo.binary main_v6 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v86 (broadcastInDim S850000 ![] bcast_S_S850000 : (⟨S_, .i32⟩ : BufTy).Contents (Elt F) → (⟨S850000, .i32⟩ : BufTy).Contents (Elt F)),
    StableHlo.binary main_v6 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v6 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v76 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v83 main_v90 main_v91 (mulf : (⟨S850000, .f32⟩ : BufTy).Contents (Elt F) → (⟨S850000, .f32⟩ : BufTy).Contents (Elt F) → (⟨S850000, .f32⟩ : BufTy).Contents (Elt F)) ]

set_option maxRecDepth 16384 in
set_option maxHeartbeats 4000000 in
/-- Operations 145 … 171 of the list. -/
def sE : List (HloOp τ sig (Elt F)) :=
  [ StableHlo.nullary main_c_20 (constantI S_ 32 0#32),
    StableHlo.unary main_c_20 main_v92 (broadcastInDim S850000 ![] bcast_S_S850000 : (⟨S_, .i32⟩ : BufTy).Contents (Elt F) → (⟨S850000, .i32⟩ : BufTy).Contents (Elt F)),
    StableHlo.binary main_v3 main_v92 main_v93 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v94 (broadcastInDim S850000 ![] bcast_S_S850000 : (⟨S_, .i32⟩ : BufTy).Contents (Elt F) → (⟨S850000, .i32⟩ : BufTy).Contents (Elt F)),
    StableHlo.binary main_v3 main_v94 main_v95 (addi : (⟨S850000, .i32⟩ : BufTy).Contents (Elt F) → (⟨S850000, .i32⟩ : BufTy).Contents (Elt F) → (⟨S850000, .i32⟩ : BufTy).Contents (Elt F)),
    StableHlo.ternary main_v93 main_v95 main_v3 main_v96 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v96 main_v97 (broadcastInDim S850000x1 ![0] bcast_S850000_S850000x1_0 : (⟨S850000, .i32⟩ : BufTy).Contents (Elt F) → (⟨S850000x1, .i32⟩ : BufTy).Contents (Elt F)),
    StableHlo.binary main_v69 main_v97 main_v98 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v91 main_v99 (broadcastInDim S850000x1 ![0] bcast_S850000_S850000x1_0 : (⟨S850000, .f32⟩ : BufTy).Contents (Elt F) → (⟨S850000x1, .f32⟩ : BufTy).Contents (Elt F)),
    StableHlo.unary main_v99 main_v100 (broadcastInDim S850000x256 ![0, 1] bcast_S850000x1_S850000x256_0_1 : (⟨S850000x1, .f32⟩ : BufTy).Contents (Elt F) → (⟨S850000x256, .f32⟩ : BufTy).Contents (Elt F)),
    StableHlo.binary main_v98 main_v100 main_v101 (mulf : (⟨S850000x256, .f32⟩ : BufTy).Contents (Elt F) → (⟨S850000x256, .f32⟩ : BufTy).Contents (Elt F) → (⟨S850000x256, .f32⟩ : BufTy).Contents (Elt F)),
    StableHlo.nullary main_cst_22 (constant S_ .f32 0x00000000#32),
    StableHlo.unary main_cst_22 main_v102 (broadcastInDim S50000x256 ![] bcast_S_S50000x256 : (⟨S_, .f32⟩ : BufTy).Contents (Elt F) → (⟨S50000x256, .f32⟩ : BufTy).Contents (Elt F)),
    StableHlo.unary main_v6 main_v103 (broadcastInDim S850000x1 ![0] bcast_S850000_S850000x1_0 : (⟨S850000, .i32⟩ : BufTy).Contents (Elt F) → (⟨S850000x1, .i32⟩ : BufTy).Contents (Elt F)),
    StableHlo.ternary main_v102 main_v103 main_v101 main_v104 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg13 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S50000x256 ![0, 1] bcast_S1x256_S50000x256_0_1 : (⟨S1x256, .f32⟩ : BufTy).Contents (Elt F) → (⟨S50000x256, .f32⟩ : BufTy).Contents (Elt F)),
    StableHlo.binary main_v104 main_v106 main_v107 (addf : (⟨S50000x256, .f32⟩ : BufTy).Contents (Elt F) → (⟨S50000x256, .f32⟩ : BufTy).Contents (Elt F) → (⟨S50000x256, .f32⟩ : BufTy).Contents (Elt F)),
    StableHlo.nullary main_cst_23 (constant S_ .f32 0x3C23D70A#32),
    TRef.nullary main_call5.cst (constant S_ .f32 0x00000000#32),
    TRef.unary main_call5.cst main_call5.v0 (broadcastInDim S50000x256 ![] bcast_S_S50000x256),
    TRef.binary (.of main_v107 : TRef sig ⟨S50000x256, .f32⟩) main_call5.v0 main_call5.v1 (cmpf .oge),
    TRef.unary (.of main_cst_23 : TRef sig ⟨S_, .f32⟩) main_call5.v2 id,
    TRef.unary main_call5.v2 main_call5.v3 (broadcastInDim S50000x256 ![] bcast_S_S50000x256),
    TRef.binary main_call5.v3 (.of main_v107 : TRef sig ⟨S50000x256, .f32⟩) main_call5.v4 mulf,
    TRef.ternary main_call5.v1 (.of main_v107 : TRef sig ⟨S50000x256, .f32⟩) main_call5.v4 main_call5.call0.v0 select ]

set_option maxRecDepth 16384 in
set_option maxHeartbeats 4000000 in
/-- Operations 172 … 184 of the list. -/
def sF : List (HloOp τ sig (Elt F)) :=
  [ StableHlo.nary ![main_v11, main_v17, main_v23, main_v108] main_v109 (fun u => concatenate S50000x1024 1 [⟨S50000x256, u 0⟩, ⟨S50000x256, u 1⟩, ⟨S50000x256, u 2⟩, ⟨S50000x256, u 3⟩] concatenates_S50000x256_S50000x256_S50000x256_S50000x256_S50000x1024_d1),
    StableHlo.binary main_v109 main_arg14 main_v110 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    StableHlo.unary main_arg15 main_v111 (broadcastInDim S1x512 ![1] bcast_S512_S1x512_1 : (⟨S512, .f32⟩ : BufTy).Contents (Elt F) → (⟨S1x512, .f32⟩ : BufTy).Contents (Elt F)),
    StableHlo.unary main_v111 main_v112 (broadcastInDim S50000x512 ![0, 1] bcast_S1x512_S50000x512_0_1 : (⟨S1x512, .f32⟩ : BufTy).Contents (Elt F) → (⟨S50000x512, .f32⟩ : BufTy).Contents (Elt F)),
    StableHlo.binary main_v110 main_v112 main_v113 (addf : (⟨S50000x512, .f32⟩ : BufTy).Contents (Elt F) → (⟨S50000x512, .f32⟩ : BufTy).Contents (Elt F) → (⟨S50000x512, .f32⟩ : BufTy).Contents (Elt F)),
    StableHlo.nullary main_cst_24 (constant S_ .f32 0x3C23D70A#32),
    TRef.nullary main_call6.cst (constant S_ .f32 0x00000000#32),
    TRef.unary main_call6.cst main_call6.v0 (broadcastInDim S50000x512 ![] bcast_S_S50000x512),
    TRef.binary (.of main_v113 : TRef sig ⟨S50000x512, .f32⟩) main_call6.v0 main_call6.v1 (cmpf .oge),
    TRef.unary (.of main_cst_24 : TRef sig ⟨S_, .f32⟩) main_call6.v2 id,
    TRef.unary main_call6.v2 main_call6.v3 (broadcastInDim S50000x512 ![] bcast_S_S50000x512),
    TRef.binary main_call6.v3 (.of main_v113 : TRef sig ⟨S50000x512, .f32⟩) main_call6.v4 mulf,
    TRef.ternary main_call6.v1 (.of main_v113 : TRef sig ⟨S50000x512, .f32⟩) main_call6.v4 main_call6.call0.v0 select ]

set_option maxRecDepth 16384 in
set_option maxHeartbeats 4000000 in
/-- Operations 185 … 209 of the list. -/
def sG : List (HloOp τ sig (Elt F)) :=
  [ StableHlo.binary main_v114 main_arg16 main_v115 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg17 main_v116 (broadcastInDim S1x256 ![1] bcast_S256_S1x256_1 : (⟨S256, .f32⟩ : BufTy).Contents (Elt F) → (⟨S1x256, .f32⟩ : BufTy).Contents (Elt F)),
    StableHlo.unary main_v116 main_v117 (broadcastInDim S50000x256 ![0, 1] bcast_S1x256_S50000x256_0_1 : (⟨S1x256, .f32⟩ : BufTy).Contents (Elt F) → (⟨S50000x256, .f32⟩ : BufTy).Contents (Elt F)),
    StableHlo.binary main_v115 main_v117 main_v118 (addf : (⟨S50000x256, .f32⟩ : BufTy).Contents (Elt F) → (⟨S50000x256, .f32⟩ : BufTy).Contents (Elt F) → (⟨S50000x256, .f32⟩ : BufTy).Contents (Elt F)),
    StableHlo.nullary main_cst_25 (constant S_ .f32 0x3C23D70A#32),
    TRef.nullary main_call7.cst (constant S_ .f32 0x00000000#32),
    TRef.unary main_call7.cst main_call7.v0 (broadcastInDim S50000x256 ![] bcast_S_S50000x256),
    TRef.binary (.of main_v118 : TRef sig ⟨S50000x256, .f32⟩) main_call7.v0 main_call7.v1 (cmpf .oge),
    TRef.unary (.of main_cst_25 : TRef sig ⟨S_, .f32⟩) main_call7.v2 id,
    TRef.unary main_call7.v2 main_call7.v3 (broadcastInDim S50000x256 ![] bcast_S_S50000x256),
    TRef.binary main_call7.v3 (.of main_v118 : TRef sig ⟨S50000x256, .f32⟩) main_call7.v4 mulf,
    TRef.ternary main_call7.v1 (.of main_v118 : TRef sig ⟨S50000x256, .f32⟩) main_call7.v4 main_call7.call0.v0 select,
    StableHlo.binary main_v119 main_arg18 main_v120 ((fun l r => Host.dotGeneral dot_S50000x256_S256x1_S50000x1_1_0_0_1_n_n none l r) : (⟨S50000x256, .f32⟩ : BufTy).Contents (Elt F) → (⟨S256x1, .f32⟩ : BufTy).Contents (Elt F) → (⟨S50000x1, .f32⟩ : BufTy).Contents (Elt F)),
    StableHlo.unary main_arg19 main_v121 (broadcastInDim S1x1 ![1] bcast_S1_S1x1_1 : (⟨S1, .f32⟩ : BufTy).Contents (Elt F) → (⟨S1x1, .f32⟩ : BufTy).Contents (Elt F)),
    StableHlo.unary main_v121 main_v122 (broadcastInDim S50000x1 ![0, 1] bcast_S1x1_S50000x1_0_1 : (⟨S1x1, .f32⟩ : BufTy).Contents (Elt F) → (⟨S50000x1, .f32⟩ : BufTy).Contents (Elt F)),
    StableHlo.binary main_v120 main_v122 main_v123 (addf : (⟨S50000x1, .f32⟩ : BufTy).Contents (Elt F) → (⟨S50000x1, .f32⟩ : BufTy).Contents (Elt F) → (⟨S50000x1, .f32⟩ : BufTy).Contents (Elt F)),
    StableHlo.unary main_v123 main_v124 (Host.negf : (⟨S50000x1, .f32⟩ : BufTy).Contents (Elt F) → (⟨S50000x1, .f32⟩ : BufTy).Contents (Elt F)),
    StableHlo.unary main_v124 main_v125 (Host.exp : (⟨S50000x1, .f32⟩ : BufTy).Contents (Elt F) → (⟨S50000x1, .f32⟩ : BufTy).Contents (Elt F)),
    StableHlo.nullary main_cst_26 (constant S_ .f32 0x3F800000#32),
    StableHlo.unary main_cst_26 main_v126 (broadcastInDim S50000x1 ![] bcast_S_S50000x1 : (⟨S_, .f32⟩ : BufTy).Contents (Elt F) → (⟨S50000x1, .f32⟩ : BufTy).Contents (Elt F)),
    StableHlo.binary main_v126 main_v125 main_v127 (addf : (⟨S50000x1, .f32⟩ : BufTy).Contents (Elt F) → (⟨S50000x1, .f32⟩ : BufTy).Contents (Elt F) → (⟨S50000x1, .f32⟩ : BufTy).Contents (Elt F)),
    StableHlo.nullary main_cst_27 (constant S_ .f32 0x3F800000#32),
    StableHlo.unary main_cst_27 main_v128 (broadcastInDim S50000x1 ![] bcast_S_S50000x1 : (⟨S_, .f32⟩ : BufTy).Contents (Elt F) → (⟨S50000x1, .f32⟩ : BufTy).Contents (Elt F)),
    StableHlo.binary main_v128 main_v127 main_v129 (Host.divf : (⟨S50000x1, .f32⟩ : BufTy).Contents (Elt F) → (⟨S50000x1, .f32⟩ : BufTy).Contents (Elt F) → (⟨S50000x1, .f32⟩ : BufTy).Contents (Elt F)),
    StableHlo.reshape main_v129 main_v130 rfl shapeCasts_S50000x1_S50000 ]

/-- The fold over two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 16384 in
set_option maxHeartbeats 4000000 in
/-- The list is its seven stretches in order. -/
theorem ops_split : (ops : List (HloOp τ sig (Elt F))) = sA ++ (sB ++ (sC ++ (sD ++ (sE ++ (sF ++ sG))))) := rfl

/-- The fold over the whole list is the folds over the stretches, in order. -/
theorem after_ops (V : Valuation τ sig (Elt F)) :
    after ops V = after sG (after sF (after sE (after sD (after sC (after sB (after sA V)))))) := by
  rw [ops_split, after_append, after_append, after_append, after_append, after_append, after_append]

/-! ## What each stretch leaves in the buffers read later, from any contents `W` before it -/

attribute [local irreducible] Host.scatterAdd Host.gather Host.rsqrt Host.exp Host.negf Host.divf concatenate extractStridedSlice shapeCast broadcastInDim in
set_option maxRecDepth 16384 in
set_option maxHeartbeats 2000000 in
/-- The sources. -/
theorem sA_v3 (W : Valuation τ sig (Elt F)) :
    after sA W (main_v3 : DevRef τ sig) = Cert.Gnn.src (F := F) (W main_arg20) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The destinations. -/
theorem sA_v6 (W : Valuation τ sig (Elt F)) :
    after sA W (main_v6 : DevRef τ sig) = Cert.Gnn.dst (F := F) (W main_arg20) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The first dense layer. -/
theorem sA_v11 (W : Valuation τ sig (Elt F)) :
    after sA W (main_v11 : DevRef τ sig) = Cert.Gnn.xd (F := F) (W main_arg0) (W main_arg2) (W main_arg3) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The second. -/
theorem sA_v17 (W : Valuation τ sig (Elt F)) :
    after sA W (main_v17 : DevRef τ sig) = Cert.Gnn.xc1 (F := F) (W main_arg1) (W main_arg4) (W main_arg5) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The third. -/
theorem sA_v23 (W : Valuation τ sig (Elt F)) :
    after sA W (main_v23 : DevRef τ sig) = Cert.Gnn.xc2 (F := F) (W main_arg1) (W main_arg6) (W main_arg7) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- What enters the first propagation. -/
theorem sA_v29 (W : Valuation τ sig (Elt F)) :
    after sA W (main_v29 : DevRef τ sig) = Cert.Gnn.xw1 (F := F) (W main_arg0) (W main_arg8) (W main_arg9) (W main_arg10) := by
  unfold sA
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The edges' weights, first time. -/
theorem sB_v51 (W : Valuation τ sig (Elt F)) :
    after sB W (main_v51 : DevRef τ sig) = normOf (F := F) (W main_v3) (W main_v6) := by
  unfold sB
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The first propagation and the layer after it: what enters the second. -/
theorem sC_v69 (W : Valuation τ sig (Elt F)) :
    after sC W (main_v69 : DevRef τ sig) = Cert.Gnn.xw2 (F := F) (aggOf (F := F) (W main_v3) (W main_v6) (W main_v51) (W main_v29)) (W main_arg11) (W main_arg12) := by
  unfold sC
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The edges' weights, second time. -/
theorem sD_v91 (W : Valuation τ sig (Elt F)) :
    after sD W (main_v91 : DevRef τ sig) = normOf (F := F) (W main_v3) (W main_v6) := by
  unfold sD
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The second propagation, rectified: the fourth piece. -/
theorem sE_v108 (W : Valuation τ sig (Elt F)) :
    after sE W (main_v108 : DevRef τ sig) = Cert.Gnn.leaky (F := F) S50000x256 bcast_S_S50000x256 (addf (aggOf (F := F) (W main_v3) (W main_v6) (W main_v91) (W main_v69)) (Cert.Gnn.rows256 (F := F) (W main_arg13))) := by
  unfold sE
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The hidden array of the four pieces. -/
theorem sF_v114 (W : Valuation τ sig (Elt F)) :
    after sF W (main_v114 : DevRef τ sig) = hidOf (F := F) (W main_v11) (W main_v17) (W main_v23) (W main_v108) (W main_arg14) (W main_arg15) := by
  unfold sF
  simp only [after_cons, after_nil]
  rfl

attribute [local irreducible] Host.scatterAdd Host.gather Host.rsqrt Host.exp Host.negf Host.divf concatenate extractStridedSlice shapeCast broadcastInDim in
set_option maxRecDepth 16384 in
set_option maxHeartbeats 2000000 in
/-- The scores of the hidden array. -/
theorem sG_v130 (W : Valuation τ sig (Elt F)) :
    after sG W (main_v130 : DevRef τ sig) = shapeCast S50000 (Cert.Gnn.score (F := F) (W main_v114) (W main_arg16) (W main_arg17) (W main_arg18) (W main_arg19)) shapeCasts_S50000x1_S50000 := by
  unfold sG
  simp only [after_cons, after_nil]
  rfl

/-! ## The buffers a stretch does not write keep their contents -/

set_option maxRecDepth 16384 in
set_option maxHeartbeats 2000000 in
theorem sA_keeps_arg11 (W : Valuation τ sig (Elt F)) : after sA W (main_arg11 : DevRef τ sig) = W (main_arg11 : DevRef τ sig) := by
  unfold sA
  simp only [after_cons, after_nil]
  rfl

set_option maxRecDepth 16384 in
set_option maxHeartbeats 2000000 in
theorem sA_keeps_arg12 (W : Valuation τ sig (Elt F)) : after sA W (main_arg12 : DevRef τ sig) = W (main_arg12 : DevRef τ sig) := by
  unfold sA
  simp only [after_cons, after_nil]
  rfl

set_option maxRecDepth 16384 in
set_option maxHeartbeats 2000000 in
theorem sA_keeps_arg13 (W : Valuation τ sig (Elt F)) : after sA W (main_arg13 : DevRef τ sig) = W (main_arg13 : DevRef τ sig) := by
  unfold sA
  simp only [after_cons, after_nil]
  rfl

set_option maxRecDepth 16384 in
set_option maxHeartbeats 2000000 in
theorem sA_keeps_arg14 (W : Valuation τ sig (Elt F)) : after sA W (main_arg14 : DevRef τ sig) = W (main_arg14 : DevRef τ sig) := by
  unfold sA
  simp only [after_cons, after_nil]
  rfl

set_option maxRecDepth 16384 in
set_option maxHeartbeats 2000000 in
theorem sA_keeps_arg15 (W : Valuation τ sig (Elt F)) : after sA W (main_arg15 : DevRef τ sig) = W (main_arg15 : DevRef τ sig) := by
  unfold sA
  simp only [after_cons, after_nil]
  rfl

set_option maxRecDepth 16384 in
set_option maxHeartbeats 2000000 in
theorem sA_keeps_arg16 (W : Valuation τ sig (Elt F)) : after sA W (main_arg16 : DevRef τ sig) = W (main_arg16 : DevRef τ sig) := by
  unfold sA
  simp only [after_cons, after_nil]
  rfl

set_option maxRecDepth 16384 in
set_option maxHeartbeats 2000000 in
theorem sA_keeps_arg17 (W : Valuation τ sig (Elt F)) : after sA W (main_arg17 : DevRef τ sig) = W (main_arg17 : DevRef τ sig) := by
  unfold sA
  simp only [after_cons, after_nil]
  rfl

set_option maxRecDepth 16384 in
set_option maxHeartbeats 2000000 in
theorem sA_keeps_arg18 (W : Valuation τ sig (Elt F)) : after sA W (main_arg18 : DevRef τ sig) = W (main_arg18 : DevRef τ sig) := by
  unfold sA
  simp only [after_cons, after_nil]
  rfl

set_option maxRecDepth 16384 in
set_option maxHeartbeats 2000000 in
theorem sA_keeps_arg19 (W : Valuation τ sig (Elt F)) : after sA W (main_arg19 : DevRef τ sig) = W (main_arg19 : DevRef τ sig) := by
  unfold sA
  simp only [after_cons, after_nil]
  rfl

set_option maxRecDepth 16384 in
set_option maxHeartbeats 2000000 in
theorem sB_keeps_v3 (W : Valuation τ sig (Elt F)) : after sB W (main_v3 : DevRef τ sig) = W (main_v3 : DevRef τ sig) := by
  unfold sB
  simp only [after_cons, after_nil]
  rfl

set_option maxRecDepth 16384 in
set_option maxHeartbeats 2000000 in
theorem sB_keeps_v6 (W : Valuation τ sig (Elt F)) : after sB W (main_v6 : DevRef τ sig) = W (main_v6 : DevRef τ sig) := by
  unfold sB
  simp only [after_cons, after_nil]
  rfl

set_option maxRecDepth 16384 in
set_option maxHeartbeats 2000000 in
theorem sB_keeps_v11 (W : Valuation τ sig (Elt F)) : after sB W (main_v11 : DevRef τ sig) = W (main_v11 : DevRef τ sig) := by
  unfold sB
  simp only [after_cons, after_nil]
  rfl

set_option maxRecDepth 16384 in
set_option maxHeartbeats 2000000 in
theorem sB_keeps_v17 (W : Valuation τ sig (Elt F)) : after sB W (main_v17 : DevRef τ sig) = W (main_v17 : DevRef τ sig) := by
  unfold sB
  simp only [after_cons, after_nil]
  rfl

set_option maxRecDepth 16384 in
set_option maxHeartbeats 2000000 in
theorem sB_keeps_v23 (W : Valuation τ sig (Elt F)) : after sB W (main_v23 : DevRef τ sig) = W (main_v23 : DevRef τ sig) := by
  unfold sB
  simp only [after_cons, after_nil]
  rfl

set_option maxRecDepth 16384 in
set_option maxHeartbeats 2000000 in
theorem sB_keeps_v29 (W : Valuation τ sig (Elt F)) : after sB W (main_v29 : DevRef τ sig) = W (main_v29 : DevRef τ sig) := by
  unfold sB
  simp only [after_cons, after_nil]
  rfl

set_option maxRecDepth 16384 in
set_option maxHeartbeats 2000000 in
theorem sB_keeps_arg11 (W : Valuation τ sig (Elt F)) : after sB W (main_arg11 : DevRef τ sig) = W (main_arg11 : DevRef τ sig) := by
  unfold sB
  simp only [after_cons, after_nil]
  rfl

set_option maxRecDepth 16384 in
set_option maxHeartbeats 2000000 in
theorem sB_keeps_arg12 (W : Valuation τ sig (Elt F)) : after sB W (main_arg12 : DevRef τ sig) = W (main_arg12 : DevRef τ sig) := by
  unfold sB
  simp only [after_cons, after_nil]
  rfl

set_option maxRecDepth 16384 in
set_option maxHeartbeats 2000000 in
theorem sB_keeps_arg13 (W : Valuation τ sig (Elt F)) : after sB W (main_arg13 : DevRef τ sig) = W (main_arg13 : DevRef τ sig) := by
  unfold sB
  simp only [after_cons, after_nil]
  rfl

set_option maxRecDepth 16384 in
set_option maxHeartbeats 2000000 in
theorem sB_keeps_arg14 (W : Valuation τ sig (Elt F)) : after sB W (main_arg14 : DevRef τ sig) = W (main_arg14 : DevRef τ sig) := by
  unfold sB
  simp only [after_cons, after_nil]
  rfl

set_option maxRecDepth 16384 in
set_option maxHeartbeats 2000000 in
theorem sB_keeps_arg15 (W : Valuation τ sig (Elt F)) : after sB W (main_arg15 : DevRef τ sig) = W (main_arg15 : DevRef τ sig) := by
  unfold sB
  simp only [after_cons, after_nil]
  rfl

set_option maxRecDepth 16384 in
set_option maxHeartbeats 2000000 in
theorem sB_keeps_arg16 (W : Valuation τ sig (Elt F)) : after sB W (main_arg16 : DevRef τ sig) = W (main_arg16 : DevRef τ sig) := by
  unfold sB
  simp only [after_cons, after_nil]
  rfl

set_option maxRecDepth 16384 in
set_option maxHeartbeats 2000000 in
theorem sB_keeps_arg17 (W : Valuation τ sig (Elt F)) : after sB W (main_arg17 : DevRef τ sig) = W (main_arg17 : DevRef τ sig) := by
  unfold sB
  simp only [after_cons, after_nil]
  rfl

set_option maxRecDepth 16384 in
set_option maxHeartbeats 2000000 in
theorem sB_keeps_arg18 (W : Valuation τ sig (Elt F)) : after sB W (main_arg18 : DevRef τ sig) = W (main_arg18 : DevRef τ sig) := by
  unfold sB
  simp only [after_cons, after_nil]
  rfl

set_option maxRecDepth 16384 in
set_option maxHeartbeats 2000000 in
theorem sB_keeps_arg19 (W : Valuation τ sig (Elt F)) : after sB W (main_arg19 : DevRef τ sig) = W (main_arg19 : DevRef τ sig) := by
  unfold sB
  simp only [after_cons, after_nil]
  rfl

set_option maxRecDepth 16384 in
set_option maxHeartbeats 2000000 in
theorem sC_keeps_v3 (W : Valuation τ sig (Elt F)) : after sC W (main_v3 : DevRef τ sig) = W (main_v3 : DevRef τ sig) := by
  unfold sC
  simp only [after_cons, after_nil]
  rfl

set_option maxRecDepth 16384 in
set_option maxHeartbeats 2000000 in
theorem sC_keeps_v6 (W : Valuation τ sig (Elt F)) : after sC W (main_v6 : DevRef τ sig) = W (main_v6 : DevRef τ sig) := by
  unfold sC
  simp only [after_cons, after_nil]
  rfl

set_option maxRecDepth 16384 in
set_option maxHeartbeats 2000000 in
theorem sC_keeps_v11 (W : Valuation τ sig (Elt F)) : after sC W (main_v11 : DevRef τ sig) = W (main_v11 : DevRef τ sig) := by
  unfold sC
  simp only [after_cons, after_nil]
  rfl

set_option maxRecDepth 16384 in
set_option maxHeartbeats 2000000 in
theorem sC_keeps_v17 (W : Valuation τ sig (Elt F)) : after sC W (main_v17 : DevRef τ sig) = W (main_v17 : DevRef τ sig) := by
  unfold sC
  simp only [after_cons, after_nil]
  rfl

set_option maxRecDepth 16384 in
set_option maxHeartbeats 2000000 in
theorem sC_keeps_v23 (W : Valuation τ sig (Elt F)) : after sC W (main_v23 : DevRef τ sig) = W (main_v23 : DevRef τ sig) := by
  unfold sC
  simp only [after_cons, after_nil]
  rfl

set_option maxRecDepth 16384 in
set_option maxHeartbeats 2000000 in
theorem sC_keeps_arg13 (W : Valuation τ sig (Elt F)) : after sC W (main_arg13 : DevRef τ sig) = W (main_arg13 : DevRef τ sig) := by
  unfold sC
  simp only [after_cons, after_nil]
  rfl

set_option maxRecDepth 16384 in
set_option maxHeartbeats 2000000 in
theorem sC_keeps_arg14 (W : Valuation τ sig (Elt F)) : after sC W (main_arg14 : DevRef τ sig) = W (main_arg14 : DevRef τ sig) := by
  unfold sC
  simp only [after_cons, after_nil]
  rfl

set_option maxRecDepth 16384 in
set_option maxHeartbeats 2000000 in
theorem sC_keeps_arg15 (W : Valuation τ sig (Elt F)) : after sC W (main_arg15 : DevRef τ sig) = W (main_arg15 : DevRef τ sig) := by
  unfold sC
  simp only [after_cons, after_nil]
  rfl

set_option maxRecDepth 16384 in
set_option maxHeartbeats 2000000 in
theorem sC_keeps_arg16 (W : Valuation τ sig (Elt F)) : after sC W (main_arg16 : DevRef τ sig) = W (main_arg16 : DevRef τ sig) := by
  unfold sC
  simp only [after_cons, after_nil]
  rfl

set_option maxRecDepth 16384 in
set_option maxHeartbeats 2000000 in
theorem sC_keeps_arg17 (W : Valuation τ sig (Elt F)) : after sC W (main_arg17 : DevRef τ sig) = W (main_arg17 : DevRef τ sig) := by
  unfold sC
  simp only [after_cons, after_nil]
  rfl

set_option maxRecDepth 16384 in
set_option maxHeartbeats 2000000 in
theorem sC_keeps_arg18 (W : Valuation τ sig (Elt F)) : after sC W (main_arg18 : DevRef τ sig) = W (main_arg18 : DevRef τ sig) := by
  unfold sC
  simp only [after_cons, after_nil]
  rfl

set_option maxRecDepth 16384 in
set_option maxHeartbeats 2000000 in
theorem sC_keeps_arg19 (W : Valuation τ sig (Elt F)) : after sC W (main_arg19 : DevRef τ sig) = W (main_arg19 : DevRef τ sig) := by
  unfold sC
  simp only [after_cons, after_nil]
  rfl

set_option maxRecDepth 16384 in
set_option maxHeartbeats 2000000 in
theorem sD_keeps_v3 (W : Valuation τ sig (Elt F)) : after sD W (main_v3 : DevRef τ sig) = W (main_v3 : DevRef τ sig) := by
  unfold sD
  simp only [after_cons, after_nil]
  rfl

set_option maxRecDepth 16384 in
set_option maxHeartbeats 2000000 in
theorem sD_keeps_v6 (W : Valuation τ sig (Elt F)) : after sD W (main_v6 : DevRef τ sig) = W (main_v6 : DevRef τ sig) := by
  unfold sD
  simp only [after_cons, after_nil]
  rfl

set_option maxRecDepth 16384 in
set_option maxHeartbeats 2000000 in
theorem sD_keeps_v11 (W : Valuation τ sig (Elt F)) : after sD W (main_v11 : DevRef τ sig) = W (main_v11 : DevRef τ sig) := by
  unfold sD
  simp only [after_cons, after_nil]
  rfl

set_option maxRecDepth 16384 in
set_option maxHeartbeats 2000000 in
theorem sD_keeps_v17 (W : Valuation τ sig (Elt F)) : after sD W (main_v17 : DevRef τ sig) = W (main_v17 : DevRef τ sig) := by
  unfold sD
  simp only [after_cons, after_nil]
  rfl

set_option maxRecDepth 16384 in
set_option maxHeartbeats 2000000 in
theorem sD_keeps_v23 (W : Valuation τ sig (Elt F)) : after sD W (main_v23 : DevRef τ sig) = W (main_v23 : DevRef τ sig) := by
  unfold sD
  simp only [after_cons, after_nil]
  rfl

set_option maxRecDepth 16384 in
set_option maxHeartbeats 2000000 in
theorem sD_keeps_v69 (W : Valuation τ sig (Elt F)) : after sD W (main_v69 : DevRef τ sig) = W (main_v69 : DevRef τ sig) := by
  unfold sD
  simp only [after_cons, after_nil]
  rfl

set_option maxRecDepth 16384 in
set_option maxHeartbeats 2000000 in
theorem sD_keeps_arg13 (W : Valuation τ sig (Elt F)) : after sD W (main_arg13 : DevRef τ sig) = W (main_arg13 : DevRef τ sig) := by
  unfold sD
  simp only [after_cons, after_nil]
  rfl

set_option maxRecDepth 16384 in
set_option maxHeartbeats 2000000 in
theorem sD_keeps_arg14 (W : Valuation τ sig (Elt F)) : after sD W (main_arg14 : DevRef τ sig) = W (main_arg14 : DevRef τ sig) := by
  unfold sD
  simp only [after_cons, after_nil]
  rfl

set_option maxRecDepth 16384 in
set_option maxHeartbeats 2000000 in
theorem sD_keeps_arg15 (W : Valuation τ sig (Elt F)) : after sD W (main_arg15 : DevRef τ sig) = W (main_arg15 : DevRef τ sig) := by
  unfold sD
  simp only [after_cons, after_nil]
  rfl

set_option maxRecDepth 16384 in
set_option maxHeartbeats 2000000 in
theorem sD_keeps_arg16 (W : Valuation τ sig (Elt F)) : after sD W (main_arg16 : DevRef τ sig) = W (main_arg16 : DevRef τ sig) := by
  unfold sD
  simp only [after_cons, after_nil]
  rfl

set_option maxRecDepth 16384 in
set_option maxHeartbeats 2000000 in
theorem sD_keeps_arg17 (W : Valuation τ sig (Elt F)) : after sD W (main_arg17 : DevRef τ sig) = W (main_arg17 : DevRef τ sig) := by
  unfold sD
  simp only [after_cons, after_nil]
  rfl

set_option maxRecDepth 16384 in
set_option maxHeartbeats 2000000 in
theorem sD_keeps_arg18 (W : Valuation τ sig (Elt F)) : after sD W (main_arg18 : DevRef τ sig) = W (main_arg18 : DevRef τ sig) := by
  unfold sD
  simp only [after_cons, after_nil]
  rfl

set_option maxRecDepth 16384 in
set_option maxHeartbeats 2000000 in
theorem sD_keeps_arg19 (W : Valuation τ sig (Elt F)) : after sD W (main_arg19 : DevRef τ sig) = W (main_arg19 : DevRef τ sig) := by
  unfold sD
  simp only [after_cons, after_nil]
  rfl

set_option maxRecDepth 16384 in
set_option maxHeartbeats 2000000 in
theorem sE_keeps_v11 (W : Valuation τ sig (Elt F)) : after sE W (main_v11 : DevRef τ sig) = W (main_v11 : DevRef τ sig) := by
  unfold sE
  simp only [after_cons, after_nil]
  rfl

set_option maxRecDepth 16384 in
set_option maxHeartbeats 2000000 in
theorem sE_keeps_v17 (W : Valuation τ sig (Elt F)) : after sE W (main_v17 : DevRef τ sig) = W (main_v17 : DevRef τ sig) := by
  unfold sE
  simp only [after_cons, after_nil]
  rfl

set_option maxRecDepth 16384 in
set_option maxHeartbeats 2000000 in
theorem sE_keeps_v23 (W : Valuation τ sig (Elt F)) : after sE W (main_v23 : DevRef τ sig) = W (main_v23 : DevRef τ sig) := by
  unfold sE
  simp only [after_cons, after_nil]
  rfl

set_option maxRecDepth 16384 in
set_option maxHeartbeats 2000000 in
theorem sE_keeps_arg14 (W : Valuation τ sig (Elt F)) : after sE W (main_arg14 : DevRef τ sig) = W (main_arg14 : DevRef τ sig) := by
  unfold sE
  simp only [after_cons, after_nil]
  rfl

set_option maxRecDepth 16384 in
set_option maxHeartbeats 2000000 in
theorem sE_keeps_arg15 (W : Valuation τ sig (Elt F)) : after sE W (main_arg15 : DevRef τ sig) = W (main_arg15 : DevRef τ sig) := by
  unfold sE
  simp only [after_cons, after_nil]
  rfl

set_option maxRecDepth 16384 in
set_option maxHeartbeats 2000000 in
theorem sE_keeps_arg16 (W : Valuation τ sig (Elt F)) : after sE W (main_arg16 : DevRef τ sig) = W (main_arg16 : DevRef τ sig) := by
  unfold sE
  simp only [after_cons, after_nil]
  rfl

set_option maxRecDepth 16384 in
set_option maxHeartbeats 2000000 in
theorem sE_keeps_arg17 (W : Valuation τ sig (Elt F)) : after sE W (main_arg17 : DevRef τ sig) = W (main_arg17 : DevRef τ sig) := by
  unfold sE
  simp only [after_cons, after_nil]
  rfl

set_option maxRecDepth 16384 in
set_option maxHeartbeats 2000000 in
theorem sE_keeps_arg18 (W : Valuation τ sig (Elt F)) : after sE W (main_arg18 : DevRef τ sig) = W (main_arg18 : DevRef τ sig) := by
  unfold sE
  simp only [after_cons, after_nil]
  rfl

set_option maxRecDepth 16384 in
set_option maxHeartbeats 2000000 in
theorem sE_keeps_arg19 (W : Valuation τ sig (Elt F)) : after sE W (main_arg19 : DevRef τ sig) = W (main_arg19 : DevRef τ sig) := by
  unfold sE
  simp only [after_cons, after_nil]
  rfl

set_option maxRecDepth 16384 in
set_option maxHeartbeats 2000000 in
theorem sF_keeps_arg16 (W : Valuation τ sig (Elt F)) : after sF W (main_arg16 : DevRef τ sig) = W (main_arg16 : DevRef τ sig) := by
  unfold sF
  simp only [after_cons, after_nil]
  rfl

set_option maxRecDepth 16384 in
set_option maxHeartbeats 2000000 in
theorem sF_keeps_arg17 (W : Valuation τ sig (Elt F)) : after sF W (main_arg17 : DevRef τ sig) = W (main_arg17 : DevRef τ sig) := by
  unfold sF
  simp only [after_cons, after_nil]
  rfl

set_option maxRecDepth 16384 in
set_option maxHeartbeats 2000000 in
theorem sF_keeps_arg18 (W : Valuation τ sig (Elt F)) : after sF W (main_arg18 : DevRef τ sig) = W (main_arg18 : DevRef τ sig) := by
  unfold sF
  simp only [after_cons, after_nil]
  rfl

set_option maxRecDepth 16384 in
set_option maxHeartbeats 2000000 in
theorem sF_keeps_arg19 (W : Valuation τ sig (Elt F)) : after sF W (main_arg19 : DevRef τ sig) = W (main_arg19 : DevRef τ sig) := by
  unfold sF
  simp only [after_cons, after_nil]
  rfl

set_option maxRecDepth 16384 in
set_option maxHeartbeats 2000000 in
theorem sG_keeps_v114 (W : Valuation τ sig (Elt F)) : after sG W (main_v114 : DevRef τ sig) = W (main_v114 : DevRef τ sig) := by
  unfold sG
  simp only [after_cons, after_nil]
  rfl

/-! ## The results -/

attribute [local irreducible] Host.scatterAdd Host.gather Host.rsqrt Host.exp Host.negf Host.divf concatenate extractStridedSlice shapeCast broadcastInDim in
set_option maxRecDepth 16384 in
set_option maxHeartbeats 4000000 in
/-- The hidden array once the sixth stretch has run: each stretch's value read in the contents the stretches before it
    leave, down to the arguments; the term reached is `resH` by unfolding the definitions. -/
theorem hid_at (V : Valuation τ sig (Elt F)) :
    after sF (after sE (after sD (after sC (after sB (after sA V))))) (main_v114 : DevRef τ sig)
      = Cert.Gnn.resH (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg20) := by
  rw [sF_v114]
  rw [sE_keeps_v11, sE_keeps_v17, sE_keeps_v23, sE_v108, sE_keeps_arg14, sE_keeps_arg15]
  rw [sD_keeps_v11, sD_keeps_v17, sD_keeps_v23, sD_keeps_v3, sD_keeps_v6, sD_v91, sD_keeps_v69, sD_keeps_arg13, sD_keeps_arg14, sD_keeps_arg15]
  rw [sC_keeps_v11, sC_keeps_v17, sC_keeps_v23, sC_keeps_v3, sC_keeps_v6, sC_v69, sC_keeps_arg13, sC_keeps_arg14, sC_keeps_arg15]
  rw [sB_keeps_v11, sB_keeps_v17, sB_keeps_v23, sB_keeps_v3, sB_keeps_v6, sB_v51, sB_keeps_v29, sB_keeps_arg11, sB_keeps_arg12, sB_keeps_arg13, sB_keeps_arg14, sB_keeps_arg15]
  rw [sA_v11, sA_v17, sA_v23, sA_v3, sA_v6, sA_v29, sA_keeps_arg11, sA_keeps_arg12, sA_keeps_arg13, sA_keeps_arg14, sA_keeps_arg15]
  rfl

/-- The hidden array: the last stretch does not write it. -/
theorem hid_eq (V : Valuation τ sig (Elt F)) :
    after ops V (main_v114 : DevRef τ sig) = Cert.Gnn.resH (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg20) := by
  rw [after_ops, sG_keeps_v114]
  exact hid_at V

attribute [local irreducible] Host.scatterAdd Host.gather Host.rsqrt Host.exp Host.negf Host.divf concatenate extractStridedSlice shapeCast broadcastInDim in
set_option maxRecDepth 16384 in
set_option maxHeartbeats 4000000 in
/-- The scores: the last stretch's value of the hidden array and of the last four arguments. -/
theorem score_eq (V : Valuation τ sig (Elt F)) :
    after ops V (main_v130 : DevRef τ sig) = Cert.Gnn.resS (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) := by
  rw [after_ops, sG_v130, hid_at V]
  rw [sF_keeps_arg16, sF_keeps_arg17, sF_keeps_arg18, sF_keeps_arg19]
  rw [sE_keeps_arg16, sE_keeps_arg17, sE_keeps_arg18, sE_keeps_arg19]
  rw [sD_keeps_arg16, sD_keeps_arg17, sD_keeps_arg18, sD_keeps_arg19]
  rw [sC_keeps_arg16, sC_keeps_arg17, sC_keeps_arg18, sC_keeps_arg19]
  rw [sB_keeps_arg16, sB_keeps_arg17, sB_keeps_arg18, sB_keeps_arg19]
  rw [sA_keeps_arg16, sA_keeps_arg17, sA_keeps_arg18, sA_keeps_arg19]
  rfl

/-! ## No operation writes an argument's buffer -/

set_option maxRecDepth 16384 in
set_option maxHeartbeats 4000000 in
theorem arg0_eq (V : Valuation τ sig (Elt F)) : after ops V (main_arg0 : DevRef τ sig) = V (main_arg0 : DevRef τ sig) := by
  simp only [after_cons, after_nil]
  rfl

set_option maxRecDepth 16384 in
set_option maxHeartbeats 4000000 in
theorem arg1_eq (V : Valuation τ sig (Elt F)) : after ops V (main_arg1 : DevRef τ sig) = V (main_arg1 : DevRef τ sig) := by
  simp only [after_cons, after_nil]
  rfl

set_option maxRecDepth 16384 in
set_option maxHeartbeats 4000000 in
theorem arg2_eq (V : Valuation τ sig (Elt F)) : after ops V (main_arg2 : DevRef τ sig) = V (main_arg2 : DevRef τ sig) := by
  simp only [after_cons, after_nil]
  rfl

set_option maxRecDepth 16384 in
set_option maxHeartbeats 4000000 in
theorem arg3_eq (V : Valuation τ sig (Elt F)) : after ops V (main_arg3 : DevRef τ sig) = V (main_arg3 : DevRef τ sig) := by
  simp only [after_cons, after_nil]
  rfl

set_option maxRecDepth 16384 in
set_option maxHeartbeats 4000000 in
theorem arg4_eq (V : Valuation τ sig (Elt F)) : after ops V (main_arg4 : DevRef τ sig) = V (main_arg4 : DevRef τ sig) := by
  simp only [after_cons, after_nil]
  rfl

set_option maxRecDepth 16384 in
set_option maxHeartbeats 4000000 in
theorem arg5_eq (V : Valuation τ sig (Elt F)) : after ops V (main_arg5 : DevRef τ sig) = V (main_arg5 : DevRef τ sig) := by
  simp only [after_cons, after_nil]
  rfl

set_option maxRecDepth 16384 in
set_option maxHeartbeats 4000000 in
theorem arg6_eq (V : Valuation τ sig (Elt F)) : after ops V (main_arg6 : DevRef τ sig) = V (main_arg6 : DevRef τ sig) := by
  simp only [after_cons, after_nil]
  rfl

set_option maxRecDepth 16384 in
set_option maxHeartbeats 4000000 in
theorem arg7_eq (V : Valuation τ sig (Elt F)) : after ops V (main_arg7 : DevRef τ sig) = V (main_arg7 : DevRef τ sig) := by
  simp only [after_cons, after_nil]
  rfl

set_option maxRecDepth 16384 in
set_option maxHeartbeats 4000000 in
theorem arg8_eq (V : Valuation τ sig (Elt F)) : after ops V (main_arg8 : DevRef τ sig) = V (main_arg8 : DevRef τ sig) := by
  simp only [after_cons, after_nil]
  rfl

set_option maxRecDepth 16384 in
set_option maxHeartbeats 4000000 in
theorem arg9_eq (V : Valuation τ sig (Elt F)) : after ops V (main_arg9 : DevRef τ sig) = V (main_arg9 : DevRef τ sig) := by
  simp only [after_cons, after_nil]
  rfl

set_option maxRecDepth 16384 in
set_option maxHeartbeats 4000000 in
theorem arg10_eq (V : Valuation τ sig (Elt F)) : after ops V (main_arg10 : DevRef τ sig) = V (main_arg10 : DevRef τ sig) := by
  simp only [after_cons, after_nil]
  rfl

set_option maxRecDepth 16384 in
set_option maxHeartbeats 4000000 in
theorem arg11_eq (V : Valuation τ sig (Elt F)) : after ops V (main_arg11 : DevRef τ sig) = V (main_arg11 : DevRef τ sig) := by
  simp only [after_cons, after_nil]
  rfl

set_option maxRecDepth 16384 in
set_option maxHeartbeats 4000000 in
theorem arg12_eq (V : Valuation τ sig (Elt F)) : after ops V (main_arg12 : DevRef τ sig) = V (main_arg12 : DevRef τ sig) := by
  simp only [after_cons, after_nil]
  rfl

set_option maxRecDepth 16384 in
set_option maxHeartbeats 4000000 in
theorem arg13_eq (V : Valuation τ sig (Elt F)) : after ops V (main_arg13 : DevRef τ sig) = V (main_arg13 : DevRef τ sig) := by
  simp only [after_cons, after_nil]
  rfl

set_option maxRecDepth 16384 in
set_option maxHeartbeats 4000000 in
theorem arg14_eq (V : Valuation τ sig (Elt F)) : after ops V (main_arg14 : DevRef τ sig) = V (main_arg14 : DevRef τ sig) := by
  simp only [after_cons, after_nil]
  rfl

set_option maxRecDepth 16384 in
set_option maxHeartbeats 4000000 in
theorem arg15_eq (V : Valuation τ sig (Elt F)) : after ops V (main_arg15 : DevRef τ sig) = V (main_arg15 : DevRef τ sig) := by
  simp only [after_cons, after_nil]
  rfl

set_option maxRecDepth 16384 in
set_option maxHeartbeats 4000000 in
theorem arg16_eq (V : Valuation τ sig (Elt F)) : after ops V (main_arg16 : DevRef τ sig) = V (main_arg16 : DevRef τ sig) := by
  simp only [after_cons, after_nil]
  rfl

set_option maxRecDepth 16384 in
set_option maxHeartbeats 4000000 in
theorem arg17_eq (V : Valuation τ sig (Elt F)) : after ops V (main_arg17 : DevRef τ sig) = V (main_arg17 : DevRef τ sig) := by
  simp only [after_cons, after_nil]
  rfl

set_option maxRecDepth 16384 in
set_option maxHeartbeats 4000000 in
theorem arg18_eq (V : Valuation τ sig (Elt F)) : after ops V (main_arg18 : DevRef τ sig) = V (main_arg18 : DevRef τ sig) := by
  simp only [after_cons, after_nil]
  rfl

set_option maxRecDepth 16384 in
set_option maxHeartbeats 4000000 in
theorem arg19_eq (V : Valuation τ sig (Elt F)) : after ops V (main_arg19 : DevRef τ sig) = V (main_arg19 : DevRef τ sig) := by
  simp only [after_cons, after_nil]
  rfl

set_option maxRecDepth 16384 in
set_option maxHeartbeats 4000000 in
theorem arg20_eq (V : Valuation τ sig (Elt F)) : after ops V (main_arg20 : DevRef τ sig) = V (main_arg20 : DevRef τ sig) := by
  simp only [after_cons, after_nil]
  rfl

/-! ## The run -/

set_option maxRecDepth 16384 in
set_option maxHeartbeats 4000000 in
/-- For any float values, from any memory with zero counters: every weakly fair execution of @main terminates with the
    scores and the hidden array at their terms of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) = Cert.Gnn.resS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v130) = Cert.Gnn.resS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v130) = Cert.Gnn.resS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v114) = Cert.Gnn.resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20))
      ∧ r.2.mem ((c.tc : Thread nD τ).loc main_v114) = Cert.Gnn.resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v130).trans (score_eq _), (h c main_v130).trans (score_eq _),
      (h c main_v130).trans (score_eq _), (h c main_v114).trans (hid_eq _), (h c main_v114).trans (hid_eq _),
      (h c main_arg0).trans (arg0_eq _), (h c main_arg1).trans (arg1_eq _), (h c main_arg2).trans (arg2_eq _), (h c main_arg3).trans (arg3_eq _),
      (h c main_arg4).trans (arg4_eq _), (h c main_arg5).trans (arg5_eq _), (h c main_arg6).trans (arg6_eq _), (h c main_arg7).trans (arg7_eq _),
      (h c main_arg8).trans (arg8_eq _), (h c main_arg9).trans (arg9_eq _), (h c main_arg10).trans (arg10_eq _), (h c main_arg11).trans (arg11_eq _),
      (h c main_arg12).trans (arg12_eq _), (h c main_arg13).trans (arg13_eq _), (h c main_arg14).trans (arg14_eq _), (h c main_arg15).trans (arg15_eq _),
      (h c main_arg16).trans (arg16_eq _), (h c main_arg17).trans (arg17_eq _), (h c main_arg18).trans (arg18_eq _), (h c main_arg19).trans (arg19_eq _),
      (h c main_arg20).trans (arg20_eq _)⟩)
    (run_main m ρ)

end Cert.ReferenceIdeal.Hand

end
-- ==== Proof.lean ====
/-
  The certificate of a node-scoring graph network: a kernel program of three row-blocked kernels among host
  gathers and scatters, against a host-only reference.

  Both programs compute, per node, three dense features of the node's own rows, a fourth passed through two
  graph-convolution layers (rows gathered along the edges, weighted by the inverse square roots of the two ends'
  degrees, summed at the destinations), a 512-wide hidden row from the four pieces side by side, and a logistic
  score.  The kernels work on blocks of 1000 rows; a dense layer's row depends on the same row of its input only,
  so the blocks of each kernel's output are the blocks of one whole-array function, and the graph steps between
  the kernels are the reference's own operations on whole arrays.  On the extended reals a change of float format
  is the identity and a product into a zero accumulator is the plain sum, so both programs end at the same two
  arrays: the hidden array and the scores (Proof/Terms.lean states them once).  No law beyond reading each array
  at an index is used, and the inputs' finiteness is not needed.

  The frames of the two kernel programs are the generated ones; the reference's frame is its run with the
  results dropped; the idealization rewrote nothing.
-/
import proofs.«104056_j89859305767623_1_alg».proof.Defs
import proofs.«104056_j89859305767623_1_alg».proof.Proof.Gen.Kernel
import proofs.«104056_j89859305767623_1_alg».proof.Proof.Gen.Kernel.Frame
import proofs.«104056_j89859305767623_1_alg».proof.Proof.Gen.KernelIdeal
import proofs.«104056_j89859305767623_1_alg».proof.Proof.Gen.KernelIdeal.Frame
import proofs.«104056_j89859305767623_1_alg».proof.Proof.Gen.ReferenceIdeal
import proofs.«104056_j89859305767623_1_alg».proof.Proof.Gen.Pre_finite_inputs
import proofs.«104056_j89859305767623_1_alg».proof.Proof.KRun
import proofs.«104056_j89859305767623_1_alg».proof.Proof.KValue
import proofs.«104056_j89859305767623_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its five results dropped. -/
theorem frame_referenceIdeal : Cert.frame_ReferenceIdeal := fun m ρ _ =>
  (θ_run Cert.ReferenceIdeal.defs _ _).mono (fun _ h c => (h c).2.2.2.2.2) (Cert.ReferenceIdeal.Hand.run (F := Ideal) m ρ)

/-- The ideal pass rewrote no operation. -/
theorem preserves : Cert.preserves_Kernel_KernelIdeal := trivial

/-- Equal argument arrays give equal scores. -/
theorem resS_congr {a0 b0 : Cert.Gnn.Arr Ideal Cert.ReferenceIdeal.S50000x64 .f32} {a1 b1 : Cert.Gnn.Arr Ideal Cert.ReferenceIdeal.S50000x39 .f32} {a2 b2 : Cert.Gnn.Arr Ideal Cert.ReferenceIdeal.S64x256 .f32} {a3 b3 : Cert.Gnn.Arr Ideal Cert.ReferenceIdeal.S256 .f32} {a4 b4 : Cert.Gnn.Arr Ideal Cert.ReferenceIdeal.S13x256 .f32} {a5 b5 : Cert.Gnn.Arr Ideal Cert.ReferenceIdeal.S256 .f32} {a6 b6 : Cert.Gnn.Arr Ideal Cert.ReferenceIdeal.S13x256 .f32} {a7 b7 : Cert.Gnn.Arr Ideal Cert.ReferenceIdeal.S256 .f32} {a8 b8 : Cert.Gnn.Arr Ideal Cert.ReferenceIdeal.S64x256 .f32} {a9 b9 : Cert.Gnn.Arr Ideal Cert.ReferenceIdeal.S256 .f32} {a10 b10 : Cert.Gnn.Arr Ideal Cert.ReferenceIdeal.S256x256 .f32} {a11 b11 : Cert.Gnn.Arr Ideal Cert.ReferenceIdeal.S256 .f32} {a12 b12 : Cert.Gnn.Arr Ideal Cert.ReferenceIdeal.S256x256 .f32} {a13 b13 : Cert.Gnn.Arr Ideal Cert.ReferenceIdeal.S256 .f32} {a14 b14 : Cert.Gnn.Arr Ideal Cert.ReferenceIdeal.S1024x512 .f32} {a15 b15 : Cert.Gnn.Arr Ideal Cert.ReferenceIdeal.S512 .f32} {a16 b16 : Cert.Gnn.Arr Ideal Cert.ReferenceIdeal.S512x256 .f32} {a17 b17 : Cert.Gnn.Arr Ideal Cert.ReferenceIdeal.S256 .f32} {a18 b18 : Cert.Gnn.Arr Ideal Cert.ReferenceIdeal.S256x1 .f32} {a19 b19 : Cert.Gnn.Arr Ideal Cert.ReferenceIdeal.S1 .f32} {a20 b20 : Cert.Gnn.Arr Ideal Cert.ReferenceIdeal.S2x800000 .i32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    Cert.Gnn.resS a0 a1 a2 a3 a4 a5 a6 a7 a8 a9 a10 a11 a12 a13 a14 a15 a16 a17 a18 a19 a20 = Cert.Gnn.resS b0 b1 b2 b3 b4 b5 b6 b7 b8 b9 b10 b11 b12 b13 b14 b15 b16 b17 b18 b19 b20 := by
  subst h0 h1 h2 h3 h4 h5 h6 h7 h8 h9 h10 h11 h12 h13 h14 h15 h16 h17 h18 h19 h20
  rfl

/-- Equal argument arrays give equal hidden arrays. -/
theorem resH_congr {a0 b0 : Cert.Gnn.Arr Ideal Cert.ReferenceIdeal.S50000x64 .f32} {a1 b1 : Cert.Gnn.Arr Ideal Cert.ReferenceIdeal.S50000x39 .f32} {a2 b2 : Cert.Gnn.Arr Ideal Cert.ReferenceIdeal.S64x256 .f32} {a3 b3 : Cert.Gnn.Arr Ideal Cert.ReferenceIdeal.S256 .f32} {a4 b4 : Cert.Gnn.Arr Ideal Cert.ReferenceIdeal.S13x256 .f32} {a5 b5 : Cert.Gnn.Arr Ideal Cert.ReferenceIdeal.S256 .f32} {a6 b6 : Cert.Gnn.Arr Ideal Cert.ReferenceIdeal.S13x256 .f32} {a7 b7 : Cert.Gnn.Arr Ideal Cert.ReferenceIdeal.S256 .f32} {a8 b8 : Cert.Gnn.Arr Ideal Cert.ReferenceIdeal.S64x256 .f32} {a9 b9 : Cert.Gnn.Arr Ideal Cert.ReferenceIdeal.S256 .f32} {a10 b10 : Cert.Gnn.Arr Ideal Cert.ReferenceIdeal.S256x256 .f32} {a11 b11 : Cert.Gnn.Arr Ideal Cert.ReferenceIdeal.S256 .f32} {a12 b12 : Cert.Gnn.Arr Ideal Cert.ReferenceIdeal.S256x256 .f32} {a13 b13 : Cert.Gnn.Arr Ideal Cert.ReferenceIdeal.S256 .f32} {a14 b14 : Cert.Gnn.Arr Ideal Cert.ReferenceIdeal.S1024x512 .f32} {a15 b15 : Cert.Gnn.Arr Ideal Cert.ReferenceIdeal.S512 .f32} {a20 b20 : Cert.Gnn.Arr Ideal Cert.ReferenceIdeal.S2x800000 .i32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h20 : a20 = b20) :
    Cert.Gnn.resH a0 a1 a2 a3 a4 a5 a6 a7 a8 a9 a10 a11 a12 a13 a14 a15 a20 = Cert.Gnn.resH b0 b1 b2 b3 b4 b5 b6 b7 b8 b9 b10 b11 b12 b13 b14 b15 b20 := by
  subst h0 h1 h2 h3 h4 h5 h6 h7 h8 h9 h10 h11 h12 h13 h14 h15 h20
  rfl

set_option maxHeartbeats 1000000 in
/-- Both programs, from memories agreeing on the arguments, end with the scores and the hidden array of the
    argument arrays. -/
theorem algebraic : Cert.algebraic_KernelIdeal_ReferenceIdeal := by
  intro m ρ m' ρ' _ hagree
  refine ⟨fun c => Cert.Gnn.resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.Gnn.resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.Gnn.resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.Gnn.resH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg20)),
    fun c => Cert.Gnn.resH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg20)), ?_, ?_⟩
  · refine (θ_run Cert.KernelIdeal.defs _ _).mono (fun r h c => ?_) (Cert.KernelIdeal.Hand.run_results (F := Ideal) m ρ)
    obtain ⟨hs, hh, hargs⟩ := h c
    have es := hs.trans (Cert.KernelIdeal.Fold.W7_score m ρ c)
    have eh := hh.trans (Cert.KernelIdeal.Fold.W7_hid m ρ c)
    exact ⟨es, es, es, eh, eh, hargs⟩
  · refine (θ_run Cert.ReferenceIdeal.defs _ _).mono (fun r h c => ?_) (Cert.ReferenceIdeal.Hand.run (F := Ideal) m' ρ')
    obtain ⟨e0, e1, e2, e3, e4, e5, e6, e7, e8, e9, e10, e11, e12, e13, e14, e15, e16, e17, e18, e19, e20⟩ := hagree c
    have eS := resS_congr e0 e1 e2 e3 e4 e5 e6 e7 e8 e9 e10 e11 e12 e13 e14 e15 e16 e17 e18 e19 e20
    have eH := resH_congr e0 e1 e2 e3 e4 e5 e6 e7 e8 e9 e10 e11 e12 e13 e14 e15 e20
    obtain ⟨h0, h1, h2, h3, h4, hargs⟩ := h c
    exact ⟨h0.trans eS, h1.trans eS, h2.trans eS, h3.trans eH, h4.trans eH, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
